-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  reducesTo_S_S_d : S_.ReducesTo [] S_

variable [Facts]

def fn_part2 {F : FTy → Type} [FloatOps F] (main_arg8 : FVec F S128 .f32) (main_arg9 : FVec F S128 .f32) (main_arg10 : FVec F S_ .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S_ .f32 := Host.absf main_arg10
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  main_v47

def fn_part1 {F : FTy → Type} [FloatOps F] (main_arg5 : FVec F S16x128 .f32) (main_arg6 : FVec F S16 .f32) (main_arg7 : FVec F S16x128 .f32) (main_arg8 : FVec F S128 .f32) (main_arg9 : FVec F S128 .f32) (main_arg10 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x128 .f32 := Host.absf main_arg7
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S16x128 .f32) (main_arg6 : FVec F S16 .f32) (main_arg7 : FVec F S16x128 .f32) (main_arg8 : FVec F S128 .f32) (main_arg9 : FVec F S128 .f32) (main_arg10 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S10x1x128 : Shape := ⟨3, ![10, 1, 128]⟩
abbrev S5000x128 : Shape := ⟨2, ![5000, 128]⟩
abbrev S5000x1 : Shape := ⟨2, ![5000, 1]⟩
abbrev S1x1x128 : Shape := ⟨3, ![1, 1, 128]⟩
abbrev S10x128 : Shape := ⟨2, ![10, 128]⟩
abbrev S128x16 : Shape := ⟨2, ![128, 16]⟩
abbrev S1x16 : Shape := ⟨2, ![1, 16]⟩
abbrev S50000x16 : Shape := ⟨2, ![50000, 16]⟩
abbrev S5000x16 : Shape := ⟨2, ![5000, 16]⟩
abbrev S5000 : Shape := ⟨1, ![5000]⟩

abbrev nBuf : Space → Nat
  | .hbm => 92
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S16x128, .f32⟩
  | .hbm, ⟨6, _⟩ => ⟨S16, .f32⟩
  | .hbm, ⟨7, _⟩ => ⟨S16x128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S50000x128, .f32⟩
  | .hbm, ⟨48, _⟩ => ⟨S10x1x128, .f32⟩
  | .hbm, ⟨49, _⟩ => ⟨S10x1x128, .f32⟩
  | .hbm, ⟨50, _⟩ => ⟨S10x128, .f32⟩
  | .hbm, ⟨51, _⟩ => ⟨S10x128, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S128x16, .f32⟩
  | .hbm, ⟨87, _⟩ => ⟨S128x16, .bf16⟩
  | .hbm, ⟨88, _⟩ => ⟨S128x16, .f32⟩
  | .hbm, ⟨89, _⟩ => ⟨S128x16, .bf16⟩
  | .hbm, ⟨90, _⟩ => ⟨S1x16, .f32⟩
  | .hbm, ⟨91, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x16, .bf16⟩
  | .local _ .vmem, ⟨33, _⟩ => ⟨S1x16, .f32⟩
  | .local _ .vmem, ⟨34, _⟩ => ⟨S128x16, .bf16⟩
  | .local _ .vmem, ⟨35, _⟩ => ⟨S5000x16, .f32⟩
  | .local _ .vmem, ⟨36, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem6_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x16 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S10x1x128_S10x128 : S10x1x128.ShapeCasts S10x128
  reducesTo_S10x128_S128_d0 : S10x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  transposes_S16x128_S128x16_1_0 : S16x128.Transposes [1, 0] S128x16
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S10x1x128.size a
  hwx0_7 : ∀ i : grid0.Coords, EltTy.bits .f32 = 32 ∨ (Rect.block (s := S10x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S10x1x128.size a
  hwx0_8 : ∀ i : grid0.Coords, EltTy.bits .f32 = 32 ∨ (Rect.block (s := S10x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .bf16 = 32 ∨ (Rect.block (s := S128x16) S128x16.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .bf16 = 32 ∨ (Rect.block (s := S128x16) S128x16.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S50000x16.size a
  hwx2_6 : ∀ i : grid2.Coords, EltTy.bits .f32 = 32 ∨ (Rect.block (s := S50000x16) S5000x16.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x16 : Shape := ⟨2, ![128, 16]⟩
abbrev S50000x16 : Shape := ⟨2, ![50000, 16]⟩
abbrev S1x16 : Shape := ⟨2, ![1, 16]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S16x128, .f32⟩
  | 6 => ⟨S16, .f32⟩
  | 7 => ⟨S16x128, .f32⟩
  | 8 => ⟨S128, .f32⟩
  | 9 => ⟨S128, .f32⟩
  | 10 => ⟨S_, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .i1⟩
  | 96 => ⟨S50000x128, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S_, .f32⟩
  | 121 => ⟨S50000, .f32⟩
  | 122 => ⟨S50000, .f32⟩
  | 123 => ⟨S50000x1, .f32⟩
  | 124 => ⟨S50000x128, .f32⟩
  | 125 => ⟨S50000x128, .f32⟩
  | 126 => ⟨S128x16, .f32⟩
  | 127 => ⟨S50000x16, .f32⟩
  | _ => ⟨S50000x128, .f32⟩

abbrev hbmTy0_1 (i : Nat) : BufTy := match i % 128 with
  | 0 => ⟨S1x16, .f32⟩
  | 1 => ⟨S50000x16, .f32⟩
  | 2 => ⟨S50000x16, .f32⟩
  | 3 => ⟨S128x16, .f32⟩
  | 4 => ⟨S50000x16, .f32⟩
  | 5 => ⟨S50000x16, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x16, .f32⟩
  | 13 => ⟨S50000x16, .f32⟩
  | 14 => ⟨S50000x16, .f32⟩
  | 15 => ⟨S_, .f32⟩
  | 16 => ⟨S50000, .f32⟩
  | 17 => ⟨S50000x1, .f32⟩
  | 18 => ⟨S50000x1, .f32⟩
  | 19 => ⟨S50000x16, .f32⟩
  | 20 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_9 : Ref sig .tc := ⟨.hbm, 100, rfl⟩
abbrev main_v55 : Ref sig .tc := ⟨.hbm, 101, rfl⟩
abbrev main_v56 : Ref sig .tc := ⟨.hbm, 102, rfl⟩
abbrev main_c_10 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_12 : Ref sig .tc := ⟨.hbm, 113, rfl⟩
abbrev main_v65 : Ref sig .tc := ⟨.hbm, 114, rfl⟩
abbrev main_cst_13 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_14 : Ref sig .tc := ⟨.hbm, 119, rfl⟩
abbrev main_call3_v0 : Ref sig .tc := ⟨.hbm, 120, rfl⟩
abbrev main_call3_v1 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_call4_cst : Ref sig .tc := ⟨.hbm, 134, rfl⟩
abbrev main_call4_v0 : Ref sig .tc := ⟨.hbm, 135, rfl⟩
abbrev main_call4_cst_0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_cst_1 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_v81 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S16x128_S128x16_1_0 : S16x128.Transposes [1, 0] S128x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  bcast_S50000x1_S50000x16_0_1 : S50000x1.BroadcastsInDim S50000x16 (![0, 1] : Fin 2 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KerRun.lean ====
import proofs.«165145_j85615878078999_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement, which takes
-- unfolding plain definitions in a metavariable's type
set_option backward.isDefEq.respectTransparency.types false in
/-- The run of @main with its result named: every weakly fair execution terminates, nothing faulting, the result
    buffer holds the last boundary's contents and every argument array ends as launched. -/
theorem run_valued : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KerRun

end
-- ==== Proof.KerTerm.lean ====
import proofs.«165145_j85615878078999_2_alg».proof.Proof.Gen.KernelIdeal
import Idealize.ShloMosaic.PureOps.Ideal

noncomputable section

namespace Cert.KernelIdeal.KerTerm

open Cert.KernelIdeal Cert.KernelIdeal.Gen
open Idealize.ShloMosaic

/-! # The host operations around the three regions, as pure terms at the exact extended reals

Each definition is the composition of the operation functions of one chain of host operations of @main, over the
arrays the chain starts from. -/

/-- Row 0 of the edge list, flattened: the source node of every edge (%1). -/
def srcRow (ei : IVec S2x800000 32) : IVec S800000 32 :=
  shapeCast S800000 (extractStridedSlice S1x800000 ![0, 0] ei slices_S2x800000_S1x800000_0_0) shapeCasts_S1x800000_S800000

/-- Row 1 of the edge list, flattened: the destination node of every edge (%3). -/
def dstRow (ei : IVec S2x800000 32) : IVec S800000 32 :=
  shapeCast S800000 (extractStridedSlice S1x800000 ![1, 0] ei slices_S2x800000_S1x800000_1_0) shapeCasts_S1x800000_S800000

/-- The gather's start indices: a negative source index moved up by the node count, as one column (%9; %51 is the
    same operations). -/
def srcIdx (ei : IVec S2x800000 32) : IVec S800000x1 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32)))
      (srcRow ei))

/-- The scatter's indices: the destination nodes as one column (%12 = %16 = %54). -/
def dstIdx (ei : IVec S2x800000 32) : IVec S800000x1 32 :=
  broadcastInDim S800000x1 ![0] bcast_S800000_S800000x1_0 (dstRow ei)

/-- The neighbour sum: every edge's source row of `X` added into its destination row of a zero array
    (%13 at `X` = %arg0, %55 at `X` = %45). -/
def aggSum (ei : IVec S2x800000 32) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstIdx ei)
    (Host.gather gather_S50000x128_S800000x1_S800000x128_1_0_n_n_0_1_1128 X (srcIdx ei))

/-- The in-degree of every node (%17): a one added per edge at its destination. -/
def deg (ei : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32))
    (dstIdx ei)
    (broadcastInDim S800000 ![] bcast_S_S800000 (constant (F := Ideal) S_ .f32 0x3F800000#32))

/-- The in-degree clipped below at one (%18). -/
def cnt (ei : IVec S2x800000 32) : FVec Ideal S50000 .f32 :=
  maximumf (broadcastInDim S50000 ![] bcast_S_S50000 (constant (F := Ideal) S_ .f32 0x3F800000#32)) (deg ei)

/-- The reciprocal of the clipped in-degree, as one column (%21). -/
def invc (ei : IVec S2x800000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (cnt ei))

/-- A square weight matrix transposed and narrowed (%23 from %arg2, %25 from %arg4). -/
def wT (W : FVec Ideal S128x128 .f32) : FVec Ideal S128x128 .bf16 :=
  truncf .bf16 (transpose S128x128 [1, 0] W transposes_S128x128_S128x128_1_0) bitsLt_bf16_f32

/-- An output weight matrix transposed and narrowed (%57 from %arg5, %59 from %arg7). -/
def wT2 (W : FVec Ideal S16x128 .f32) : FVec Ideal S128x16 .bf16 :=
  truncf .bf16 (transpose S128x16 [1, 0] W transposes_S16x128_S128x16_1_0) bitsLt_bf16_f32

/-- A vector of 128 as one row (%26 from %arg3, %43 from %arg8, %44 from %arg9). -/
def row (b : FVec Ideal S128 .f32) : FVec Ideal S1x128 .f32 :=
  shapeCast S1x128 b shapeCasts_S128_S1x128

/-- A vector of 16 as one row (%60 from %arg6). -/
def row16 (b : FVec Ideal S16 .f32) : FVec Ideal S1x16 .f32 :=
  shapeCast S1x16 b shapeCasts_S16_S1x16

/-- The ten partial rows summed and divided by the node count (%35 from %27#1; %37 from %27#2). -/
def meanOf (p : FVec Ideal S10x1x128 .f32) : FVec Ideal S1x128 .f32 :=
  Host.divf (F := Ideal)
    (broadcastInDim S1x128 ![1] bcast_S128_S1x128_1
      (Host.reduceAdd (F := Ideal) (shapeCast S10x128 p shapeCasts_S10x1x128_S10x128)
        (constant (F := Ideal) S_ .f32 0x00000000#32) reducesTo_S10x128_S128_d0 h_S_))
    (broadcastInDim S1x128 ![] bcast_S_S1x128 (constant (F := Ideal) S_ .f32 0x47435000#32))

/-- The mean of squares less the squared mean, clipped below at zero (%41 from %27#1 and %27#2). -/
def varOf (p q : FVec Ideal S10x1x128 .f32) : FVec Ideal S1x128 .f32 :=
  maximumf (subf (meanOf q) (mulf (meanOf p) (meanOf p)))
    (broadcastInDim S1x128 ![] bcast_S_S1x128 (constant (F := Ideal) S_ .f32 0x00000000#32))

/-- A scalar as one row of 128 (%42 from %arg10). -/
def aRow (a : FVec Ideal S_ .f32) : FVec Ideal S1x128 .f32 :=
  broadcastInDim S1x128 ![] bcast_S_S1x128 a

end Cert.KernelIdeal.KerTerm

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«165145_j85615878078999_2_alg».proof.Proof.LibPlainMatmul
import proofs.«165145_j85615878078999_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.RegionForms.lean ====
/-
  The three dense stages of a two-layer neighbourhood-averaging network, each as ONE function of whole arrays over the
  extended reals.

  * `lin S X D Wl B Wr`: entry (r, q) is (Σ_k (S(r, k) · D(r, 0)) · Wl(k, q) + B(0, q)) + Σ_k X(r, k) · Wr(k, q) — the
    neighbour sums S with row r scaled by the r-th entry of the one-column array D, times the left weights, plus a row
    vector, plus the rows X themselves times the right weights.
  * `blockSums H` and `blockSqSums H`: the 50000 rows cut into 10 consecutive blocks of 5000; entry (t, 0, j) is the
    sum over the rows of block t of column j of H, respectively of its squares.
  * `norm1 H X M Vr G Bt A`: entry (r, j) is f(hn) + X(r, j), where hn = G(0, j) · (H(r, j) − M(0, j)) ·
    rsqrt(Vr(0, j) + ε) + Bt(0, j) is the column-normalised entry and f keeps a value that is ≥ 0 and multiplies any
    other by A(0, j). The two float words (ε and the zero) are kept as the words the program writes.
  * `lsm2 O`: entry (r, j) is (O(r, j) − mx(r)) − log Σ_j' exp(O(r, j') − mx(r)), with mx(r) the maximum of row r,
    folded from the word of −∞.
-/
import Idealize.ShloMosaic.PureOps.Ideal.Laws
import Idealize.ShloMosaic.Lib.ValueIdx
import proofs.«165145_j85615878078999_2_alg».proof.Proof.LibMatrixProduct

noncomputable section

open scoped BigOperators

namespace Cert.KernelIdeal.RegionForms

open Idealize.ShloMosaic Idealize.ShloMosaic.ValueIdx Cert.MatrixProduct

/-- Row `p` of block `t` when 50000 rows are cut into 10 consecutive blocks of 5000: row `5000 · t + p`. -/
def blockRow (t : Fin 10) (p : Fin 5000) : Fin 50000 := ⟨5000 * t.val + p.val, by omega⟩

theorem blockRow_val (t : Fin 10) (p : Fin 5000) : (blockRow t p).val = 5000 * t.val + p.val := rfl

/-- Each row of `S` scaled by that row's entry of the one-column array `D`. -/
def rowScaled {M K : ℕ} (S : (⟨2, ![M, K]⟩ : Shape).Idx → EReal) (D : (⟨2, ![M, 1]⟩ : Shape).Idx → EReal) :
    (⟨2, ![M, K]⟩ : Shape).Idx → EReal :=
  fun j => S j * D (ix2 (j 0) (0 : Fin 1))

theorem rowScaled_apply {M K : ℕ} (S : (⟨2, ![M, K]⟩ : Shape).Idx → EReal) (D : (⟨2, ![M, 1]⟩ : Shape).Idx → EReal)
    (r : Fin M) (k : Fin K) : rowScaled S D (ix2 r k) = S (ix2 r k) * D (ix2 r (0 : Fin 1)) := rfl

/-- The dense stage: scaled neighbour sums times the left weights, plus a row vector, plus the rows times the right
    weights. -/
def lin {n : ℕ} (S X : (⟨2, ![50000, 128]⟩ : Shape).Idx → EReal) (D : (⟨2, ![50000, 1]⟩ : Shape).Idx → EReal)
    (Wl : (⟨2, ![128, n]⟩ : Shape).Idx → EReal) (B : (⟨2, ![1, n]⟩ : Shape).Idx → EReal)
    (Wr : (⟨2, ![128, n]⟩ : Shape).Idx → EReal) : (⟨2, ![50000, n]⟩ : Shape).Idx → EReal :=
  fun i => (mm (rowScaled S D) Wl i + B (ix2 (0 : Fin 1) (i 1))) + mm X Wr i

/-- The dense stage read at an entry given by its coordinates. -/
theorem lin_apply {n : ℕ} (S X : (⟨2, ![50000, 128]⟩ : Shape).Idx → EReal) (D : (⟨2, ![50000, 1]⟩ : Shape).Idx → EReal)
    (Wl : (⟨2, ![128, n]⟩ : Shape).Idx → EReal) (B : (⟨2, ![1, n]⟩ : Shape).Idx → EReal)
    (Wr : (⟨2, ![128, n]⟩ : Shape).Idx → EReal) (r : Fin 50000) (q : Fin n) :
    lin S X D Wl B Wr (ix2 r q)
      = (∑ k : Fin 128, (S (ix2 r k) * D (ix2 r (0 : Fin 1))) * Wl (ix2 k q) + B (ix2 (0 : Fin 1) q))
        + ∑ k : Fin 128, X (ix2 r k) * Wr (ix2 k q) := rfl

/-- The sums of each block of 5000 rows, column by column. -/
def blockSums (H : (⟨2, ![50000, 128]⟩ : Shape).Idx → EReal) : (⟨3, ![10, 1, 128]⟩ : Shape).Idx → EReal :=
  fun i => ∑ p : Fin 5000, H (ix2 (blockRow (i 0) p) (i 2))

theorem blockSums_apply (H : (⟨2, ![50000, 128]⟩ : Shape).Idx → EReal) (t : Fin 10) (u : Fin 1) (j : Fin 128) :
    blockSums H (ix3 t u j) = ∑ p : Fin 5000, H (ix2 (blockRow t p) j) := rfl

/-- The sums of the squares of each block of 5000 rows, column by column. -/
def blockSqSums (H : (⟨2, ![50000, 128]⟩ : Shape).Idx → EReal) : (⟨3, ![10, 1, 128]⟩ : Shape).Idx → EReal :=
  fun i => ∑ p : Fin 5000, H (ix2 (blockRow (i 0) p) (i 2)) * H (ix2 (blockRow (i 0) p) (i 2))

theorem blockSqSums_apply (H : (⟨2, ![50000, 128]⟩ : Shape).Idx → EReal) (t : Fin 10) (u : Fin 1) (j : Fin 128) :
    blockSqSums H (ix3 t u j) = ∑ p : Fin 5000, H (ix2 (blockRow t p) j) * H (ix2 (blockRow t p) j) := rfl

/-- The column-normalised entry: `G · (H − M) · rsqrt(Vr + ε) + Bt`, the statistics and the two affine rows read at the
    entry's column. -/
def normed (H : (⟨2, ![50000, 128]⟩ : Shape).Idx → EReal) (M Vr G Bt : (⟨2, ![1, 128]⟩ : Shape).Idx → EReal) :
    (⟨2, ![50000, 128]⟩ : Shape).Idx → EReal :=
  fun i => G (ix2 (0 : Fin 1) (i 1)) * (H i - M (ix2 (0 : Fin 1) (i 1)))
      * Ideal.rsqrt (Vr (ix2 (0 : Fin 1) (i 1)) + Ideal.ofBits .f32 0x3727C5AC#32)
    + Bt (ix2 (0 : Fin 1) (i 1))

theorem normed_apply (H : (⟨2, ![50000, 128]⟩ : Shape).Idx → EReal) (M Vr G Bt : (⟨2, ![1, 128]⟩ : Shape).Idx → EReal)
    (r : Fin 50000) (j : Fin 128) :
    normed H M Vr G Bt (ix2 r j)
      = G (ix2 (0 : Fin 1) j) * (H (ix2 r j) - M (ix2 (0 : Fin 1) j))
          * Ideal.rsqrt (Vr (ix2 (0 : Fin 1) j) + Ideal.ofBits .f32 0x3727C5AC#32)
        + Bt (ix2 (0 : Fin 1) j) := rfl

/-- The normalisation stage: the normalised entry kept where it is ≥ 0 and multiplied by the slope row elsewhere, plus
    the rows `X`. -/
def norm1 (H X : (⟨2, ![50000, 128]⟩ : Shape).Idx → EReal) (M Vr G Bt A : (⟨2, ![1, 128]⟩ : Shape).Idx → EReal) :
    (⟨2, ![50000, 128]⟩ : Shape).Idx → EReal :=
  fun i => Scalar.select (Ideal.cmp .oge (normed H M Vr G Bt i) (Ideal.ofBits .f32 0x00000000#32))
      (normed H M Vr G Bt i) (A (ix2 (0 : Fin 1) (i 1)) * normed H M Vr G Bt i)
    + X i

theorem norm1_apply (H X : (⟨2, ![50000, 128]⟩ : Shape).Idx → EReal) (M Vr G Bt A : (⟨2, ![1, 128]⟩ : Shape).Idx → EReal)
    (r : Fin 50000) (j : Fin 128) :
    norm1 H X M Vr G Bt A (ix2 r j)
      = Scalar.select (Ideal.cmp .oge (normed H M Vr G Bt (ix2 r j)) (Ideal.ofBits .f32 0x00000000#32))
          (normed H M Vr G Bt (ix2 r j)) (A (ix2 (0 : Fin 1) j) * normed H M Vr G Bt (ix2 r j))
        + X (ix2 r j) := rfl

/-- The maximum of row `r` of a 16-column array, folded from the word of −∞. -/
def rowMax {M : ℕ} (O : (⟨2, ![M, 16]⟩ : Shape).Idx → EReal) (r : Fin M) : EReal :=
  (Finset.univ : Finset (Fin 16)).fold max (FloatOps.ofBits (F := Ideal) .f32 0xFF800000#32) (fun c => O (ix2 r c))

/-- The logarithm of the sum of the exponentials of row `r` shifted by its maximum. -/
def rowLogSumExp {M : ℕ} (O : (⟨2, ![M, 16]⟩ : Shape).Idx → EReal) (r : Fin M) : EReal :=
  Ideal.log (∑ c : Fin 16, Ideal.exp (O (ix2 r c) - rowMax O r))

/-- The row-wise log-softmax: each entry minus its row's maximum, minus the logarithm of the row's sum of shifted
    exponentials. -/
def lsm2 (O : (⟨2, ![50000, 16]⟩ : Shape).Idx → EReal) : (⟨2, ![50000, 16]⟩ : Shape).Idx → EReal :=
  fun i => (O i - rowMax O (i 0)) - rowLogSumExp O (i 0)

theorem lsm2_apply (O : (⟨2, ![50000, 16]⟩ : Shape).Idx → EReal) (r : Fin 50000) (j : Fin 16) :
    lsm2 O (ix2 r j) = (O (ix2 r j) - rowMax O r) - rowLogSumExp O r := rfl

end Cert.KernelIdeal.RegionForms

end
-- ==== Proof.KerOut.lean ====
/-
  The kernel program's result as one term of its arguments: the row-wise log-softmax of the second dense stage over the
  normalisation stage of the first dense stage, the column statistics taken from the first stage's ten block sums and
  ten block sums of squares.
-/
import proofs.«165145_j85615878078999_2_alg».proof.Proof.KerTerm
import proofs.«165145_j85615878078999_2_alg».proof.Proof.RegionForms

noncomputable section

namespace Cert.KernelIdeal.KerValue

open Cert.KernelIdeal Cert.KernelIdeal.Gen Cert.KernelIdeal.RegionForms Cert.KernelIdeal.KerTerm
open Idealize.ShloMosaic

/-- The first dense stage. -/
def layer1 (x : FVec Ideal S50000x128 .f32) (ei : IVec S2x800000 32) (Wl1 : FVec Ideal S128x128 .f32)
    (bl1 : FVec Ideal S128 .f32) (Wr1 : FVec Ideal S128x128 .f32) : FVec Ideal S50000x128 .f32 :=
  lin (n := 128) (aggSum ei x) x (invc ei) (wT Wl1) (row bl1) (wT Wr1)

/-- The normalisation stage over the first dense stage, with the statistics from its block sums. -/
def hidden (x : FVec Ideal S50000x128 .f32) (ei : IVec S2x800000 32) (Wl1 : FVec Ideal S128x128 .f32)
    (bl1 : FVec Ideal S128 .f32) (Wr1 : FVec Ideal S128x128 .f32) (gamma beta : FVec Ideal S128 .f32)
    (a : FVec Ideal S_ .f32) : FVec Ideal S50000x128 .f32 :=
  norm1 (layer1 x ei Wl1 bl1 Wr1) x (meanOf (blockSums (layer1 x ei Wl1 bl1 Wr1)))
    (varOf (blockSums (layer1 x ei Wl1 bl1 Wr1)) (blockSqSums (layer1 x ei Wl1 bl1 Wr1))) (row gamma) (row beta) (aRow a)

/-- The kernel program's result. -/
def kerOut (x : FVec Ideal S50000x128 .f32) (ei : IVec S2x800000 32) (Wl1 : FVec Ideal S128x128 .f32)
    (bl1 : FVec Ideal S128 .f32) (Wr1 : FVec Ideal S128x128 .f32) (Wl2 : FVec Ideal S16x128 .f32)
    (bl2 : FVec Ideal S16 .f32) (Wr2 : FVec Ideal S16x128 .f32) (gamma beta : FVec Ideal S128 .f32)
    (a : FVec Ideal S_ .f32) : FVec Ideal S50000x16 .f32 :=
  lsm2 (lin (n := 16) (aggSum ei (hidden x ei Wl1 bl1 Wr1 gamma beta a)) (hidden x ei Wl1 bl1 Wr1 gamma beta a) (invc ei)
    (wT2 Wl2) (row16 bl2) (wT2 Wr2))

end Cert.KernelIdeal.KerValue

end
-- ==== Proof.KerHost.lean ====
import proofs.«165145_j85615878078999_2_alg».proof.Proof.Gen.KernelIdeal.Frame
import proofs.«165145_j85615878078999_2_alg».proof.Proof.KerTerm

set_option maxRecDepth 16384

noncomputable section

namespace Cert.KernelIdeal.KerHost

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A buffer that no operation of a stretch writes holds after the stretch what it held before it. -/
macro "stretch_keeps" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! # Each stretch of host operations, from any contents `W`: what it leaves in the buffers the regions read -/

/-- The neighbour sum over explicit source and destination rows. -/
def aggOf (s d : IVec S800000 32) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32)))
          s)))

theorem aggSum_eq (ei : IVec S2x800000 32) (X : FVec Ideal S50000x128 .f32) :
    KerTerm.aggSum ei X = aggOf (KerTerm.srcRow ei) (KerTerm.dstRow ei) X := rfl

/-- The reciprocal column of a clipped count. -/
def recipCol (n : FVec Ideal S50000 .f32) : FVec Ideal S50000x1 .f32 :=
  broadcastInDim S50000x1 ![0] bcast_S50000_S50000x1_0
    (Host.divf (F := Ideal) (broadcastInDim S50000 ![] bcast_S_S50000 (constant (F := Ideal) S_ .f32 0x3F800000#32)) n)

/-- A count clipped below at a scalar. -/
def clipAt (lo : FVec Ideal S_ .f32) (n : FVec Ideal S50000 .f32) : FVec Ideal S50000 .f32 :=
  maximumf (broadcastInDim S50000 ![] bcast_S_S50000 lo) n

theorem invc_eq (ei : IVec S2x800000 32) :
    KerTerm.invc ei = recipCol (clipAt (constant (F := Ideal) S_ .f32 0x3F800000#32) (KerTerm.deg ei)) := rfl

section Stretch
variable (W : Valuation τ sig (Elt Ideal))

theorem ops0_v1 : StableHlo.after (hostOps0 (F := Ideal)) W (Proc.devRef .tc main_v1)
    = KerTerm.srcRow (W (Proc.devRef .tc main_arg1)) := by
  dsimp only [hostOps0]
  after_results_simp <;> rfl

theorem ops0_v3 : StableHlo.after (hostOps0 (F := Ideal)) W (Proc.devRef .tc main_v3)
    = KerTerm.dstRow (W (Proc.devRef .tc main_arg1)) := by
  dsimp only [hostOps0]
  after_results_simp <;> rfl

theorem ops0_v13 : StableHlo.after (hostOps0 (F := Ideal)) W (Proc.devRef .tc main_v13)
    = KerTerm.aggSum (W (Proc.devRef .tc main_arg1)) (W (Proc.devRef .tc main_arg0)) := by
  dsimp only [hostOps0]
  after_results_simp <;> rfl

theorem ops0_v17 : StableHlo.after (hostOps0 (F := Ideal)) W (Proc.devRef .tc main_v17)
    = KerTerm.deg (W (Proc.devRef .tc main_arg1)) := by
  dsimp only [hostOps0]
  after_results_simp <;> rfl

theorem ops0_cst3 : StableHlo.after (hostOps0 (F := Ideal)) W (Proc.devRef .tc main_cst_3)
    = constant (F := Ideal) S_ .f32 0x3F800000#32 := by
  dsimp only [hostOps0]
  after_results_simp <;> rfl

theorem ops0_1_v18 : StableHlo.after (hostOps0_1 (F := Ideal)) W (Proc.devRef .tc main_v18)
    = clipAt (W (Proc.devRef .tc main_cst_3)) (W (Proc.devRef .tc main_v17)) := by
  dsimp only [hostOps0_1]
  after_results_simp <;> rfl

theorem ops0_2_v21 : StableHlo.after (hostOps0_2 (F := Ideal)) W (Proc.devRef .tc main_v21)
    = recipCol (W (Proc.devRef .tc main_v18)) := by
  dsimp only [hostOps0_2]
  after_results_simp <;> rfl

theorem ops0_2_v23 : StableHlo.after (hostOps0_2 (F := Ideal)) W (Proc.devRef .tc main_v23)
    = KerTerm.wT (W (Proc.devRef .tc main_arg2)) := by
  dsimp only [hostOps0_2]
  after_results_simp <;> rfl

theorem ops0_2_v25 : StableHlo.after (hostOps0_2 (F := Ideal)) W (Proc.devRef .tc main_v25)
    = KerTerm.wT (W (Proc.devRef .tc main_arg4)) := by
  dsimp only [hostOps0_2]
  after_results_simp <;> rfl

theorem ops0_2_v26 : StableHlo.after (hostOps0_2 (F := Ideal)) W (Proc.devRef .tc main_v26)
    = KerTerm.row (W (Proc.devRef .tc main_arg3)) := by
  dsimp only [hostOps0_2]
  after_results_simp <;> rfl

theorem ops1_v35 : StableHlo.after (hostOps1 (F := Ideal)) W (Proc.devRef .tc main_v35)
    = KerTerm.meanOf (W (Proc.devRef .tc main_v27_1)) := by
  dsimp only [hostOps1]
  after_results_simp <;> rfl

theorem ops1_v41 : StableHlo.after (hostOps1 (F := Ideal)) W (Proc.devRef .tc main_v41)
    = KerTerm.varOf (W (Proc.devRef .tc main_v27_1)) (W (Proc.devRef .tc main_v27_2)) := by
  dsimp only [hostOps1]
  after_results_simp <;> rfl

theorem ops1_v42 : StableHlo.after (hostOps1 (F := Ideal)) W (Proc.devRef .tc main_v42)
    = KerTerm.aRow (W (Proc.devRef .tc main_arg10)) := by
  dsimp only [hostOps1]
  after_results_simp <;> rfl

theorem ops1_v43 : StableHlo.after (hostOps1 (F := Ideal)) W (Proc.devRef .tc main_v43)
    = KerTerm.row (W (Proc.devRef .tc main_arg8)) := by
  dsimp only [hostOps1]
  after_results_simp <;> rfl

theorem ops1_v44 : StableHlo.after (hostOps1 (F := Ideal)) W (Proc.devRef .tc main_v44)
    = KerTerm.row (W (Proc.devRef .tc main_arg9)) := by
  dsimp only [hostOps1]
  after_results_simp <;> rfl

theorem ops2_v55 : StableHlo.after (hostOps2 (F := Ideal)) W (Proc.devRef .tc main_v55)
    = aggOf (W (Proc.devRef .tc main_v1)) (W (Proc.devRef .tc main_v3)) (W (Proc.devRef .tc main_v45)) := by
  dsimp only [hostOps2]
  after_results_simp <;> rfl

theorem ops2_v57 : StableHlo.after (hostOps2 (F := Ideal)) W (Proc.devRef .tc main_v57)
    = KerTerm.wT2 (W (Proc.devRef .tc main_arg5)) := by
  dsimp only [hostOps2]
  after_results_simp <;> rfl

theorem ops2_v59 : StableHlo.after (hostOps2 (F := Ideal)) W (Proc.devRef .tc main_v59)
    = KerTerm.wT2 (W (Proc.devRef .tc main_arg7)) := by
  dsimp only [hostOps2]
  after_results_simp <;> rfl

theorem ops2_v60 : StableHlo.after (hostOps2 (F := Ideal)) W (Proc.devRef .tc main_v60)
    = KerTerm.row16 (W (Proc.devRef .tc main_arg6)) := by
  dsimp only [hostOps2]
  after_results_simp <;> rfl

end Stretch

/-! # The walk: each buffer a region reads, back through the boundaries to the launch memory -/

section Walk
variable (m : (ℓ : Loc nD τ sig) → Buf (Elt Ideal) ℓ) (ρ : Dev nD → PrngReg)

/-! ## Up to region 0's entry -/

theorem W2_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := by stretch_keeps hostOps0_1
    _ = W0 m ρ c (Proc.devRef .tc main_arg2) := by stretch_keeps hostOps0
    _ = m ((c.tc : Thread nD τ).loc main_arg2) := rfl

theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := by stretch_keeps hostOps0_1
    _ = W0 m ρ c (Proc.devRef .tc main_arg3) := by stretch_keeps hostOps0
    _ = m ((c.tc : Thread nD τ).loc main_arg3) := rfl

theorem W2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := by stretch_keeps hostOps0_1
    _ = W0 m ρ c (Proc.devRef .tc main_arg4) := by stretch_keeps hostOps0
    _ = m ((c.tc : Thread nD τ).loc main_arg4) := rfl

theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c.tc : Thread nD τ).loc main_arg0) := rfl

theorem W3_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c.tc : Thread nD τ).loc main_arg5) := rfl

theorem W3_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := by stretch_keeps hostOps0_2
    _ = W1 m ρ c (Proc.devRef .tc main_arg6) := by stretch_keeps hostOps0_1
    _ = W0 m ρ c (Proc.devRef .tc main_arg6) := by stretch_keeps hostOps0
    _ = m ((c.tc : Thread nD τ).loc main_arg6) := rfl

theorem W3_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := by stretch_keeps hostOps0_2
    _ = W1 m ρ c (Proc.devRef .tc main_arg7) := by stretch_keeps hostOps0_1
    _ = W0 m ρ c (Proc.devRef .tc main_arg7) := by stretch_keeps hostOps0
    _ = m ((c.tc : Thread nD τ).loc main_arg7) := rfl

theorem W3_arg8 (c : Dev nD) : W3 m ρ c (Proc.devRef .tc main_arg8) = m ((c.tc : Thread nD τ).loc main_arg8) :=
  calc W3 m ρ c (Proc.devRef .tc main_arg8)
    _ = W2 m ρ c (Proc.devRef .tc main_arg8) := by stretch_keeps hostOps0_2
    _ = W1 m ρ c (Proc.devRef .tc main_arg8) := by stretch_keeps hostOps0_1
    _ = W0 m ρ c (Proc.devRef .tc main_arg8) := by stretch_keeps hostOps0
    _ = m ((c.tc : Thread nD τ).loc main_arg8) := rfl

theorem W3_arg9 (c : Dev nD) : W3 m ρ c (Proc.devRef .tc main_arg9) = m ((c.tc : Thread nD τ).loc main_arg9) :=
  calc W3 m ρ c (Proc.devRef .tc main_arg9)
    _ = W2 m ρ c (Proc.devRef .tc main_arg9) := by stretch_keeps hostOps0_2
    _ = W1 m ρ c (Proc.devRef .tc main_arg9) := by stretch_keeps hostOps0_1
    _ = W0 m ρ c (Proc.devRef .tc main_arg9) := by stretch_keeps hostOps0
    _ = m ((c.tc : Thread nD τ).loc main_arg9) := rfl

theorem W3_arg10 (c : Dev nD) : W3 m ρ c (Proc.devRef .tc main_arg10) = m ((c.tc : Thread nD τ).loc main_arg10) :=
  calc W3 m ρ c (Proc.devRef .tc main_arg10)
    _ = W2 m ρ c (Proc.devRef .tc main_arg10) := by stretch_keeps hostOps0_2
    _ = W1 m ρ c (Proc.devRef .tc main_arg10) := by stretch_keeps hostOps0_1
    _ = W0 m ρ c (Proc.devRef .tc main_arg10) := by stretch_keeps hostOps0
    _ = m ((c.tc : Thread nD τ).loc main_arg10) := rfl

theorem W3_v1 (c : Dev nD) : W3 m ρ c (Proc.devRef .tc main_v1) = KerTerm.srcRow (m ((c.tc : Thread nD τ).loc main_arg1)) :=
  calc W3 m ρ c (Proc.devRef .tc main_v1)
    _ = W2 m ρ c (Proc.devRef .tc main_v1) := by stretch_keeps hostOps0_2
    _ = W1 m ρ c (Proc.devRef .tc main_v1) := by stretch_keeps hostOps0_1
    _ = KerTerm.srcRow (W0 m ρ c (Proc.devRef .tc main_arg1)) := ops0_v1 (W0 m ρ c)
    _ = KerTerm.srcRow (m ((c.tc : Thread nD τ).loc main_arg1)) := rfl

theorem W3_v3 (c : Dev nD) : W3 m ρ c (Proc.devRef .tc main_v3) = KerTerm.dstRow (m ((c.tc : Thread nD τ).loc main_arg1)) :=
  calc W3 m ρ c (Proc.devRef .tc main_v3)
    _ = W2 m ρ c (Proc.devRef .tc main_v3) := by stretch_keeps hostOps0_2
    _ = W1 m ρ c (Proc.devRef .tc main_v3) := by stretch_keeps hostOps0_1
    _ = KerTerm.dstRow (W0 m ρ c (Proc.devRef .tc main_arg1)) := ops0_v3 (W0 m ρ c)
    _ = KerTerm.dstRow (m ((c.tc : Thread nD τ).loc main_arg1)) := rfl

theorem W3_v13 (c : Dev nD) : W3 m ρ c (Proc.devRef .tc main_v13) = KerTerm.aggSum (m ((c.tc : Thread nD τ).loc main_arg1)) (m ((c.tc : Thread nD τ).loc main_arg0)) :=
  calc W3 m ρ c (Proc.devRef .tc main_v13)
    _ = W2 m ρ c (Proc.devRef .tc main_v13) := by stretch_keeps hostOps0_2
    _ = W1 m ρ c (Proc.devRef .tc main_v13) := by stretch_keeps hostOps0_1
    _ = KerTerm.aggSum (W0 m ρ c (Proc.devRef .tc main_arg1)) (W0 m ρ c (Proc.devRef .tc main_arg0)) := ops0_v13 (W0 m ρ c)
    _ = KerTerm.aggSum (m ((c.tc : Thread nD τ).loc main_arg1)) (m ((c.tc : Thread nD τ).loc main_arg0)) := rfl

theorem W2_v18 (c : Dev nD) :
    W2 m ρ c (Proc.devRef .tc main_v18) = clipAt (constant (F := Ideal) S_ .f32 0x3F800000#32) (KerTerm.deg (m ((c.tc : Thread nD τ).loc main_arg1))) :=
  (ops0_1_v18 (W1 m ρ c)).trans (congr (congrArg clipAt (ops0_cst3 (W0 m ρ c))) (ops0_v17 (W0 m ρ c)))

theorem W3_v21 (c : Dev nD) : W3 m ρ c (Proc.devRef .tc main_v21) = KerTerm.invc (m ((c.tc : Thread nD τ).loc main_arg1)) :=
  (ops0_2_v21 (W2 m ρ c)).trans ((congrArg recipCol (W2_v18 m ρ c)).trans (invc_eq _).symm)

theorem W3_v23 (c : Dev nD) : W3 m ρ c (Proc.devRef .tc main_v23) = KerTerm.wT (m ((c.tc : Thread nD τ).loc main_arg2)) :=
  (ops0_2_v23 (W2 m ρ c)).trans (congrArg KerTerm.wT (W2_arg2 m ρ c))

theorem W3_v25 (c : Dev nD) : W3 m ρ c (Proc.devRef .tc main_v25) = KerTerm.wT (m ((c.tc : Thread nD τ).loc main_arg4)) :=
  (ops0_2_v25 (W2 m ρ c)).trans (congrArg KerTerm.wT (W2_arg4 m ρ c))

theorem W3_v26 (c : Dev nD) : W3 m ρ c (Proc.devRef .tc main_v26) = KerTerm.row (m ((c.tc : Thread nD τ).loc main_arg3)) :=
  (ops0_2_v26 (W2 m ρ c)).trans (congrArg KerTerm.row (W2_arg3 m ρ c))

/-! ## Through region 0: an input array and a bypassing buffer are as entered, an output array is what the
    write-backs leave -/

theorem W4_arg0 (c : Dev nD) : W4 m ρ c (Proc.devRef .tc main_arg0) = m ((c.tc : Thread nD τ).loc main_arg0) :=
  ((W4_arr m ρ c 1).trans (((dat0 (V3 m ρ) c).arrAt_in 1 rfl _).trans (A_eq0 (V3 m ρ) c 1))).trans (W3_arg0 m ρ c)

theorem W4_v21 (c : Dev nD) : W4 m ρ c (Proc.devRef .tc main_v21) = KerTerm.invc (m ((c.tc : Thread nD τ).loc main_arg1)) :=
  ((W4_arr m ρ c 2).trans (((dat0 (V3 m ρ) c).arrAt_in 2 rfl _).trans (A_eq0 (V3 m ρ) c 2))).trans (W3_v21 m ρ c)

theorem W4_arg5 (c : Dev nD) : W4 m ρ c (Proc.devRef .tc main_arg5) = m ((c.tc : Thread nD τ).loc main_arg5) :=
  (W4_of_ne m ρ c main_arg5 (by decide)).trans (W3_arg5 m ρ c)

theorem W4_arg6 (c : Dev nD) : W4 m ρ c (Proc.devRef .tc main_arg6) = m ((c.tc : Thread nD τ).loc main_arg6) :=
  (W4_of_ne m ρ c main_arg6 (by decide)).trans (W3_arg6 m ρ c)

theorem W4_arg7 (c : Dev nD) : W4 m ρ c (Proc.devRef .tc main_arg7) = m ((c.tc : Thread nD τ).loc main_arg7) :=
  (W4_of_ne m ρ c main_arg7 (by decide)).trans (W3_arg7 m ρ c)

theorem W4_arg8 (c : Dev nD) : W4 m ρ c (Proc.devRef .tc main_arg8) = m ((c.tc : Thread nD τ).loc main_arg8) :=
  (W4_of_ne m ρ c main_arg8 (by decide)).trans (W3_arg8 m ρ c)

theorem W4_arg9 (c : Dev nD) : W4 m ρ c (Proc.devRef .tc main_arg9) = m ((c.tc : Thread nD τ).loc main_arg9) :=
  (W4_of_ne m ρ c main_arg9 (by decide)).trans (W3_arg9 m ρ c)

theorem W4_arg10 (c : Dev nD) : W4 m ρ c (Proc.devRef .tc main_arg10) = m ((c.tc : Thread nD τ).loc main_arg10) :=
  (W4_of_ne m ρ c main_arg10 (by decide)).trans (W3_arg10 m ρ c)

theorem W4_v1 (c : Dev nD) : W4 m ρ c (Proc.devRef .tc main_v1) = KerTerm.srcRow (m ((c.tc : Thread nD τ).loc main_arg1)) :=
  (W4_of_ne m ρ c main_v1 (by decide)).trans (W3_v1 m ρ c)

theorem W4_v3 (c : Dev nD) : W4 m ρ c (Proc.devRef .tc main_v3) = KerTerm.dstRow (m ((c.tc : Thread nD τ).loc main_arg1)) :=
  (W4_of_ne m ρ c main_v3 (by decide)).trans (W3_v3 m ρ c)

theorem W4_v27_0 (c : Dev nD) : W4 m ρ c (Proc.devRef .tc main_v27_0) = (dat0 (V3 m ρ) c).arrAt 6 cfg0.N := W4_arr m ρ c 6
theorem W4_v27_1 (c : Dev nD) : W4 m ρ c (Proc.devRef .tc main_v27_1) = (dat0 (V3 m ρ) c).arrAt 7 cfg0.N := W4_arr m ρ c 7
theorem W4_v27_2 (c : Dev nD) : W4 m ρ c (Proc.devRef .tc main_v27_2) = (dat0 (V3 m ρ) c).arrAt 8 cfg0.N := W4_arr m ρ c 8

/-! ## Up to region 1's entry, and through region 1 -/

theorem W5_arg0 (c : Dev nD) : W5 m ρ c (Proc.devRef .tc main_arg0) = m ((c.tc : Thread nD τ).loc main_arg0) :=
  calc W5 m ρ c (Proc.devRef .tc main_arg0)
    _ = W4 m ρ c (Proc.devRef .tc main_arg0) := by stretch_keeps hostOps1
    _ = m ((c.tc : Thread nD τ).loc main_arg0) := W4_arg0 m ρ c

theorem W5_arg5 (c : Dev nD) : W5 m ρ c (Proc.devRef .tc main_arg5) = m ((c.tc : Thread nD τ).loc main_arg5) :=
  calc W5 m ρ c (Proc.devRef .tc main_arg5)
    _ = W4 m ρ c (Proc.devRef .tc main_arg5) := by stretch_keeps hostOps1
    _ = m ((c.tc : Thread nD τ).loc main_arg5) := W4_arg5 m ρ c

theorem W5_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := by stretch_keeps hostOps1
    _ = m ((c.tc : Thread nD τ).loc main_arg6) := W4_arg6 m ρ c

theorem W5_arg7 (c : Dev nD) : W5 m ρ c (Proc.devRef .tc main_arg7) = m ((c.tc : Thread nD τ).loc main_arg7) :=
  calc W5 m ρ c (Proc.devRef .tc main_arg7)
    _ = W4 m ρ c (Proc.devRef .tc main_arg7) := by stretch_keeps hostOps1
    _ = m ((c.tc : Thread nD τ).loc main_arg7) := W4_arg7 m ρ c

theorem W5_v1 (c : Dev nD) : W5 m ρ c (Proc.devRef .tc main_v1) = KerTerm.srcRow (m ((c.tc : Thread nD τ).loc main_arg1)) :=
  calc W5 m ρ c (Proc.devRef .tc main_v1)
    _ = W4 m ρ c (Proc.devRef .tc main_v1) := by stretch_keeps hostOps1
    _ = KerTerm.srcRow (m ((c.tc : Thread nD τ).loc main_arg1)) := W4_v1 m ρ c

theorem W5_v3 (c : Dev nD) : W5 m ρ c (Proc.devRef .tc main_v3) = KerTerm.dstRow (m ((c.tc : Thread nD τ).loc main_arg1)) :=
  calc W5 m ρ c (Proc.devRef .tc main_v3)
    _ = W4 m ρ c (Proc.devRef .tc main_v3) := by stretch_keeps hostOps1
    _ = KerTerm.dstRow (m ((c.tc : Thread nD τ).loc main_arg1)) := W4_v3 m ρ c

theorem W5_v21 (c : Dev nD) : W5 m ρ c (Proc.devRef .tc main_v21) = KerTerm.invc (m ((c.tc : Thread nD τ).loc main_arg1)) :=
  calc W5 m ρ c (Proc.devRef .tc main_v21)
    _ = W4 m ρ c (Proc.devRef .tc main_v21) := by stretch_keeps hostOps1
    _ = KerTerm.invc (m ((c.tc : Thread nD τ).loc main_arg1)) := W4_v21 m ρ c

theorem W5_v27_0 (c : Dev nD) : W5 m ρ c (Proc.devRef .tc main_v27_0) = (dat0 (V3 m ρ) c).arrAt 6 cfg0.N :=
  calc W5 m ρ c (Proc.devRef .tc main_v27_0)
    _ = W4 m ρ c (Proc.devRef .tc main_v27_0) := by stretch_keeps hostOps1
    _ = (dat0 (V3 m ρ) c).arrAt 6 cfg0.N := W4_v27_0 m ρ c

theorem W6_arg5 (c : Dev nD) : W6 m ρ c (Proc.devRef .tc main_arg5) = m ((c.tc : Thread nD τ).loc main_arg5) :=
  (W6_of_ne m ρ c main_arg5 (by decide)).trans (W5_arg5 m ρ c)

theorem W6_arg6 (c : Dev nD) : W6 m ρ c (Proc.devRef .tc main_arg6) = m ((c.tc : Thread nD τ).loc main_arg6) :=
  (W6_of_ne m ρ c main_arg6 (by decide)).trans (W5_arg6 m ρ c)

theorem W6_arg7 (c : Dev nD) : W6 m ρ c (Proc.devRef .tc main_arg7) = m ((c.tc : Thread nD τ).loc main_arg7) :=
  (W6_of_ne m ρ c main_arg7 (by decide)).trans (W5_arg7 m ρ c)

theorem W6_v1 (c : Dev nD) : W6 m ρ c (Proc.devRef .tc main_v1) = KerTerm.srcRow (m ((c.tc : Thread nD τ).loc main_arg1)) :=
  (W6_of_ne m ρ c main_v1 (by decide)).trans (W5_v1 m ρ c)

theorem W6_v3 (c : Dev nD) : W6 m ρ c (Proc.devRef .tc main_v3) = KerTerm.dstRow (m ((c.tc : Thread nD τ).loc main_arg1)) :=
  (W6_of_ne m ρ c main_v3 (by decide)).trans (W5_v3 m ρ c)

theorem W6_v21 (c : Dev nD) : W6 m ρ c (Proc.devRef .tc main_v21) = KerTerm.invc (m ((c.tc : Thread nD τ).loc main_arg1)) :=
  (W6_of_ne m ρ c main_v21 (by decide)).trans (W5_v21 m ρ c)

theorem W6_v45 (c : Dev nD) : W6 m ρ c (Proc.devRef .tc main_v45) = (dat1 (V5 m ρ) c).arrAt 7 cfg1.N := W6_arr m ρ c 7

end Walk

/-! # What each region finds in its input arrays, and the result -/

section Entries
variable (m : (ℓ : Loc nD τ sig) → Buf (Elt Ideal) ℓ) (ρ : Dev nD → PrngReg)

/-! ## The windows' arrays by name -/

theorem arrRef0_0 : Pipeline.arrRef spec0 0 = main_v13 := rfl
theorem arrRef0_1 : Pipeline.arrRef spec0 1 = main_arg0 := rfl
theorem arrRef0_2 : Pipeline.arrRef spec0 2 = main_v21 := rfl
theorem arrRef0_3 : Pipeline.arrRef spec0 3 = main_v23 := rfl
theorem arrRef0_4 : Pipeline.arrRef spec0 4 = main_v26 := rfl
theorem arrRef0_5 : Pipeline.arrRef spec0 5 = main_v25 := rfl
theorem arrRef0_6 : Pipeline.arrRef spec0 6 = main_v27_0 := rfl
theorem arrRef0_7 : Pipeline.arrRef spec0 7 = main_v27_1 := rfl
theorem arrRef0_8 : Pipeline.arrRef spec0 8 = main_v27_2 := rfl
theorem arrRef1_0 : Pipeline.arrRef spec1 0 = main_v27_0 := rfl
theorem arrRef1_1 : Pipeline.arrRef spec1 1 = main_arg0 := rfl
theorem arrRef1_2 : Pipeline.arrRef spec1 2 = main_v35 := rfl
theorem arrRef1_3 : Pipeline.arrRef spec1 3 = main_v41 := rfl
theorem arrRef1_4 : Pipeline.arrRef spec1 4 = main_v43 := rfl
theorem arrRef1_5 : Pipeline.arrRef spec1 5 = main_v44 := rfl
theorem arrRef1_6 : Pipeline.arrRef spec1 6 = main_v42 := rfl
theorem arrRef1_7 : Pipeline.arrRef spec1 7 = main_v45 := rfl
theorem arrRef2_0 : Pipeline.arrRef spec2 0 = main_v55 := rfl
theorem arrRef2_1 : Pipeline.arrRef spec2 1 = main_v45 := rfl
theorem arrRef2_2 : Pipeline.arrRef spec2 2 = main_v21 := rfl
theorem arrRef2_3 : Pipeline.arrRef spec2 3 = main_v57 := rfl
theorem arrRef2_4 : Pipeline.arrRef spec2 4 = main_v60 := rfl
theorem arrRef2_5 : Pipeline.arrRef spec2 5 = main_v59 := rfl
theorem arrRef2_6 : Pipeline.arrRef spec2 6 = main_v61 := rfl

/-! ## Region 0's entry -/

theorem V3_main_v13 (c : Dev nD) : V3 m ρ c main_v13 = KerTerm.aggSum (m ((c.tc : Thread nD τ).loc main_arg1)) (m ((c.tc : Thread nD τ).loc main_arg0)) := W3_v13 m ρ c
theorem V3_main_arg0 (c : Dev nD) : V3 m ρ c main_arg0 = m ((c.tc : Thread nD τ).loc main_arg0) := W3_arg0 m ρ c
theorem V3_main_v21 (c : Dev nD) : V3 m ρ c main_v21 = KerTerm.invc (m ((c.tc : Thread nD τ).loc main_arg1)) := W3_v21 m ρ c
theorem V3_main_v23 (c : Dev nD) : V3 m ρ c main_v23 = KerTerm.wT (m ((c.tc : Thread nD τ).loc main_arg2)) := W3_v23 m ρ c
theorem V3_main_v26 (c : Dev nD) : V3 m ρ c main_v26 = KerTerm.row (m ((c.tc : Thread nD τ).loc main_arg3)) := W3_v26 m ρ c
theorem V3_main_v25 (c : Dev nD) : V3 m ρ c main_v25 = KerTerm.wT (m ((c.tc : Thread nD τ).loc main_arg4)) := W3_v25 m ρ c

/-! ## Region 1's entry -/

theorem V5_main_v27_0 (c : Dev nD) : V5 m ρ c main_v27_0 = (dat0 (V3 m ρ) c).arrAt 6 cfg0.N := W5_v27_0 m ρ c
theorem V5_main_arg0 (c : Dev nD) : V5 m ρ c main_arg0 = m ((c.tc : Thread nD τ).loc main_arg0) := W5_arg0 m ρ c
theorem V5_main_v35 (c : Dev nD) : V5 m ρ c main_v35 = KerTerm.meanOf ((dat0 (V3 m ρ) c).arrAt 7 cfg0.N) :=
  (ops1_v35 (W4 m ρ c)).trans (congrArg KerTerm.meanOf (W4_v27_1 m ρ c))
theorem V5_main_v41 (c : Dev nD) :
    V5 m ρ c main_v41 = KerTerm.varOf ((dat0 (V3 m ρ) c).arrAt 7 cfg0.N) ((dat0 (V3 m ρ) c).arrAt 8 cfg0.N) :=
  (ops1_v41 (W4 m ρ c)).trans (congr (congrArg KerTerm.varOf (W4_v27_1 m ρ c)) (W4_v27_2 m ρ c))
theorem V5_main_v43 (c : Dev nD) : V5 m ρ c main_v43 = KerTerm.row (m ((c.tc : Thread nD τ).loc main_arg8)) :=
  (ops1_v43 (W4 m ρ c)).trans (congrArg KerTerm.row (W4_arg8 m ρ c))
theorem V5_main_v44 (c : Dev nD) : V5 m ρ c main_v44 = KerTerm.row (m ((c.tc : Thread nD τ).loc main_arg9)) :=
  (ops1_v44 (W4 m ρ c)).trans (congrArg KerTerm.row (W4_arg9 m ρ c))
theorem V5_main_v42 (c : Dev nD) : V5 m ρ c main_v42 = KerTerm.aRow (m ((c.tc : Thread nD τ).loc main_arg10)) :=
  (ops1_v42 (W4 m ρ c)).trans (congrArg KerTerm.aRow (W4_arg10 m ρ c))

/-! ## Region 2's entry -/

theorem V7_main_v55 (c : Dev nD) :
    V7 m ρ c main_v55 = KerTerm.aggSum (m ((c.tc : Thread nD τ).loc main_arg1)) ((dat1 (V5 m ρ) c).arrAt 7 cfg1.N) :=
  (ops2_v55 (W6 m ρ c)).trans
    ((congr (congr (congrArg aggOf (W6_v1 m ρ c)) (W6_v3 m ρ c)) (W6_v45 m ρ c)).trans (aggSum_eq _ _).symm)
theorem V7_main_v45 (c : Dev nD) : V7 m ρ c main_v45 = (dat1 (V5 m ρ) c).arrAt 7 cfg1.N :=
  calc W7 m ρ c (Proc.devRef .tc main_v45)
    _ = W6 m ρ c (Proc.devRef .tc main_v45) := by stretch_keeps hostOps2
    _ = (dat1 (V5 m ρ) c).arrAt 7 cfg1.N := W6_v45 m ρ c
theorem V7_main_v21 (c : Dev nD) : V7 m ρ c main_v21 = KerTerm.invc (m ((c.tc : Thread nD τ).loc main_arg1)) :=
  calc W7 m ρ c (Proc.devRef .tc main_v21)
    _ = W6 m ρ c (Proc.devRef .tc main_v21) := by stretch_keeps hostOps2
    _ = KerTerm.invc (m ((c.tc : Thread nD τ).loc main_arg1)) := W6_v21 m ρ c
theorem V7_main_v57 (c : Dev nD) : V7 m ρ c main_v57 = KerTerm.wT2 (m ((c.tc : Thread nD τ).loc main_arg5)) :=
  (ops2_v57 (W6 m ρ c)).trans (congrArg KerTerm.wT2 (W6_arg5 m ρ c))
theorem V7_main_v60 (c : Dev nD) : V7 m ρ c main_v60 = KerTerm.row16 (m ((c.tc : Thread nD τ).loc main_arg6)) :=
  (ops2_v60 (W6 m ρ c)).trans (congrArg KerTerm.row16 (W6_arg6 m ρ c))
theorem V7_main_v59 (c : Dev nD) : V7 m ρ c main_v59 = KerTerm.wT2 (m ((c.tc : Thread nD τ).loc main_arg7)) :=
  (ops2_v59 (W6 m ρ c)).trans (congrArg KerTerm.wT2 (W6_arg7 m ρ c))

/-! ## The result -/

theorem W8_main_v61 (c : Dev nD) : W8 m ρ c (Proc.devRef .tc main_v61) = (dat2 (V7 m ρ) c).arrAt 6 cfg2.N := W8_arr m ρ c 6

end Entries

end Cert.KernelIdeal.KerHost

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RegionLinear.lean ====
/-
  The dense stage on a block of rows.

  `linRows S X D Wl B Wr` is `RegionForms.lin` for any number of rows: entry (r, q) is
  (Σ_k (S(r, k) · D(r, 0)) · Wl(k, q) + B(0, q)) + Σ_k X(r, k) · Wr(k, q). Two facts about it:
    * an entry depends on its own row of the three row-indexed operands only (`linRows_row`), so the stage of a block
      of rows is that block of the stage of the whole arrays;
    * the matrix unit's spelling on a block — the scaled rows and the plain rows narrowed to a shorter float format
      (the identity on the extended reals), each multiplied into an accumulator of zeros, the row vector broadcast
      down the rows — is `linRows` of the block's operands (`block_lin`).
-/
import proofs.«165145_j85615878078999_2_alg».proof.Proof.RegionForms
import proofs.«165145_j85615878078999_2_alg».proof.Proof.LibColumnBroadcast
import Idealize.ShloMosaic.Lib.ValueLayout
import Idealize.ShloMosaic.Lib.Pipeline.Value

noncomputable section

open scoped BigOperators

namespace Cert.KernelIdeal.RegionLinear

open Idealize.ShloMosaic Idealize.ShloMosaic.ValueIdx Cert.MatrixProduct Cert.KernelIdeal.RegionForms

/-- The dense stage on `R` rows. -/
def linRows {R n : ℕ} (S X : (⟨2, ![R, 128]⟩ : Shape).Idx → EReal) (D : (⟨2, ![R, 1]⟩ : Shape).Idx → EReal)
    (Wl : (⟨2, ![128, n]⟩ : Shape).Idx → EReal) (B : (⟨2, ![1, n]⟩ : Shape).Idx → EReal)
    (Wr : (⟨2, ![128, n]⟩ : Shape).Idx → EReal) : (⟨2, ![R, n]⟩ : Shape).Idx → EReal :=
  fun i => (mm (rowScaled S D) Wl i + B (ix2 (0 : Fin 1) (i 1))) + mm X Wr i

/-- On 50000 rows it is the stage of the whole arrays. -/
theorem lin_eq_linRows {n : ℕ} (S X : (⟨2, ![50000, 128]⟩ : Shape).Idx → EReal) (D : (⟨2, ![50000, 1]⟩ : Shape).Idx → EReal)
    (Wl : (⟨2, ![128, n]⟩ : Shape).Idx → EReal) (B : (⟨2, ![1, n]⟩ : Shape).Idx → EReal)
    (Wr : (⟨2, ![128, n]⟩ : Shape).Idx → EReal) : lin S X D Wl B Wr = linRows S X D Wl B Wr := rfl

/-- Entry `(p, q)` of the stage of a block is entry `(r, q)` of the stage of the whole arrays, when row `p` of each
    row-indexed block operand is row `r` of the array and the weights and the row vector agree on column `q`. -/
theorem linRows_row {M R n : ℕ} (S X : (⟨2, ![M, 128]⟩ : Shape).Idx → EReal) (D : (⟨2, ![M, 1]⟩ : Shape).Idx → EReal)
    (Wl : (⟨2, ![128, n]⟩ : Shape).Idx → EReal) (B : (⟨2, ![1, n]⟩ : Shape).Idx → EReal)
    (Wr : (⟨2, ![128, n]⟩ : Shape).Idx → EReal)
    (x0 x1 : (⟨2, ![R, 128]⟩ : Shape).Idx → EReal) (x2 : (⟨2, ![R, 1]⟩ : Shape).Idx → EReal)
    (x3 : (⟨2, ![128, n]⟩ : Shape).Idx → EReal) (x4 : (⟨2, ![1, n]⟩ : Shape).Idx → EReal)
    (x5 : (⟨2, ![128, n]⟩ : Shape).Idx → EReal) (p : Fin R) (q : Fin n) (r : Fin M)
    (h0 : ∀ k : Fin 128, x0 (ix2 p k) = S (ix2 r k)) (h1 : ∀ k : Fin 128, x1 (ix2 p k) = X (ix2 r k))
    (h2 : x2 (ix2 p (0 : Fin 1)) = D (ix2 r (0 : Fin 1)))
    (h3 : ∀ k : Fin 128, x3 (ix2 k q) = Wl (ix2 k q)) (h4 : x4 (ix2 (0 : Fin 1) q) = B (ix2 (0 : Fin 1) q))
    (h5 : ∀ k : Fin 128, x5 (ix2 k q) = Wr (ix2 k q)) :
    linRows x0 x1 x2 x3 x4 x5 (ix2 p q) = linRows S X D Wl B Wr (ix2 r q) := by
  show (mm (rowScaled x0 x2) x3 (ix2 p q) + x4 (ix2 (0 : Fin 1) q)) + mm x1 x5 (ix2 p q)
    = (mm (rowScaled S D) Wl (ix2 r q) + B (ix2 (0 : Fin 1) q)) + mm X Wr (ix2 r q)
  rw [mm_of_row_col (rowScaled S D) Wl (rowScaled x0 x2) x3 (ix2 p q) (ix2 r q)
      (fun c => by
        show rowScaled x0 x2 (ix2 p c) = rowScaled S D (ix2 r c)
        rw [rowScaled_apply, rowScaled_apply, h0 c, h2]) h3,
    mm_of_row_col X Wr x1 x5 (ix2 p q) (ix2 r q) h1 h5, h4]

/-- The matrix unit's spelling of the stage on a block of rows. -/
theorem block_lin {R n : ℕ}
    (w : DotDims.WF ⟨2, ![R, 128]⟩ ⟨2, ![128, n]⟩ ⟨2, ![R, n]⟩ [1] [0] [0] [1] [] [])
    (hb : FTy.bits .bf16 < FTy.bits .f32)
    (hc : (⟨2, ![R, 1]⟩ : Shape).Broadcasts ⟨2, ![R, 128]⟩) (hr : (⟨2, ![1, n]⟩ : Shape).Broadcasts ⟨2, ![R, n]⟩)
    (x0 x1 : FVec Ideal ⟨2, ![R, 128]⟩ .f32) (x2 : FVec Ideal ⟨2, ![R, 1]⟩ .f32)
    (x3 : FVec Ideal ⟨2, ![128, n]⟩ .bf16) (x4 : FVec Ideal ⟨2, ![1, n]⟩ .f32) (x5 : FVec Ideal ⟨2, ![128, n]⟩ .bf16) :
    addf (addf (matmul (⟨[1], [0], [0], [1], [], [], w⟩ : DotDims ⟨2, ![R, 128]⟩ ⟨2, ![128, n]⟩ ⟨2, ![R, n]⟩) none
            (truncf .bf16 (mulf x0 (broadcastTo ⟨2, ![R, 128]⟩ x2 hc)) hb) x3
            (constant (F := Ideal) ⟨2, ![R, n]⟩ .f32 0x00000000#32))
          (broadcastTo ⟨2, ![R, n]⟩ x4 hr))
        (matmul (⟨[1], [0], [0], [1], [], [], w⟩ : DotDims ⟨2, ![R, 128]⟩ ⟨2, ![128, n]⟩ ⟨2, ![R, n]⟩) none
          (truncf .bf16 x1 hb) x5 (constant (F := Ideal) ⟨2, ![R, n]⟩ .f32 0x00000000#32))
      = linRows x0 x1 x2 x3 x4 x5 := by
  funext i
  obtain ⟨p, q, rfl⟩ : ∃ (p : Fin R) (q : Fin n), i = ix2 p q := ⟨i 0, i 1, eq_ix2 i⟩
  rw [addf_apply, addf_apply, matmul_zero_eq_mm, matmul_zero_eq_mm, broadcastTo_1b_ab_apply]
  show (mm (truncf .bf16 (mulf x0 (broadcastTo ⟨2, ![R, 128]⟩ x2 hc)) hb) x3 (ix2 p q) + x4 (ix2 (0 : Fin 1) q))
      + mm (truncf .bf16 x1 hb) x5 (ix2 p q)
    = (mm (rowScaled x0 x2) x3 (ix2 p q) + x4 (ix2 (0 : Fin 1) q)) + mm x1 x5 (ix2 p q)
  refine congrArg₂ (· + ·) (congrArg (· + x4 (ix2 (0 : Fin 1) q)) ?_) rfl
  refine mm_of_row_col (rowScaled x0 x2) x3 _ x3 (ix2 p q) (ix2 p q) (fun c => ?_) (fun _ => rfl)
  show truncf .bf16 (mulf x0 (broadcastTo ⟨2, ![R, 128]⟩ x2 hc)) hb (ix2 p c) = rowScaled x0 x2 (ix2 p c)
  rw [truncf_apply, mulf_apply, broadcastTo_a1_ab_apply]
  rfl

end Cert.KernelIdeal.RegionLinear

end
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.LibUnitAxes3.lean ====
import Idealize.ShloMosaic.Lib.Pipeline.Value
import Idealize.ShloMosaic.Lib.ValueIdx

/-!
# Rank-3 arrays with unit axes, read at an index given by coordinates

A matrix `[a, b]` viewed as `[a, 1, b]` (a middle unit axis inserted), a row `[1, b]` viewed as `[1, 1, b]`, and the
three broadcasts of a rank-3 array with one or two unit axes to the full `[a, b, c]`: each reads, at `(i, j, k)`,
the operand at the index that keeps the coordinates on the operand's proper axes and is `0` on its unit axes.
These are the forms an outer sum `s[:, None, :] + p[None, :, :] + bias[None, :, :]` is spelt with.
-/

namespace Idealize.ShloMosaic.ValueIdx

open Idealize.ShloMosaic

variable {α : Type}

/-- An `[a, b]` array cast to `[a, 1, b]` reads, at `(i, u, j)`, the operand at `(i, j)`, whatever the unit
    coordinate `u`: both sit at row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b]` row cast to `[1, 1, b]` reads, at `(u, w, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show 0 * b + j.val = (u.val * 1 + w.val) * b + j.val
    rw [hu, hw])

/-- An `[a, 1, c]` array broadcast to `[a, b, c]` reads, at `(i, j, k)`, the operand at `(i, 0, k)`: every `j` sees
    the same slab. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.Region0.lean ====
/-
  The first dense stage and its block statistics, from blocks to the arrays.

  The region runs its body at ten grid points. At point t the body sees rows 5000 t … 5000 t + 4999 of the three
  row-indexed inputs (the neighbour sums, the rows themselves, the one-column factors), the two weight matrices and the
  row vector whole, and stores three things: the dense stage of its block; for each column, the sum of that block of the
  stage over its 5000 rows; and the sum of the squares. An entry of the dense stage depends on its own row of the
  row-indexed inputs only, so the first store is block t of ONE function of the whole arrays, `RegionForms.lin`, and the
  other two are entry (t, 0, ·) of `RegionForms.blockSums` and `RegionForms.blockSqSums` of that function. The ten
  row blocks cover the 50000 rows, and the ten [1, 1, 128] blocks cover the [10, 1, 128] arrays, so each output array
  ends holding its function.
-/
import proofs.«165145_j85615878078999_2_alg».proof.Proof.RegionForms
import proofs.«165145_j85615878078999_2_alg».proof.Proof.Gen.KernelIdeal.Frame
import proofs.«165145_j85615878078999_2_alg».proof.Proof.RegionLinear
import Idealize.ShloMosaic.Lib.Pipeline.Value
import Idealize.ShloMosaic.Lib.ValueLayout
import proofs.«165145_j85615878078999_2_alg».proof.Proof.LibColumnSum
import proofs.«165145_j85615878078999_2_alg».proof.Proof.LibUnitAxes3

noncomputable section

open scoped BigOperators

namespace Cert.KernelIdeal.Region0

open Cert.KernelIdeal Cert.KernelIdeal.Gen Cert.KernelIdeal.RegionForms Cert.KernelIdeal.RegionLinear Cert.MatrixProduct
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The printed index maps over the grid

The three row-indexed inputs (the neighbour sums, the rows, the one-column factors) and the 50000-row output sit at
block `(t, 0)` at point `t`; the two weight matrices and the row vector are whole at every point; the two outputs of
block sums sit at block `(t, 0, 0)`. Decided once over the ten points. -/

theorem hz : (![0, 0] : Fin 2 → Nat) = fun _ => 0 := funext fun a => by fin_cases a <;> rfl
theorem hz3 : (![0, 0, 0] : Fin 3 → Nat) = fun _ => 0 := funext fun a => by fin_cases a <;> rfl

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)
theorem idx_7 : ∀ t : Fin cfg0.N, win0_7.index t (0 : Fin 3) = t.val ∧ win0_7.index t (1 : Fin 3) = 0
    ∧ win0_7.index t (2 : Fin 3) = 0 :=
  (by decide +kernel : ∀ t : Fin grid0.N, _)
theorem idx_8 : ∀ t : Fin cfg0.N, win0_8.index t (0 : Fin 3) = t.val ∧ win0_8.index t (1 : Fin 3) = 0
    ∧ win0_8.index t (2 : Fin 3) = 0 :=
  (by decide +kernel : ∀ t : Fin grid0.N, _)

/-! ## The body's three stored values -/

/-- The first stored value is the dense stage of the blocks the body loaded. -/
theorem pay1_eq (x0 x1 : Vec Ideal S5000x128 .f32) (x2 : Vec Ideal S5000x1 .f32) (x3 : Vec Ideal S128x128 .bf16)
    (x4 : Vec Ideal S1x128 .f32) (x5 : Vec Ideal S128x128 .bf16) :
    Gen.k0_pay1 (F := Ideal) x0 x2 x1 x3 x4 x5 = linRows (R := 5000) (n := 128) x0 x1 x2 x3 x4 x5 := by
  unfold Gen.k0_pay1
  simp only [shapeCast_self]
  exact block_lin dot_S5000x128_S128x128_S5000x128_1_0_0_1_n_n_wf _ _ _ x0 x1 x2 x3 x4 x5

/-- The second is, column by column, the sum of that stage over the block's 5000 rows. -/
theorem pay2_apply (x0 x1 : Vec Ideal S5000x128 .f32) (x2 : Vec Ideal S5000x1 .f32) (x3 : Vec Ideal S128x128 .bf16)
    (x4 : Vec Ideal S1x128 .f32) (x5 : Vec Ideal S128x128 .bf16) (u w : Fin 1) (j : Fin 128) :
    Gen.k0_pay2 (F := Ideal) x0 x2 x1 x3 x4 x5 (ix3 u w j)
      = ∑ k : Fin 5000, linRows (R := 5000) (n := 128) x0 x1 x2 x3 x4 x5 (ix2 k j) := by
  unfold Gen.k0_pay2
  rw [pay1_eq]
  refine (shapeCast_1b_11b_apply _ _ u w j).trans ?_
  refine (shapeCast_a_1a_apply _ _ (0 : Fin 1) j).trans ?_
  exact multiReduction_add_cols_apply _ _ _ _ _ j

/-- The third is, column by column, the sum of the squares of that stage over the block's 5000 rows. -/
theorem pay3_apply (x0 x1 : Vec Ideal S5000x128 .f32) (x2 : Vec Ideal S5000x1 .f32) (x3 : Vec Ideal S128x128 .bf16)
    (x4 : Vec Ideal S1x128 .f32) (x5 : Vec Ideal S128x128 .bf16) (u w : Fin 1) (j : Fin 128) :
    Gen.k0_pay3 (F := Ideal) x0 x2 x1 x3 x4 x5 (ix3 u w j)
      = ∑ k : Fin 5000, linRows (R := 5000) (n := 128) x0 x1 x2 x3 x4 x5 (ix2 k j)
          * linRows (R := 5000) (n := 128) x0 x1 x2 x3 x4 x5 (ix2 k j) := by
  unfold Gen.k0_pay3
  rw [pay1_eq]
  refine (shapeCast_1b_11b_apply _ _ u w j).trans ?_
  refine (shapeCast_a_1a_apply _ _ (0 : Fin 1) j).trans ?_
  refine (multiReduction_add_cols_apply _ _ _ _ _ j).trans ?_
  rfl

/-! ## The blocks the body loads, as entries of the arrays the region finds -/

/-- The array window `w` stages, as the region finds it. -/
abbrev arr (c : Dev nD) (w : Fin 9) := V c (Pipeline.arrRef spec0 w)

/-- Entry `(p, j)` of window 0's block at point `t` is entry `(5000 t + p, j)` of its array. -/
theorem blk0_apply (c : Dev nD) (t : Fin cfg0.N) (p : Fin 5000) (j : Fin 128) (r : Fin 50000) (hr : r.val = 5000 * t.val + p.val) :
    (Gen.iblk0 V c 0 t : Vec Ideal S5000x128 .f32) (ix2 p j) = (arr V c 0 : S50000x128.Idx → Elt Ideal .f32) (ix2 r j) := by
  obtain ⟨e0, e1⟩ := idx_0 t
  unfold Gen.iblk0
  rw [View.read_apply]
  refine congrArg (arr V c 0 : S50000x128.Idx → Elt Ideal .f32) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * j.val = j.val; rw [e1]; omega

/-- Entry `(p, j)` of window 1's block at point `t` is entry `(5000 t + p, j)` of its array. -/
theorem blk1_apply (c : Dev nD) (t : Fin cfg0.N) (p : Fin 5000) (j : Fin 128) (r : Fin 50000) (hr : r.val = 5000 * t.val + p.val) :
    (Gen.iblk0 V c 1 t : Vec Ideal S5000x128 .f32) (ix2 p j) = (arr V c 1 : S50000x128.Idx → Elt Ideal .f32) (ix2 r j) := by
  obtain ⟨e0, e1⟩ := idx_1 t
  unfold Gen.iblk0
  rw [View.read_apply]
  refine congrArg (arr V c 1 : S50000x128.Idx → Elt Ideal .f32) ?_
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * j.val = j.val; rw [e1]; omega

/-- Entry `(p, j)` of window 2's block at point `t` is entry `(5000 t + p, j)` of its array. -/
theorem blk2_apply (c : Dev nD) (t : Fin cfg0.N) (p : Fin 5000) (j : Fin 1) (r : Fin 50000) (hr : r.val = 5000 * t.val + p.val) :
    (Gen.iblk0 V c 2 t : Vec Ideal S5000x1 .f32) (ix2 p j) = (arr V c 2 : S50000x1.Idx → Elt Ideal .f32) (ix2 r j) := by
  obtain ⟨e0, e1⟩ := idx_2 t
  unfold Gen.iblk0
  rw [View.read_apply]
  refine congrArg (arr V c 2 : S50000x1.Idx → Elt Ideal .f32) ?_
  funext a
  apply Fin.ext
  match a with
  | ⟨0, _⟩ => show win0_2.index t (0 : Fin 2) * 5000 + 1 * p.val = r.val; rw [e0, hr]; omega
  | ⟨1, _⟩ => show win0_2.index t (1 : Fin 2) * 1 + 1 * j.val = j.val; rw [e1]; omega

/-- Window 3's block at every point is its whole array. -/
theorem blk3_apply (c : Dev nD) (t : Fin cfg0.N) (p : Fin 128) (j : Fin 128) :
    (Gen.iblk0 V c 3 t : Vec Ideal S128x128 .bf16) (ix2 p j) = (arr V c 3 : S128x128.Idx → Elt Ideal .bf16) (ix2 p j) := by
  obtain ⟨e0, e1⟩ := idx_3 t
  unfold Gen.iblk0
  rw [View.read_apply]
  refine congrArg (arr V c 3 : S128x128.Idx → Elt Ideal .bf16) ?_
  funext a
  apply Fin.ext
  match a with
  | ⟨0, _⟩ => show win0_3.index t (0 : Fin 2) * 128 + 1 * p.val = p.val; rw [e0]; omega
  | ⟨1, _⟩ => show win0_3.index t (1 : Fin 2) * 128 + 1 * j.val = j.val; rw [e1]; omega

/-- Window 4's block at every point is its whole array. -/
theorem blk4_apply (c : Dev nD) (t : Fin cfg0.N) (p : Fin 1) (j : Fin 128) :
    (Gen.iblk0 V c 4 t : Vec Ideal S1x128 .f32) (ix2 p j) = (arr V c 4 : S1x128.Idx → Elt Ideal .f32) (ix2 p j) := by
  obtain ⟨e0, e1⟩ := idx_4 t
  unfold Gen.iblk0
  rw [View.read_apply]
  refine congrArg (arr V c 4 : S1x128.Idx → Elt Ideal .f32) ?_
  funext a
  apply Fin.ext
  match a with
  | ⟨0, _⟩ => show win0_4.index t (0 : Fin 2) * 1 + 1 * p.val = p.val; rw [e0]; omega
  | ⟨1, _⟩ => show win0_4.index t (1 : Fin 2) * 128 + 1 * j.val = j.val; rw [e1]; omega

/-- Window 5's block at every point is its whole array. -/
theorem blk5_apply (c : Dev nD) (t : Fin cfg0.N) (p : Fin 128) (j : Fin 128) :
    (Gen.iblk0 V c 5 t : Vec Ideal S128x128 .bf16) (ix2 p j) = (arr V c 5 : S128x128.Idx → Elt Ideal .bf16) (ix2 p j) := by
  obtain ⟨e0, e1⟩ := idx_5 t
  unfold Gen.iblk0
  rw [View.read_apply]
  refine congrArg (arr V c 5 : S128x128.Idx → Elt Ideal .bf16) ?_
  funext a
  apply Fin.ext
  match a with
  | ⟨0, _⟩ => show win0_5.index t (0 : Fin 2) * 128 + 1 * p.val = p.val; rw [e0]; omega
  | ⟨1, _⟩ => show win0_5.index t (1 : Fin 2) * 128 + 1 * j.val = j.val; rw [e1]; omega

/-- The dense stage of the whole arrays. -/
abbrev G6 (c : Dev nD) : S50000x128.Idx → Elt Ideal .f32 :=
  lin (n := 128) (arr V c 0) (arr V c 1) (arr V c 2) (arr V c 3) (arr V c 4) (arr V c 5)

/-- The dense stage of the blocks at point `t`, at `(p, q)`, is the dense stage of the whole arrays at
    `(5000 t + p, q)`: an entry depends on its own row of the row-indexed operands only. -/
theorem block_row (c : Dev nD) (t : Fin cfg0.N) (p : Fin 5000) (q : Fin 128) (r : Fin 50000) (hr : r.val = 5000 * t.val + p.val) :
    linRows (R := 5000) (n := 128) (Gen.iblk0 V c 0 t) (Gen.iblk0 V c 1 t) (Gen.iblk0 V c 2 t) (Gen.iblk0 V c 3 t) (Gen.iblk0 V c 4 t) (Gen.iblk0 V c 5 t) (ix2 p q) = G6 V c (ix2 r q) := by
  show _ = linRows (R := 50000) (n := 128) (arr V c 0) (arr V c 1) (arr V c 2) (arr V c 3) (arr V c 4) (arr V c 5) (ix2 r q)
  exact linRows_row (arr V c 0) (arr V c 1) (arr V c 2) (arr V c 3) (arr V c 4) (arr V c 5)
    (Gen.iblk0 V c 0 t) (Gen.iblk0 V c 1 t) (Gen.iblk0 V c 2 t) (Gen.iblk0 V c 3 t) (Gen.iblk0 V c 4 t) (Gen.iblk0 V c 5 t) p q r
    (fun k => blk0_apply V c t p k r hr) (fun k => blk1_apply V c t p k r hr) (blk2_apply V c t p 0 r hr)
    (fun k => blk3_apply V c t k q) (blk4_apply V c t 0 q) (fun k => blk5_apply V c t k q)

/-! ## Output window 6: the dense stage -/

theorem flushed6_eq (c : Dev nD) (t : Fin cfg0.N) :
    (Gen.dat0 V c).flushed 6 t = ((cfg0.win 6).blk t).view.read (Elt Ideal) (G6 V c) := by
  show (cfg0.win 6).cut (grid0.coords t) ((Gen.dat0 V c).after 6 t) = _
  rw [Gen.after0_6]
  unfold Gen.out0_6
  rw [View.canon_unit_zero hz]
  simp only [View.ld_unit_zero (S := S5000x128) hz, View.ld_unit_zero (S := S5000x1) hz,
    View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hN : cfg0.N = 10 := Gen.N_0
  have ht : t.val < 10 := by have := t.isLt; omega
  obtain ⟨r, hr⟩ : ∃ r : Fin 50000, r.val = 5000 * t.val + p.val := ⟨⟨5000 * t.val + p.val, by omega⟩, rfl⟩
  obtain ⟨e0, e1⟩ := idx_6 t
  have hemb : ((cfg0.win 6).blk t).view.emb (ix2 p q) = (ix2 r q : S50000x128.Idx) := by
    funext a
    apply Fin.ext
    match a with
    | ⟨0, _⟩ => show win0_6.index t (0 : Fin 2) * 5000 + 1 * p.val = r.val; rw [e0, hr]; omega
    | ⟨1, _⟩ => show win0_6.index t (1 : Fin 2) * 128 + 1 * q.val = q.val; rw [e1]; omega
  show Gen.k0_pay1 (F := Ideal) (Gen.iblk0 V c 0 t) (Gen.iblk0 V c 2 t) (Gen.iblk0 V c 1 t) (Gen.iblk0 V c 3 t) (Gen.iblk0 V c 4 t) (Gen.iblk0 V c 5 t) (ix2 p q) = G6 V c (((cfg0.win 6).blk t).view.emb (ix2 p q))
  refine ((congrFun (pay1_eq (Gen.iblk0 V c 0 t) (Gen.iblk0 V c 1 t) (Gen.iblk0 V c 2 t) (Gen.iblk0 V c 3 t) (Gen.iblk0 V c 4 t) (Gen.iblk0 V c 5 t)) (ix2 p q)).trans ?_).trans (congrArg (G6 V c) hemb).symm
  exact block_row V c t p q r hr

theorem cover6 (i : S50000x128.Idx) :
    ∃ t : Fin cfg0.N, (cfg0.win 6).flush t = true ∧ i ∈ ((cfg0.win 6).blk t).view.set := by
  have hN : cfg0.N = 10 := Gen.N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by omega⟩, rfl⟩
  obtain ⟨e0, e1⟩ := idx_6 t
  refine ⟨t, Gen.flush0_6 t, ?_⟩
  show i ∈ ((View.whole main_v27_0).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE FIRST OUTPUT ARRAY after the region: the dense stage of the arrays the region finds, in window order. -/
theorem final6 (c : Dev nD) : (Gen.dat0 V c).arrAt 6 cfg0.N
    = lin (n := 128) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (Gen.dat0 V c).arrAt_eq_of_cover 6 (G6 V c) (fun t _ => flushed6_eq V c t) cover6

/-! ## Output windows 7 and 8: the block sums and the block sums of squares -/

/-- Entry `(u, w, j)` of a `[1, 1, 128]` block at point `t` is entry `(t, 0, j)` of the `[10, 1, 128]` array. -/
theorem emb3 (t' : Fin 10) (u w : Fin 1) (j : Fin 128) (i0 i1 i2 : ℕ) (h0 : i0 = t'.val) (h1 : i1 = 0) (h2 : i2 = 0) :
    i0 * 1 + 1 * u.val = t'.val ∧ i1 * 1 + 1 * w.val = 0 ∧ i2 * 128 + 1 * j.val = j.val := by
  have := u.isLt; have := w.isLt; subst h0 h1 h2; omega

abbrev G7 (c : Dev nD) : S10x1x128.Idx → Elt Ideal .f32 := blockSums (G6 V c)
abbrev G8 (c : Dev nD) : S10x1x128.Idx → Elt Ideal .f32 := blockSqSums (G6 V c)

theorem flushed7_eq (c : Dev nD) (t : Fin cfg0.N) :
    (Gen.dat0 V c).flushed 7 t = ((cfg0.win 7).blk t).view.read (Elt Ideal) (G7 V c) := by
  show (cfg0.win 7).cut (grid0.coords t) ((Gen.dat0 V c).after 7 t) = _
  rw [Gen.after0_7]
  unfold Gen.out0_7
  rw [View.canon_unit_zero hz3]
  simp only [View.ld_unit_zero (S := S5000x128) hz, View.ld_unit_zero (S := S5000x1) hz,
    View.ld_unit_zero (S := S128x128) hz, View.ld_unit_zero (S := S1x128) hz]
  funext y
  obtain ⟨u, w, j, rfl⟩ : ∃ (u w : Fin 1) (j : Fin 128), y = ix3 u w j := ⟨y 0, y 1, y 2, eq_ix3 y⟩
  have hN : cfg0.N = 10 := Gen.N_0
  obtain ⟨t', ht'⟩ : ∃ t' : Fin 10, t'.val = t.val := ⟨⟨t.val, by have := t.isLt; omega⟩, rfl⟩
  obtain ⟨e0, e1, e2⟩ := idx_7 t
  obtain ⟨a0, a1, a2⟩ := emb3 t' u w j _ _ _ (e0.trans ht'.symm) e1 e2
  have hemb : ((cfg0.win 7).blk t).view.emb (ix3 u w j) = (ix3 t' (0 : Fin 1) j : S10x1x128.Idx) := by
    funext a
    apply Fin.ext
    match a with
    | ⟨0, _⟩ => exact a0
    | ⟨1, _⟩ => exact a1
    | ⟨2, _⟩ => exact a2
  show Gen.k0_pay2 (F := Ideal) (Gen.iblk0 V c 0 t) (Gen.iblk0 V c 2 t) (Gen.iblk0 V c 1 t) (Gen.iblk0 V c 3 t) (Gen.iblk0 V c 4 t) (Gen.iblk0 V c 5 t) (ix3 u w j) = G7 V c (((cfg0.win 7).blk t).view.emb (ix3 u w j))
  refine ((pay2_apply (Gen.iblk0 V c 0 t) (Gen.iblk0 V c 1 t) (Gen.iblk0 V c 2 t) (Gen.iblk0 V c 3 t) (Gen.iblk0 V c 4 t) (Gen.iblk0 V c 5 t) u w j).trans ?_).trans (congrArg (G7 V c) hemb).symm
  show _ = ∑ p : Fin 5000, G6 V c (ix2 (blockRow t' p) j)
  exact Finset.sum_congr rfl fun k _ => block_row V c t k j (blockRow t' k) (by rw [blockRow_val, ht'])

theorem flushed8_eq (c : Dev nD) (t : Fin cfg0.N) :
    (Gen.dat0 V c).flushed 8 t = ((cfg0.win 8).blk t).view.read (Elt Ideal) (G8 V c) := by
  show (cfg0.win 8).cut (grid0.coords t) ((Gen.dat0 V c).after 8 t) = _
  rw [Gen.after0_8]
  unfold Gen.out0_8
  rw [View.canon_unit_zero hz3]
  simp only [View.ld_unit_zero (S := S5000x128) hz, View.ld_unit_zero (S := S5000x1) hz,
    View.ld_unit_zero (S := S128x128) hz, View.ld_unit_zero (S := S1x128) hz]
  funext y
  obtain ⟨u, w, j, rfl⟩ : ∃ (u w : Fin 1) (j : Fin 128), y = ix3 u w j := ⟨y 0, y 1, y 2, eq_ix3 y⟩
  have hN : cfg0.N = 10 := Gen.N_0
  obtain ⟨t', ht'⟩ : ∃ t' : Fin 10, t'.val = t.val := ⟨⟨t.val, by have := t.isLt; omega⟩, rfl⟩
  obtain ⟨e0, e1, e2⟩ := idx_8 t
  obtain ⟨a0, a1, a2⟩ := emb3 t' u w j _ _ _ (e0.trans ht'.symm) e1 e2
  have hemb : ((cfg0.win 8).blk t).view.emb (ix3 u w j) = (ix3 t' (0 : Fin 1) j : S10x1x128.Idx) := by
    funext a
    apply Fin.ext
    match a with
    | ⟨0, _⟩ => exact a0
    | ⟨1, _⟩ => exact a1
    | ⟨2, _⟩ => exact a2
  show Gen.k0_pay3 (F := Ideal) (Gen.iblk0 V c 0 t) (Gen.iblk0 V c 2 t) (Gen.iblk0 V c 1 t) (Gen.iblk0 V c 3 t) (Gen.iblk0 V c 4 t) (Gen.iblk0 V c 5 t) (ix3 u w j) = G8 V c (((cfg0.win 8).blk t).view.emb (ix3 u w j))
  refine ((pay3_apply (Gen.iblk0 V c 0 t) (Gen.iblk0 V c 1 t) (Gen.iblk0 V c 2 t) (Gen.iblk0 V c 3 t) (Gen.iblk0 V c 4 t) (Gen.iblk0 V c 5 t) u w j).trans ?_).trans (congrArg (G8 V c) hemb).symm
  show _ = ∑ p : Fin 5000, G6 V c (ix2 (blockRow t' p) j) * G6 V c (ix2 (blockRow t' p) j)
  exact Finset.sum_congr rfl fun k _ => by
    rw [block_row V c t k j (blockRow t' k) (by rw [blockRow_val, ht'])]

theorem cover7 (i : S10x1x128.Idx) :
    ∃ t : Fin cfg0.N, (cfg0.win 7).flush t = true ∧ i ∈ ((cfg0.win 7).blk t).view.set := by
  have hN : cfg0.N = 10 := Gen.N_0
  have h0 : (i 0).val < 10 := (i 0).isLt
  have h1 : (i 1).val < 1 := (i 1).isLt
  have h2 : (i 2).val < 128 := (i 2).isLt
  obtain ⟨t, ht⟩ : ∃ t : Fin cfg0.N, t.val = (i 0).val := ⟨⟨(i 0).val, by omega⟩, rfl⟩
  obtain ⟨e0, e1, e2⟩ := idx_7 t
  refine ⟨t, Gen.flush0_7 t, ?_⟩
  show i ∈ ((View.whole main_v27_1).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1
    rw [e0, ht]; omega
  | ⟨1, _⟩ =>
    show win0_7.index t (1 : Fin 3) * 1 ≤ (i 1).val ∧ (i 1).val < win0_7.index t (1 : Fin 3) * 1 + 1
    rw [e1]; omega
  | ⟨2, _⟩ =>
    show win0_7.index t (2 : Fin 3) * 128 ≤ (i 2).val ∧ (i 2).val < win0_7.index t (2 : Fin 3) * 128 + 128
    rw [e2]; omega

theorem cover8 (i : S10x1x128.Idx) :
    ∃ t : Fin cfg0.N, (cfg0.win 8).flush t = true ∧ i ∈ ((cfg0.win 8).blk t).view.set := by
  have hN : cfg0.N = 10 := Gen.N_0
  have h0 : (i 0).val < 10 := (i 0).isLt
  have h1 : (i 1).val < 1 := (i 1).isLt
  have h2 : (i 2).val < 128 := (i 2).isLt
  obtain ⟨t, ht⟩ : ∃ t : Fin cfg0.N, t.val = (i 0).val := ⟨⟨(i 0).val, by omega⟩, rfl⟩
  obtain ⟨e0, e1, e2⟩ := idx_8 t
  refine ⟨t, Gen.flush0_8 t, ?_⟩
  show i ∈ ((View.whole main_v27_2).slice (win0_8.rect t)).set
  rw [View.set_slice_whole, Rect.mem_set_unit]
  intro a
  match a with
  | ⟨0, _⟩ =>
    show win0_8.index t (0 : Fin 3) * 1 ≤ (i 0).val ∧ (i 0).val < win0_8.index t (0 : Fin 3) * 1 + 1
    rw [e0, ht]; omega
  | ⟨1, _⟩ =>
    show win0_8.index t (1 : Fin 3) * 1 ≤ (i 1).val ∧ (i 1).val < win0_8.index t (1 : Fin 3) * 1 + 1
    rw [e1]; omega
  | ⟨2, _⟩ =>
    show win0_8.index t (2 : Fin 3) * 128 ≤ (i 2).val ∧ (i 2).val < win0_8.index t (2 : Fin 3) * 128 + 128
    rw [e2]; omega

/-- THE SECOND OUTPUT ARRAY after the region: the block sums of the dense stage. -/
theorem final7 (c : Dev nD) : (Gen.dat0 V c).arrAt 7 cfg0.N
    = blockSums (lin (n := 128) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) :=
  (Gen.dat0 V c).arrAt_eq_of_cover 7 (G7 V c) (fun t _ => flushed7_eq V c t) cover7

/-- THE THIRD OUTPUT ARRAY after the region: the block sums of the squares of the dense stage. -/
theorem final8 (c : Dev nD) : (Gen.dat0 V c).arrAt 8 cfg0.N
    = blockSqSums (lin (n := 128) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) :=
  (Gen.dat0 V c).arrAt_eq_of_cover 8 (G8 V c) (fun t _ => flushed8_eq V c t) cover8

end Cert.KernelIdeal.Region0

end
-- ==== Proof.Region1.lean ====
/-
  The normalisation stage, from blocks to the array.

  The region runs its body at ten grid points. At point t the body sees rows 5000 t … 5000 t + 4999 of the two
  50000-row inputs, the five one-row operands whole, and stores, entry by entry, the column-normalised value of the
  first input (kept where it is ≥ 0, multiplied by the slope row elsewhere) plus the second input. Every entry of the
  result depends on its own row of the row-indexed inputs only, so what each point writes back is its block of ONE
  function of the whole arrays, `RegionForms.norm1`; the ten blocks cover the 50000 rows (row r lies in block r / 5000),
  so the output array ends holding that function.
-/
import proofs.«165145_j85615878078999_2_alg».proof.Proof.RegionForms
import proofs.«165145_j85615878078999_2_alg».proof.Proof.Gen.KernelIdeal.Frame
import Idealize.ShloMosaic.Lib.Pipeline.Value
import Idealize.ShloMosaic.Lib.ValueLayout

noncomputable section

open scoped BigOperators

namespace Cert.KernelIdeal.Region1

open Cert.KernelIdeal Cert.KernelIdeal.Gen Cert.KernelIdeal.RegionForms
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The printed index maps over the grid

The two 50000-row inputs and the output sit at block `(t, 0)` at point `t`; the five one-row windows are whole at every
point. Decided once over the ten points. -/

theorem hz : (![0, 0] : Fin 2 → Nat) = fun _ => 0 := funext fun a => by fin_cases a <;> rfl

theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = t.val ∧ win1_7.index t (1 : Fin 2) = 0 :=
  (by decide +kernel : ∀ t : Fin grid1.N, _)

/-! ## The body's stored value at an entry of the block -/

/-- The value the body stores, at entry `(p, j)` of the block, from the entries of the blocks it loaded: the
    normalised entry, kept where it is ≥ 0 and multiplied by the slope elsewhere, plus the entry of the second block. -/
theorem pay_apply (x0 x1 : Vec Ideal S5000x128 .f32) (x2 x3 x4 x5 x6 : Vec Ideal S1x128 .f32) (p : Fin 5000) (j : Fin 128) :
    Gen.k1_pay1 (F := Ideal) x0 x2 x3 x4 x5 x6 x1 (ix2 p j)
      = Scalar.select (Ideal.cmp .oge
            (x4 (ix2 (0 : Fin 1) j) * (x0 (ix2 p j) - x2 (ix2 (0 : Fin 1) j))
              * Ideal.rsqrt (x3 (ix2 (0 : Fin 1) j) + Ideal.ofBits .f32 0x3727C5AC#32) + x5 (ix2 (0 : Fin 1) j))
            (Ideal.ofBits .f32 0x00000000#32))
          (x4 (ix2 (0 : Fin 1) j) * (x0 (ix2 p j) - x2 (ix2 (0 : Fin 1) j))
              * Ideal.rsqrt (x3 (ix2 (0 : Fin 1) j) + Ideal.ofBits .f32 0x3727C5AC#32) + x5 (ix2 (0 : Fin 1) j))
          (x6 (ix2 (0 : Fin 1) j) * (x4 (ix2 (0 : Fin 1) j) * (x0 (ix2 p j) - x2 (ix2 (0 : Fin 1) j))
              * Ideal.rsqrt (x3 (ix2 (0 : Fin 1) j) + Ideal.ofBits .f32 0x3727C5AC#32) + x5 (ix2 (0 : Fin 1) j)))
        + x1 (ix2 p j) := by
  unfold Gen.k1_pay1
  simp only [shapeCast_self]
  simp only [addf_apply, select_apply, cmpf_apply, mulf_apply, subf_apply, broadcast_apply, broadcastTo_1b_ab_apply]
  rfl

/-! ## The blocks the body loads, as entries of the arrays the region finds -/

/-- The array window `w` stages, as the region finds it. -/
abbrev arr (c : Dev nD) (w : Fin 8) := V c (Pipeline.arrRef spec1 w)

/-- Entry `(p, j)` of window 0's block at point `t` is entry `(5000 t + p, j)` of its array. -/
theorem blk0_apply (c : Dev nD) (t : Fin cfg1.N) (p : Fin 5000) (j : Fin 128) (r : Fin 50000) (hr : r.val = 5000 * t.val + p.val) :
    (Gen.iblk1 V c 0 t : Vec Ideal S5000x128 .f32) (ix2 p j) = (arr V c 0 : S50000x128.Idx → Elt Ideal .f32) (ix2 r j) := by
  obtain ⟨e0, e1⟩ := idx_0 t
  unfold Gen.iblk1
  rw [View.read_apply]
  refine congrArg (arr V c 0 : S50000x128.Idx → Elt Ideal .f32) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- Entry `(p, j)` of window 1's block at point `t` is entry `(5000 t + p, j)` of its array. -/
theorem blk1_apply (c : Dev nD) (t : Fin cfg1.N) (p : Fin 5000) (j : Fin 128) (r : Fin 50000) (hr : r.val = 5000 * t.val + p.val) :
    (Gen.iblk1 V c 1 t : Vec Ideal S5000x128 .f32) (ix2 p j) = (arr V c 1 : S50000x128.Idx → Elt Ideal .f32) (ix2 r j) := by
  obtain ⟨e0, e1⟩ := idx_1 t
  unfold Gen.iblk1
  rw [View.read_apply]
  refine congrArg (arr V c 1 : S50000x128.Idx → Elt Ideal .f32) ?_
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * j.val = j.val; rw [e1]; omega

/-- Window 2's block at every point is its whole array. -/
theorem blk2_apply (c : Dev nD) (t : Fin cfg1.N) (p : Fin 1) (j : Fin 128) :
    (Gen.iblk1 V c 2 t : Vec Ideal S1x128 .f32) (ix2 p j) = (arr V c 2 : S1x128.Idx → Elt Ideal .f32) (ix2 p j) := by
  obtain ⟨e0, e1⟩ := idx_2 t
  unfold Gen.iblk1
  rw [View.read_apply]
  refine congrArg (arr V c 2 : S1x128.Idx → Elt Ideal .f32) ?_
  funext a
  apply Fin.ext
  match a with
  | ⟨0, _⟩ => show win1_2.index t (0 : Fin 2) * 1 + 1 * p.val = p.val; rw [e0]; omega
  | ⟨1, _⟩ => show win1_2.index t (1 : Fin 2) * 128 + 1 * j.val = j.val; rw [e1]; omega

/-- Window 3's block at every point is its whole array. -/
theorem blk3_apply (c : Dev nD) (t : Fin cfg1.N) (p : Fin 1) (j : Fin 128) :
    (Gen.iblk1 V c 3 t : Vec Ideal S1x128 .f32) (ix2 p j) = (arr V c 3 : S1x128.Idx → Elt Ideal .f32) (ix2 p j) := by
  obtain ⟨e0, e1⟩ := idx_3 t
  unfold Gen.iblk1
  rw [View.read_apply]
  refine congrArg (arr V c 3 : S1x128.Idx → Elt Ideal .f32) ?_
  funext a
  apply Fin.ext
  match a with
  | ⟨0, _⟩ => show win1_3.index t (0 : Fin 2) * 1 + 1 * p.val = p.val; rw [e0]; omega
  | ⟨1, _⟩ => show win1_3.index t (1 : Fin 2) * 128 + 1 * j.val = j.val; rw [e1]; omega

/-- Window 4's block at every point is its whole array. -/
theorem blk4_apply (c : Dev nD) (t : Fin cfg1.N) (p : Fin 1) (j : Fin 128) :
    (Gen.iblk1 V c 4 t : Vec Ideal S1x128 .f32) (ix2 p j) = (arr V c 4 : S1x128.Idx → Elt Ideal .f32) (ix2 p j) := by
  obtain ⟨e0, e1⟩ := idx_4 t
  unfold Gen.iblk1
  rw [View.read_apply]
  refine congrArg (arr V c 4 : S1x128.Idx → Elt Ideal .f32) ?_
  funext a
  apply Fin.ext
  match a with
  | ⟨0, _⟩ => show win1_4.index t (0 : Fin 2) * 1 + 1 * p.val = p.val; rw [e0]; omega
  | ⟨1, _⟩ => show win1_4.index t (1 : Fin 2) * 128 + 1 * j.val = j.val; rw [e1]; omega

/-- Window 5's block at every point is its whole array. -/
theorem blk5_apply (c : Dev nD) (t : Fin cfg1.N) (p : Fin 1) (j : Fin 128) :
    (Gen.iblk1 V c 5 t : Vec Ideal S1x128 .f32) (ix2 p j) = (arr V c 5 : S1x128.Idx → Elt Ideal .f32) (ix2 p j) := by
  obtain ⟨e0, e1⟩ := idx_5 t
  unfold Gen.iblk1
  rw [View.read_apply]
  refine congrArg (arr V c 5 : S1x128.Idx → Elt Ideal .f32) ?_
  funext a
  apply Fin.ext
  match a with
  | ⟨0, _⟩ => show win1_5.index t (0 : Fin 2) * 1 + 1 * p.val = p.val; rw [e0]; omega
  | ⟨1, _⟩ => show win1_5.index t (1 : Fin 2) * 128 + 1 * j.val = j.val; rw [e1]; omega

/-- Window 6's block at every point is its whole array. -/
theorem blk6_apply (c : Dev nD) (t : Fin cfg1.N) (p : Fin 1) (j : Fin 128) :
    (Gen.iblk1 V c 6 t : Vec Ideal S1x128 .f32) (ix2 p j) = (arr V c 6 : S1x128.Idx → Elt Ideal .f32) (ix2 p j) := by
  obtain ⟨e0, e1⟩ := idx_6 t
  unfold Gen.iblk1
  rw [View.read_apply]
  refine congrArg (arr V c 6 : S1x128.Idx → Elt Ideal .f32) ?_
  funext a
  apply Fin.ext
  match a with
  | ⟨0, _⟩ => show win1_6.index t (0 : Fin 2) * 1 + 1 * p.val = p.val; rw [e0]; omega
  | ⟨1, _⟩ => show win1_6.index t (1 : Fin 2) * 128 + 1 * j.val = j.val; rw [e1]; omega

/-! ## From the blocks to the array -/

/-- The output array as one function of the arrays the region finds. -/
abbrev G (c : Dev nD) : S50000x128.Idx → Elt Ideal .f32 :=
  norm1 (arr V c 0) (arr V c 1) (arr V c 2) (arr V c 3) (arr V c 4) (arr V c 5) (arr V c 6)

/-- What point `t` writes back is block `t` of that function: rows `5000 t … 5000 t + 4999`. -/
theorem flushed_eq (c : Dev nD) (t : Fin cfg1.N) :
    (Gen.dat1 V c).flushed 7 t = ((cfg1.win 7).blk t).view.read (Elt Ideal) (G V c) := by
  show (cfg1.win 7).cut (grid1.coords t) ((Gen.dat1 V c).after 7 t) = _
  rw [Gen.after1_7]
  unfold Gen.out1_7
  rw [View.canon_unit_zero hz]
  simp only [View.ld_unit_zero (S := S5000x128) hz, View.ld_unit_zero (S := S1x128) hz]
  funext y
  obtain ⟨p, j, rfl⟩ : ∃ (p : Fin 5000) (j : Fin 128), y = ix2 p j := ⟨y 0, y 1, eq_ix2 y⟩
  have hN : cfg1.N = 10 := Gen.N_1
  have ht : t.val < 10 := by have := t.isLt; omega
  obtain ⟨r, hr⟩ : ∃ r : Fin 50000, r.val = 5000 * t.val + p.val := ⟨⟨5000 * t.val + p.val, by omega⟩, rfl⟩
  obtain ⟨e0, e1⟩ := idx_7 t
  have hemb : ((cfg1.win 7).blk t).view.emb (ix2 p j) = (ix2 r j : S50000x128.Idx) := by
    funext a
    apply Fin.ext
    match a with
    | ⟨0, _⟩ => show win1_7.index t (0 : Fin 2) * 5000 + 1 * p.val = r.val; rw [e0, hr]; omega
    | ⟨1, _⟩ => show win1_7.index t (1 : Fin 2) * 128 + 1 * j.val = j.val; rw [e1]; omega
  show Gen.k1_pay1 (F := Ideal) (Gen.iblk1 V c 0 t) (Gen.iblk1 V c 2 t) (Gen.iblk1 V c 3 t) (Gen.iblk1 V c 4 t)
      (Gen.iblk1 V c 5 t) (Gen.iblk1 V c 6 t) (Gen.iblk1 V c 1 t) (ix2 p j) = G V c (((cfg1.win 7).blk t).view.emb (ix2 p j))
  refine ((pay_apply (Gen.iblk1 V c 0 t) (Gen.iblk1 V c 1 t) (Gen.iblk1 V c 2 t) (Gen.iblk1 V c 3 t) (Gen.iblk1 V c 4 t)
      (Gen.iblk1 V c 5 t) (Gen.iblk1 V c 6 t) p j).trans ?_).trans (congrArg (G V c) hemb).symm
  rw [blk0_apply V c t p j r hr, blk1_apply V c t p j r hr, blk2_apply V c t 0 j, blk3_apply V c t 0 j,
    blk4_apply V c t 0 j, blk5_apply V c t 0 j, blk6_apply V c t 0 j]
  rfl

/-- Row `r` lies in the block of point `r / 5000`: the ten blocks cover the array. -/
theorem cover (i : S50000x128.Idx) :
    ∃ t : Fin cfg1.N, (cfg1.win 7).flush t = true ∧ i ∈ ((cfg1.win 7).blk t).view.set := by
  have hN : cfg1.N = 10 := Gen.N_1
  have h0 : (i 0).val < 50000 := (i 0).isLt
  have h1 : (i 1).val < 128 := (i 1).isLt
  obtain ⟨t, ht⟩ : ∃ t : Fin cfg1.N, t.val = (i 0).val / 5000 := ⟨⟨(i 0).val / 5000, by omega⟩, rfl⟩
  obtain ⟨e0, e1⟩ := idx_7 t
  refine ⟨t, Gen.flush1_7 t, ?_⟩
  show i ∈ ((View.whole main_v45).slice (win1_7.rect t)).set
  rw [View.set_slice_whole, Rect.mem_set_unit]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- THE ARRAY after the region: the normalisation stage of the arrays the region finds, in window order. -/
theorem final (c : Dev nD) : (Gen.dat1 V c).arrAt 7 cfg1.N
    = norm1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) :=
  (Gen.dat1 V c).arrAt_eq_of_cover 7 (G V c) (fun t _ => flushed_eq V c t) cover

end Cert.KernelIdeal.Region1

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«165145_j85615878078999_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Region2.lean ====
/-
  The second dense stage and the row-wise log-softmax, from blocks to the array.

  The region runs its body at ten grid points. At point t the body sees rows 5000 t … 5000 t + 4999 of the three
  row-indexed inputs, the two weight matrices and the row vector whole, computes the dense stage of its block (16 columns)
  and stores, row by row, each entry minus the row's maximum minus the logarithm of the row's sum of shifted exponentials.
  Both steps act on one row at a time, so what each point writes back is its block of ONE function of the whole arrays,
  `RegionForms.lsm2` of `RegionForms.lin`; the ten blocks cover the 50000 rows, so the output array ends holding it.
-/
import proofs.«165145_j85615878078999_2_alg».proof.Proof.RegionForms
import proofs.«165145_j85615878078999_2_alg».proof.Proof.Gen.KernelIdeal.Frame
import proofs.«165145_j85615878078999_2_alg».proof.Proof.RegionLinear
import Idealize.ShloMosaic.Lib.Pipeline.Value
import Idealize.ShloMosaic.Lib.ValueLayout
import proofs.«165145_j85615878078999_2_alg».proof.Proof.LibLaneMax
import proofs.«165145_j85615878078999_2_alg».proof.Proof.LibColumnCast

noncomputable section

open scoped BigOperators

namespace Cert.KernelIdeal.Region2

open Cert.KernelIdeal Cert.KernelIdeal.Gen Cert.KernelIdeal.RegionForms Cert.KernelIdeal.RegionLinear Cert.MatrixProduct
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The printed index maps over the grid

The three row-indexed inputs and the output sit at block `(t, 0)` at point `t`; the two weight matrices and the row
vector are whole at every point. Decided once over the ten points. -/

theorem hz : (![0, 0] : Fin 2 → Nat) = fun _ => 0 := funext fun a => by fin_cases a <;> rfl

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = t.val ∧ win2_6.index t (1 : Fin 2) = 0 :=
  (by decide +kernel : ∀ t : Fin grid2.N, _)

/-! ## The row-wise log-softmax on a block of rows -/

/-- The row-wise log-softmax on `R` rows: on 50000 rows it is `RegionForms.lsm2`. -/
def lsmRows {R : ℕ} (O : (⟨2, ![R, 16]⟩ : Shape).Idx → EReal) : (⟨2, ![R, 16]⟩ : Shape).Idx → EReal :=
  fun i => (O i - rowMax O (i 0)) - rowLogSumExp O (i 0)

theorem lsm2_eq_lsmRows (O : (⟨2, ![50000, 16]⟩ : Shape).Idx → EReal) : lsm2 O = lsmRows O := rfl

/-- An entry of it depends on its own row only. -/
theorem lsmRows_row {M R : ℕ} (O : (⟨2, ![M, 16]⟩ : Shape).Idx → EReal) (x : (⟨2, ![R, 16]⟩ : Shape).Idx → EReal)
    (p : Fin R) (r : Fin M) (h : ∀ c : Fin 16, x (ix2 p c) = O (ix2 r c)) (j : Fin 16) :
    lsmRows x (ix2 p j) = lsmRows O (ix2 r j) := by
  have hm : rowMax x p = rowMax O r := by
    unfold rowMax
    exact congrArg (fun f => (Finset.univ : Finset (Fin 16)).fold max (FloatOps.ofBits (F := Ideal) .f32 0xFF800000#32) f)
      (funext h)
  have hs : rowLogSumExp x p = rowLogSumExp O r := by
    unfold rowLogSumExp
    rw [hm]
    exact congrArg Ideal.log (Finset.sum_congr rfl fun c _ => by rw [h c])
  show (x (ix2 p j) - rowMax x p) - rowLogSumExp x p = (O (ix2 r j) - rowMax O r) - rowLogSumExp O r
  rw [h j, hm, hs]

/-- The maximum along the rows, kept as a column, read at row `p`. -/
theorem rowmax_apply (O : FVec Ideal S5000x16 .f32) (p : Fin 5000) :
    shapeCast S5000x1 (multiReduction .maximumf [1] S5000 O 0xFF800000#32 reduces_S5000x16_S5000 (.inl rfl) rfl)
      shapeCasts_S5000_S5000x1 (ix2 p (0 : Fin 1)) = rowMax O p :=
  (shapeCast_a_a1_apply _ _ p (0 : Fin 1)).trans (multiReduction_maximumf_rows_apply _ _ _ _ _ p)

/-- The sum along the rows, kept as a column, read at row `p`. -/
theorem rowsum_apply (E : FVec Ideal S5000x16 .f32) (p : Fin 5000) :
    shapeCast S5000x1 (multiReduction .add [1] S5000 E 0x00000000#32 reduces_S5000x16_S5000 (.inl rfl) rfl)
      shapeCasts_S5000_S5000x1 (ix2 p (0 : Fin 1)) = ∑ c : Fin 16, E (ix2 p c) :=
  (shapeCast_a_a1_apply _ _ p (0 : Fin 1)).trans (multiReduction_add_rows_apply _ _ _ _ _ p)

/-- The body's spelling of the log-softmax of a block `O`, read at `(p, j)`. -/
theorem lsm_block (O : FVec Ideal S5000x16 .f32) (p : Fin 5000) (j : Fin 16) :
    subf
      (subf O (broadcastTo S5000x16 (shapeCast S5000x1
        (multiReduction .maximumf [1] S5000 O 0xFF800000#32 reduces_S5000x16_S5000 (.inl rfl) rfl)
        shapeCasts_S5000_S5000x1) broadcasts_S5000x1_S5000x16))
      (broadcastTo S5000x16 (log (shapeCast S5000x1
        (multiReduction .add [1] S5000
          (exp (subf O (broadcastTo S5000x16 (shapeCast S5000x1
            (multiReduction .maximumf [1] S5000 O 0xFF800000#32 reduces_S5000x16_S5000 (.inl rfl) rfl)
            shapeCasts_S5000_S5000x1) broadcasts_S5000x1_S5000x16)))
          0x00000000#32 reduces_S5000x16_S5000 (.inl rfl) rfl)
        shapeCasts_S5000_S5000x1)) broadcasts_S5000x1_S5000x16) (ix2 p j)
      = lsmRows O (ix2 p j) := by
  rw [subf_apply, subf_apply, broadcastTo_a1_ab_apply, broadcastTo_a1_ab_apply, rowmax_apply]
  show (O (ix2 p j) - rowMax O p) - Ideal.log (shapeCast S5000x1
        (multiReduction .add [1] S5000
          (exp (subf O (broadcastTo S5000x16 (shapeCast S5000x1
            (multiReduction .maximumf [1] S5000 O 0xFF800000#32 reduces_S5000x16_S5000 (.inl rfl) rfl)
            shapeCasts_S5000_S5000x1) broadcasts_S5000x1_S5000x16)))
          0x00000000#32 reduces_S5000x16_S5000 (.inl rfl) rfl)
        shapeCasts_S5000_S5000x1 (ix2 p (0 : Fin 1)))
    = (O (ix2 p j) - rowMax O p) - Ideal.log (∑ c : Fin 16, Ideal.exp (O (ix2 p c) - rowMax O p))
  rw [rowsum_apply]
  refine congrArg (fun s => (O (ix2 p j) - rowMax O p) - Ideal.log s) (Finset.sum_congr rfl fun c _ => ?_)
  show Ideal.exp (O (ix2 p c) - broadcastTo S5000x16 (shapeCast S5000x1
      (multiReduction .maximumf [1] S5000 O 0xFF800000#32 reduces_S5000x16_S5000 (.inl rfl) rfl)
      shapeCasts_S5000_S5000x1) broadcasts_S5000x1_S5000x16 (ix2 p c)) = _
  rw [broadcastTo_a1_ab_apply, rowmax_apply]

/-! ## The body's stored value -/

/-- The stored value is the log-softmax of the dense stage of the blocks the body loaded. -/
theorem pay_apply (x0 x1 : Vec Ideal S5000x128 .f32) (x2 : Vec Ideal S5000x1 .f32) (x3 : Vec Ideal S128x16 .bf16)
    (x4 : Vec Ideal S1x16 .f32) (x5 : Vec Ideal S128x16 .bf16) (p : Fin 5000) (j : Fin 16) :
    Gen.k2_pay1 (F := Ideal) x0 x2 x1 x3 x4 x5 (ix2 p j)
      = lsmRows (linRows (R := 5000) (n := 16) x0 x1 x2 x3 x4 x5) (ix2 p j) := by
  have e := block_lin dot_S5000x128_S128x16_S5000x16_1_0_0_1_n_n_wf bitsLt_bf16_f32 broadcasts_S5000x1_S5000x128
    broadcasts_S1x16_S5000x16 x0 x1 x2 x3 x4 x5
  unfold Gen.k2_pay1
  simp only [shapeCast_self]
  unfold dot_S5000x128_S128x16_S5000x16_1_0_0_1_n_n
  rw [e]
  exact lsm_block _ p j

/-! ## The blocks the body loads, as entries of the arrays the region finds -/

/-- The array window `w` stages, as the region finds it. -/
abbrev arr (c : Dev nD) (w : Fin 7) := V c (Pipeline.arrRef spec2 w)

/-- Entry `(p, j)` of window 0's block at point `t` is entry `(5000 t + p, j)` of its array. -/
theorem blk0_apply (c : Dev nD) (t : Fin cfg2.N) (p : Fin 5000) (j : Fin 128) (r : Fin 50000) (hr : r.val = 5000 * t.val + p.val) :
    (Gen.iblk2 V c 0 t : Vec Ideal S5000x128 .f32) (ix2 p j) = (arr V c 0 : S50000x128.Idx → Elt Ideal .f32) (ix2 r j) := by
  obtain ⟨e0, e1⟩ := idx_0 t
  unfold Gen.iblk2
  rw [View.read_apply]
  refine congrArg (arr V c 0 : S50000x128.Idx → Elt Ideal .f32) ?_
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * j.val = j.val; rw [e1]; omega

/-- Entry `(p, j)` of window 1's block at point `t` is entry `(5000 t + p, j)` of its array. -/
theorem blk1_apply (c : Dev nD) (t : Fin cfg2.N) (p : Fin 5000) (j : Fin 128) (r : Fin 50000) (hr : r.val = 5000 * t.val + p.val) :
    (Gen.iblk2 V c 1 t : Vec Ideal S5000x128 .f32) (ix2 p j) = (arr V c 1 : S50000x128.Idx → Elt Ideal .f32) (ix2 r j) := by
  obtain ⟨e0, e1⟩ := idx_1 t
  unfold Gen.iblk2
  rw [View.read_apply]
  refine congrArg (arr V c 1 : S50000x128.Idx → Elt Ideal .f32) ?_
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * j.val = j.val; rw [e1]; omega

/-- Entry `(p, j)` of window 2's block at point `t` is entry `(5000 t + p, j)` of its array. -/
theorem blk2_apply (c : Dev nD) (t : Fin cfg2.N) (p : Fin 5000) (j : Fin 1) (r : Fin 50000) (hr : r.val = 5000 * t.val + p.val) :
    (Gen.iblk2 V c 2 t : Vec Ideal S5000x1 .f32) (ix2 p j) = (arr V c 2 : S50000x1.Idx → Elt Ideal .f32) (ix2 r j) := by
  obtain ⟨e0, e1⟩ := idx_2 t
  unfold Gen.iblk2
  rw [View.read_apply]
  refine congrArg (arr V c 2 : S50000x1.Idx → Elt Ideal .f32) ?_
  funext a
  apply Fin.ext
  match a with
  | ⟨0, _⟩ => show win2_2.index t (0 : Fin 2) * 5000 + 1 * p.val = r.val; rw [e0, hr]; omega
  | ⟨1, _⟩ => show win2_2.index t (1 : Fin 2) * 1 + 1 * j.val = j.val; rw [e1]; omega

/-- Window 3's block at every point is its whole array. -/
theorem blk3_apply (c : Dev nD) (t : Fin cfg2.N) (p : Fin 128) (j : Fin 16) :
    (Gen.iblk2 V c 3 t : Vec Ideal S128x16 .bf16) (ix2 p j) = (arr V c 3 : S128x16.Idx → Elt Ideal .bf16) (ix2 p j) := by
  obtain ⟨e0, e1⟩ := idx_3 t
  unfold Gen.iblk2
  rw [View.read_apply]
  refine congrArg (arr V c 3 : S128x16.Idx → Elt Ideal .bf16) ?_
  funext a
  apply Fin.ext
  match a with
  | ⟨0, _⟩ => show win2_3.index t (0 : Fin 2) * 128 + 1 * p.val = p.val; rw [e0]; omega
  | ⟨1, _⟩ => show win2_3.index t (1 : Fin 2) * 16 + 1 * j.val = j.val; rw [e1]; omega

/-- Window 4's block at every point is its whole array. -/
theorem blk4_apply (c : Dev nD) (t : Fin cfg2.N) (p : Fin 1) (j : Fin 16) :
    (Gen.iblk2 V c 4 t : Vec Ideal S1x16 .f32) (ix2 p j) = (arr V c 4 : S1x16.Idx → Elt Ideal .f32) (ix2 p j) := by
  obtain ⟨e0, e1⟩ := idx_4 t
  unfold Gen.iblk2
  rw [View.read_apply]
  refine congrArg (arr V c 4 : S1x16.Idx → Elt Ideal .f32) ?_
  funext a
  apply Fin.ext
  match a with
  | ⟨0, _⟩ => show win2_4.index t (0 : Fin 2) * 1 + 1 * p.val = p.val; rw [e0]; omega
  | ⟨1, _⟩ => show win2_4.index t (1 : Fin 2) * 16 + 1 * j.val = j.val; rw [e1]; omega

/-- Window 5's block at every point is its whole array. -/
theorem blk5_apply (c : Dev nD) (t : Fin cfg2.N) (p : Fin 128) (j : Fin 16) :
    (Gen.iblk2 V c 5 t : Vec Ideal S128x16 .bf16) (ix2 p j) = (arr V c 5 : S128x16.Idx → Elt Ideal .bf16) (ix2 p j) := by
  obtain ⟨e0, e1⟩ := idx_5 t
  unfold Gen.iblk2
  rw [View.read_apply]
  refine congrArg (arr V c 5 : S128x16.Idx → Elt Ideal .bf16) ?_
  funext a
  apply Fin.ext
  match a with
  | ⟨0, _⟩ => show win2_5.index t (0 : Fin 2) * 128 + 1 * p.val = p.val; rw [e0]; omega
  | ⟨1, _⟩ => show win2_5.index t (1 : Fin 2) * 16 + 1 * j.val = j.val; rw [e1]; omega

/-- The dense stage of the whole arrays. -/
abbrev L (c : Dev nD) : S50000x16.Idx → Elt Ideal .f32 :=
  lin (n := 16) (arr V c 0) (arr V c 1) (arr V c 2) (arr V c 3) (arr V c 4) (arr V c 5)

/-- The output array as one function of the arrays the region finds. -/
abbrev G (c : Dev nD) : S50000x16.Idx → Elt Ideal .f32 := lsm2 (L V c)

/-- The dense stage of the blocks at point `t`, at `(p, q)`, is the dense stage of the whole arrays at
    `(5000 t + p, q)`. -/
theorem block_row (c : Dev nD) (t : Fin cfg2.N) (p : Fin 5000) (q : Fin 16) (r : Fin 50000) (hr : r.val = 5000 * t.val + p.val) :
    linRows (R := 5000) (n := 16) (Gen.iblk2 V c 0 t) (Gen.iblk2 V c 1 t) (Gen.iblk2 V c 2 t) (Gen.iblk2 V c 3 t) (Gen.iblk2 V c 4 t) (Gen.iblk2 V c 5 t) (ix2 p q) = L V c (ix2 r q) := by
  show _ = linRows (R := 50000) (n := 16) (arr V c 0) (arr V c 1) (arr V c 2) (arr V c 3) (arr V c 4) (arr V c 5) (ix2 r q)
  exact linRows_row (arr V c 0) (arr V c 1) (arr V c 2) (arr V c 3) (arr V c 4) (arr V c 5)
    (Gen.iblk2 V c 0 t) (Gen.iblk2 V c 1 t) (Gen.iblk2 V c 2 t) (Gen.iblk2 V c 3 t) (Gen.iblk2 V c 4 t) (Gen.iblk2 V c 5 t) p q r
    (fun k => blk0_apply V c t p k r hr) (fun k => blk1_apply V c t p k r hr) (blk2_apply V c t p 0 r hr)
    (fun k => blk3_apply V c t k q) (blk4_apply V c t 0 q) (fun k => blk5_apply V c t k q)

/-! ## From the blocks to the array -/

/-- What point `t` writes back is block `t` of the function: rows `5000 t … 5000 t + 4999`. -/
theorem flushed_eq (c : Dev nD) (t : Fin cfg2.N) :
    (Gen.dat2 V c).flushed 6 t = ((cfg2.win 6).blk t).view.read (Elt Ideal) (G V c) := by
  show (cfg2.win 6).cut (grid2.coords t) ((Gen.dat2 V c).after 6 t) = _
  rw [Gen.after2_6]
  unfold Gen.out2_6
  rw [View.canon_unit_zero hz]
  simp only [View.ld_unit_zero (S := S5000x128) hz, View.ld_unit_zero (S := S5000x1) hz,
    View.ld_unit_zero (S := S128x16) hz, View.ld_unit_zero (S := S1x16) hz]
  funext y
  obtain ⟨p, j, rfl⟩ : ∃ (p : Fin 5000) (j : Fin 16), y = ix2 p j := ⟨y 0, y 1, eq_ix2 y⟩
  have hN : cfg2.N = 10 := Gen.N_2
  have ht : t.val < 10 := by have := t.isLt; omega
  obtain ⟨r, hr⟩ : ∃ r : Fin 50000, r.val = 5000 * t.val + p.val := ⟨⟨5000 * t.val + p.val, by omega⟩, rfl⟩
  obtain ⟨e0, e1⟩ := idx_6 t
  have hemb : ((cfg2.win 6).blk t).view.emb (ix2 p j) = (ix2 r j : S50000x16.Idx) := by
    funext a
    apply Fin.ext
    match a with
    | ⟨0, _⟩ => show win2_6.index t (0 : Fin 2) * 5000 + 1 * p.val = r.val; rw [e0, hr]; omega
    | ⟨1, _⟩ => show win2_6.index t (1 : Fin 2) * 16 + 1 * j.val = j.val; rw [e1]; omega
  show Gen.k2_pay1 (F := Ideal) (Gen.iblk2 V c 0 t) (Gen.iblk2 V c 2 t) (Gen.iblk2 V c 1 t) (Gen.iblk2 V c 3 t) (Gen.iblk2 V c 4 t) (Gen.iblk2 V c 5 t) (ix2 p j) = G V c (((cfg2.win 6).blk t).view.emb (ix2 p j))
  refine ((pay_apply (Gen.iblk2 V c 0 t) (Gen.iblk2 V c 1 t) (Gen.iblk2 V c 2 t) (Gen.iblk2 V c 3 t) (Gen.iblk2 V c 4 t) (Gen.iblk2 V c 5 t) p j).trans ?_).trans (congrArg (G V c) hemb).symm
  show _ = lsmRows (L V c) (ix2 r j)
  exact lsmRows_row (L V c) _ p r (fun q => block_row V c t p q r hr) j

/-- Row `r` lies in the block of point `r / 5000`: the ten blocks cover the array. -/
theorem cover (i : S50000x16.Idx) :
    ∃ t : Fin cfg2.N, (cfg2.win 6).flush t = true ∧ i ∈ ((cfg2.win 6).blk t).view.set := by
  have hN : cfg2.N = 10 := Gen.N_2
  have h0 : (i 0).val < 50000 := (i 0).isLt
  have h1 : (i 1).val < 16 := (i 1).isLt
  obtain ⟨t, ht⟩ : ∃ t : Fin cfg2.N, t.val = (i 0).val / 5000 := ⟨⟨(i 0).val / 5000, by omega⟩, rfl⟩
  obtain ⟨e0, e1⟩ := idx_6 t
  refine ⟨t, Gen.flush2_6 t, ?_⟩
  show i ∈ ((View.whole main_v61).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 16 ≤ (i 1).val ∧ (i 1).val < win2_6.index t (1 : Fin 2) * 16 + 16
    rw [e1]; omega

/-- THE ARRAY after the region: the row-wise log-softmax of the dense stage of the arrays the region finds, in window
    order. -/
theorem final (c : Dev nD) : (Gen.dat2 V c).arrAt 6 cfg2.N
    = lsm2 (lin (n := 16) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) :=
  (Gen.dat2 V c).arrAt_eq_of_cover 6 (G V c) (fun t _ => flushed_eq V c t) cover

end Cert.KernelIdeal.Region2

end
-- ==== Proof.KerValue.lean ====
/-
  The kernel program's result as one term of its arguments.

  The result buffer is the third region's output: the row-wise log-softmax of the second dense stage. That stage reads
  the neighbour sums of the second region's output, that output itself, the reciprocal in-degree column and the second
  layer's weights. The second region's output is the normalisation stage of the first region's output, with the column
  statistics the host computes from the first region's ten block sums and ten block sums of squares. The first region's
  output is the first dense stage of the neighbour sums of the features.
-/
import proofs.«165145_j85615878078999_2_alg».proof.Proof.KerOut
import proofs.«165145_j85615878078999_2_alg».proof.Proof.KerHost
import proofs.«165145_j85615878078999_2_alg».proof.Proof.Region0
import proofs.«165145_j85615878078999_2_alg».proof.Proof.Region1
import proofs.«165145_j85615878078999_2_alg».proof.Proof.Region2

noncomputable section

namespace Cert.KernelIdeal.KerValue

open Cert.KernelIdeal Cert.KernelIdeal.Gen Cert.KernelIdeal.KerHost Cert.KernelIdeal.RegionForms Cert.KernelIdeal.KerTerm
open Idealize.ShloMosaic Idealize.SL.Sem

variable (m : (ℓ : Loc nD τ sig) → Buf (Elt Ideal) ℓ) (ρ : Dev nD → PrngReg)

set_option maxHeartbeats 2000000 in
/-- The first region's main output. -/
theorem out0 (c : Dev nD) :
    (dat0 (V3 m ρ) c).arrAt 6 cfg0.N
      = layer1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Region0.final6 (V3 m ρ) c,
    show V3 m ρ c (Pipeline.arrRef spec0 0) = _ from V3_main_v13 m ρ c,
    show V3 m ρ c (Pipeline.arrRef spec0 1) = _ from V3_main_arg0 m ρ c,
    show V3 m ρ c (Pipeline.arrRef spec0 2) = _ from V3_main_v21 m ρ c,
    show V3 m ρ c (Pipeline.arrRef spec0 3) = _ from V3_main_v23 m ρ c,
    show V3 m ρ c (Pipeline.arrRef spec0 4) = _ from V3_main_v26 m ρ c,
    show V3 m ρ c (Pipeline.arrRef spec0 5) = _ from V3_main_v25 m ρ c]
  rfl

theorem sums0 (c : Dev nD) :
    (dat0 (V3 m ρ) c).arrAt 7 cfg0.N = blockSums ((dat0 (V3 m ρ) c).arrAt 6 cfg0.N) := by
  rw [Region0.final7 (V3 m ρ) c, Region0.final6 (V3 m ρ) c]

theorem sqsums0 (c : Dev nD) :
    (dat0 (V3 m ρ) c).arrAt 8 cfg0.N = blockSqSums ((dat0 (V3 m ρ) c).arrAt 6 cfg0.N) := by
  rw [Region0.final8 (V3 m ρ) c, Region0.final6 (V3 m ρ) c]

set_option maxHeartbeats 4000000 in
/-- The second region's output. -/
theorem out1 (c : Dev nD) :
    (dat1 (V5 m ρ) c).arrAt 7 cfg1.N
      = hidden (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg8)) (m ((c.tc : Thread nD τ).loc main_arg9)) (m ((c.tc : Thread nD τ).loc main_arg10)) := by
  rw [Region1.final (V5 m ρ) c,
    show V5 m ρ c (Pipeline.arrRef spec1 0) = _ from V5_main_v27_0 m ρ c,
    show V5 m ρ c (Pipeline.arrRef spec1 1) = _ from V5_main_arg0 m ρ c,
    show V5 m ρ c (Pipeline.arrRef spec1 2) = _ from V5_main_v35 m ρ c,
    show V5 m ρ c (Pipeline.arrRef spec1 3) = _ from V5_main_v41 m ρ c,
    show V5 m ρ c (Pipeline.arrRef spec1 4) = _ from V5_main_v43 m ρ c,
    show V5 m ρ c (Pipeline.arrRef spec1 5) = _ from V5_main_v44 m ρ c,
    show V5 m ρ c (Pipeline.arrRef spec1 6) = _ from V5_main_v42 m ρ c,
    sqsums0 m ρ c, sums0 m ρ c, out0 m ρ c]
  rfl

set_option maxHeartbeats 4000000 in
/-- The kernel program's result buffer, when @main returns. -/
theorem value (c : Dev nD) :
    W8 m ρ c (Proc.devRef .tc main_v61)
      = kerOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [W8_main_v61 m ρ c, Region2.final (V7 m ρ) c,
    show V7 m ρ c (Pipeline.arrRef spec2 0) = _ from V7_main_v55 m ρ c,
    show V7 m ρ c (Pipeline.arrRef spec2 1) = _ from V7_main_v45 m ρ c,
    show V7 m ρ c (Pipeline.arrRef spec2 2) = _ from V7_main_v21 m ρ c,
    show V7 m ρ c (Pipeline.arrRef spec2 3) = _ from V7_main_v57 m ρ c,
    show V7 m ρ c (Pipeline.arrRef spec2 4) = _ from V7_main_v60 m ρ c,
    show V7 m ρ c (Pipeline.arrRef spec2 5) = _ from V7_main_v59 m ρ c,
    out1 m ρ c]
  rfl

end Cert.KernelIdeal.KerValue

end
-- ==== Proof.RefTerm.lean ====
/-
  The reference program's result as a closed term of its eleven arguments' contents, at the exact
  extended reals: a two-layer GraphSAGE network. Each layer averages, for every node, the feature
  rows of its in-neighbours (a gather of the rows at the edges' source nodes, summed into the rows at
  the edges' destination nodes, divided by the in-degree clipped below at one), applies one linear map
  with bias to that average and another to the node's own row, and adds the two. Between the layers the
  columns are normalized (mean and variance down the 50000 rows), scaled and shifted, passed through a
  leaky rectifier and added to the input; after the second layer each row is log-softmaxed.

  Every definition below is the composition of exactly the operations the printed program lists for
  the named value, in the program's order and with the program's shape facts.
-/
import proofs.«165145_j85615878078999_2_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- Row 0 of the edge table (the edges' source nodes) as a flat vector: value %1. -/
def row0 (ei : IVec S2x800000 32) : IVec S800000 32 :=
  shapeCast S800000 (extractStridedSlice S1x800000 ![0, 0] ei slices_S2x800000_S1x800000_0_0) shapeCasts_S1x800000_S800000

/-- Row 1 of the edge table (the edges' destination nodes) as a flat vector: value %3. -/
def row1 (ei : IVec S2x800000 32) : IVec S800000 32 :=
  shapeCast S800000 (extractStridedSlice S1x800000 ![1, 0] ei slices_S2x800000_S1x800000_1_0) shapeCasts_S1x800000_S800000

/-- The source nodes as a gather's index table: a negative index counted from the end (50000 added
    where the index is below zero), then one index per row. Value %9 (and %60: the same operations). -/
def srcIdx (ei : IVec S2x800000 32) : IVec S800000x1 32 :=
  broadcastInDim S800000x1 ![0] bcast_S800000_S800000x1_0
    (select (cmpi .slt (row0 ei) (broadcastInDim S800000 ![] bcast_S_S800000 (constantI S_ 32 0#32)))
      (addi (row0 ei) (broadcastInDim S800000 ![] bcast_S_S800000 (constantI S_ 32 50000#32)))
      (row0 ei))

/-- The destination nodes as a scatter's index table. Value %12 (= %16, %63, %67). -/
def dstIdx (ei : IVec S2x800000 32) : IVec S800000x1 32 :=
  broadcastInDim S800000x1 ![0] bcast_S800000_S800000x1_0 (row1 ei)

/-- The neighbour sum: the rows of `X` at the edges' sources, added into the zero array at the
    edges' destinations. Value %13 at `X = %arg0`, value %64 at `X = %54`. -/
def aggSum (ei : IVec S2x800000 32) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstIdx ei)
    (Host.gather gather_S50000x128_S800000x1_S800000x128_1_0_n_n_0_1_1128 X (srcIdx ei))

/-- The in-degree clipped below at one: a one added into the zero vector at each edge's destination,
    then the maximum with the broadcast one. Value %18 (= %69). -/
def cnt (ei : IVec S2x800000 32) : FVec Ideal S50000 .f32 :=
  maximumf
    (broadcastInDim S50000 ![] bcast_S_S50000 (id (constant (F := Ideal) S_ .f32 0x3F800000#32)))
    (Host.scatterAdd (F := Ideal) scatter_S50000_S800000x1_S800000_n_0_0_1
      (broadcastInDim S50000 ![] bcast_S_S50000 (constant (F := Ideal) S_ .f32 0x00000000#32))
      (dstIdx ei)
      (broadcastInDim S800000 ![] bcast_S_S800000 (constant (F := Ideal) S_ .f32 0x3F800000#32)))

/-- The first layer: the neighbour mean times the transposed left weights, plus the bias, plus the
    input times the transposed right weights. Value %29. -/
def conv1 (ei : IVec S2x800000 32) (x : FVec Ideal S50000x128 .f32) (Wl1 : FVec Ideal S128x128 .f32)
    (bl1 : FVec Ideal S128 .f32) (Wr1 : FVec Ideal S128x128 .f32) : FVec Ideal S50000x128 .f32 :=
  addf
    (addf
      (Host.dotGeneral (F := Ideal) dot_S50000x128_S128x128_S50000x128_1_0_0_1_n_n none
        (Host.divf (F := Ideal) (aggSum ei x)
          (broadcastInDim S50000x128 ![0, 1] bcast_S50000x1_S50000x128_0_1
            (broadcastInDim S50000x1 ![0] bcast_S50000_S50000x1_0 (cnt ei))))
        (transpose S128x128 [1, 0] Wl1 transposes_S128x128_S128x128_1_0))
      (broadcastInDim S50000x128 ![0, 1] bcast_S1x128_S50000x128_0_1
        (broadcastInDim S1x128 ![1] bcast_S128_S1x128_1 bl1)))
    (Host.dotGeneral (F := Ideal) dot_S50000x128_S128x128_S50000x128_1_0_0_1_n_n none x
      (transpose S128x128 [1, 0] Wr1 transposes_S128x128_S128x128_1_0))

/-- The column means: the sum down the rows over the broadcast 50000. Value %32 as a function of %29. -/
def mean (h : FVec Ideal S50000x128 .f32) : FVec Ideal S128 .f32 :=
  Host.divf (F := Ideal)
    (Host.reduceAdd (F := Ideal) h (constant (F := Ideal) S_ .f32 0x00000000#32) reducesTo_S50000x128_S128_d0 h_S_)
    (broadcastInDim S128 ![] bcast_S_S128 (constant (F := Ideal) S_ .f32 0x47435000#32))

/-- The variance's divisor: 50000 minus the correction 0 converted to a float. The called function's %8. -/
def varDen : FVec Ideal S_ .f32 :=
  subf (constant (F := Ideal) S_ .f32 0x47435000#32) (sitofp .f32 (constantI S_ 32 0#32))

/-- The deviations from the column means, as the variance's function computes them. The called function's %5. -/
def varDev (h : FVec Ideal S50000x128 .f32) : FVec Ideal S50000x128 .f32 :=
  subf h
    (broadcastInDim S50000x128 ![0, 1] bcast_S1x128_S50000x128_0_1
      (Host.divf (F := Ideal)
        (broadcastInDim S1x128 ![1] bcast_S128_S1x128_1
          (Host.reduceAdd (F := Ideal) h (constant (F := Ideal) S_ .f32 0x00000000#32) reducesTo_S50000x128_S128_d0 h_S_))
        (broadcastInDim S1x128 ![] bcast_S_S1x128 (constant (F := Ideal) S_ .f32 0x47435000#32))))

/-- The column variances: the squared deviations summed down the rows over the divisor, kept where the
    divisor is positive and the quiet not-a-number constant otherwise. Value %33. -/
def var (h : FVec Ideal S50000x128 .f32) : FVec Ideal S128 .f32 :=
  select (broadcastInDim S128 ![] bcast_S_S128 (cmpf .ogt varDen (constant (F := Ideal) S_ .f32 0x00000000#32)))
    (Host.divf (F := Ideal)
      (Host.reduceAdd (F := Ideal) (mulf (varDev h) (varDev h)) (constant (F := Ideal) S_ .f32 0x00000000#32)
        reducesTo_S50000x128_S128_d0 h_S_)
      (broadcastInDim S128 ![] bcast_S_S128 varDen))
    (broadcastInDim S128 ![] bcast_S_S128 (id (constant (F := Ideal) S_ .f32 0x7FC00000#32)))

/-- The normalized, scaled and shifted columns before the rectifier. Value %48 as a function of %29. -/
def affine (h : FVec Ideal S50000x128 .f32) (gamma beta : FVec Ideal S128 .f32) : FVec Ideal S50000x128 .f32 :=
  addf
    (Host.divf (F := Ideal)
      (mulf
        (broadcastInDim S50000x128 ![0, 1] bcast_S1x128_S50000x128_0_1
          (broadcastInDim S1x128 ![1] bcast_S128_S1x128_1 gamma))
        (subf h
          (broadcastInDim S50000x128 ![0, 1] bcast_S1x128_S50000x128_0_1
            (broadcastInDim S1x128 ![1] bcast_S128_S1x128_1 (mean h)))))
      (broadcastInDim S50000x128 ![0, 1] bcast_S1x128_S50000x128_0_1
        (broadcastInDim S1x128 ![1] bcast_S128_S1x128_1
          (Host.sqrt (F := Ideal)
            (addf (var h) (broadcastInDim S128 ![] bcast_S_S128 (constant (F := Ideal) S_ .f32 0x3727C5AC#32)))))))
    (broadcastInDim S50000x128 ![0, 1] bcast_S1x128_S50000x128_0_1
      (broadcastInDim S1x128 ![1] bcast_S128_S1x128_1 beta))

/-- The normalization, the leaky rectifier (the value where it is at least zero, else the slope times
    the value) and the residual input. Value %54 as a function of %29. -/
def norm (h x : FVec Ideal S50000x128 .f32) (gamma beta : FVec Ideal S128 .f32) (a : FVec Ideal S_ .f32) :
    FVec Ideal S50000x128 .f32 :=
  addf
    (select
      (cmpf .oge (affine h gamma beta)
        (broadcastInDim S50000x128 ![] bcast_S_S50000x128 (constant (F := Ideal) S_ .f32 0x00000000#32)))
      (affine h gamma beta)
      (mulf (broadcastInDim S50000x128 ![] bcast_S_S50000x128 a) (affine h gamma beta)))
    x

/-- The second layer, sixteen output columns. Value %80 as a function of %54. -/
def conv2 (ei : IVec S2x800000 32) (h : FVec Ideal S50000x128 .f32) (Wl2 : FVec Ideal S16x128 .f32)
    (bl2 : FVec Ideal S16 .f32) (Wr2 : FVec Ideal S16x128 .f32) : FVec Ideal S50000x16 .f32 :=
  addf
    (addf
      (Host.dotGeneral (F := Ideal) dot_S50000x128_S128x16_S50000x16_1_0_0_1_n_n none
        (Host.divf (F := Ideal) (aggSum ei h)
          (broadcastInDim S50000x128 ![0, 1] bcast_S50000x1_S50000x128_0_1
            (broadcastInDim S50000x1 ![0] bcast_S50000_S50000x1_0 (cnt ei))))
        (transpose S128x16 [1, 0] Wl2 transposes_S16x128_S128x16_1_0))
      (broadcastInDim S50000x16 ![0, 1] bcast_S1x16_S50000x16_0_1
        (broadcastInDim S1x16 ![1] bcast_S16_S1x16_1 bl2)))
    (Host.dotGeneral (F := Ideal) dot_S50000x128_S128x16_S50000x16_1_0_0_1_n_n none h
      (transpose S128x16 [1, 0] Wr2 transposes_S16x128_S128x16_1_0))

/-- The rows shifted by their maximum (the maximum taken again with minus infinity). The called function's %5. -/
def lsmShift (o : FVec Ideal S50000x16 .f32) : FVec Ideal S50000x16 .f32 :=
  subf o
    (broadcastInDim S50000x16 ![0, 1] bcast_S50000x1_S50000x16_0_1
      (broadcastInDim S50000x1 ![0] bcast_S50000_S50000x1_0
        (maximumf
          (broadcastInDim S50000 ![] bcast_S_S50000 (constant (F := Ideal) S_ .f32 0xFF800000#32))
          (Host.reduce (FloatOps.maximumf (F := Ideal)) o (constant (F := Ideal) S_ .f32 0xFF800000#32)
            reducesTo_S50000x16_S50000_d1 h_S_))))

/-- The row-wise log-softmax: the shifted rows minus the logarithm of their exponentials' sum. Value %81
    as a function of %80. -/
def lsm (o : FVec Ideal S50000x16 .f32) : FVec Ideal S50000x16 .f32 :=
  subf (lsmShift o)
    (broadcastInDim S50000x16 ![0, 1] bcast_S50000x1_S50000x16_0_1
      (Host.log (F := Ideal)
        (broadcastInDim S50000x1 ![0] bcast_S50000_S50000x1_0
          (Host.reduceAdd (F := Ideal) (Host.exp (F := Ideal) (lsmShift o)) (constant (F := Ideal) S_ .f32 0x00000000#32)
            reducesTo_S50000x16_S50000_d1 h_S_))))

/-- The reference's result buffer as a term of the eleven arguments' contents. -/
def refOut (x : FVec Ideal S50000x128 .f32) (ei : IVec S2x800000 32) (Wl1 : FVec Ideal S128x128 .f32)
    (bl1 : FVec Ideal S128 .f32) (Wr1 : FVec Ideal S128x128 .f32) (Wl2 : FVec Ideal S16x128 .f32)
    (bl2 : FVec Ideal S16 .f32) (Wr2 : FVec Ideal S16x128 .f32) (gamma beta : FVec Ideal S128 .f32)
    (a : FVec Ideal S_ .f32) : FVec Ideal S50000x16 .f32 :=
  lsm (conv2 ei (norm (conv1 ei x Wl1 bl1 Wr1) x gamma beta a) Wl2 bl2 Wr2)

end Cert.ReferenceIdeal.RefTerm

end
-- ==== Proof.RefRun.lean ====
/-
  The reference program's run. The program is one straight line of host operations once the called
  functions (the clip, the variance with its select, the rectifier's select, the log-softmax) are
  unfolded at their call sites over their calls' buffer records, so every execution ends with each
  buffer at the fold of the operations over the launch contents. The fold at the result buffer is
  computed in four consecutive pieces — the first layer, the normalization with the rectifier and the
  residual, the second layer, the log-softmax —, each piece's result a named term of the contents it
  starts from, and the pieces compose to the closed term of the eleven arguments; the arguments are
  written by no operation.
-/
import proofs.«165145_j85615878078999_2_alg».proof.Proof.Gen.ReferenceIdeal
import proofs.«165145_j85615878078999_2_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Folding over a concatenation -/

/-- The fold over two lists one after the other is the fold over the second from the fold over the first. -/
theorem after_app {T0 : Topo} {sg : RefSig} {Val : EltTy → Type} :
    ∀ (l₁ l₂ : List (HloOp T0 sg Val)) (V : Valuation T0 sg Val), after (l₁ ++ l₂) V = after l₂ (after l₁ V)
  | [], _, _ => rfl
  | op :: l₁, l₂, V => by rw [List.cons_append, after_cons, after_cons, after_app l₁ l₂]

/-! ## An operation stated through typed references is the plain operation

A typed reference pairs a buffer with an equation saying its type is a given one, and an operation stated through
typed references applies its function between transports along those equations. Taking the references apart and
substituting the equations, the transports are along `rfl`, so the operation is the plain one with the same
function. Each statement is over an ARBITRARY function (value), so nothing of it is ever looked into: several of
the functions here are folds over 800000 indices. -/

section Typed

variable {T0 : Topo} {sg : RefSig} {Val : EltTy → Type}

theorem typed_nullary_eq {Ty : BufTy} (y : TRef sg Ty) (v : Ty.Contents Val) (v' : y.ref.ty.Contents Val) (hv : HEq v v') :
    (TRef.nullary (τ := T0) y v : HloOp T0 sg Val) = StableHlo.nullary (τ := T0) y.ref v' y.dev := by
  obtain ⟨c, hc, dc, sc⟩ := y
  subst hc
  cases hv
  rfl

theorem typed_unary_eq {Tx Ty : BufTy} (x : TRef sg Tx) (y : TRef sg Ty) (f : Tx.Contents Val → Ty.Contents Val)
    (f' : x.ref.ty.Contents Val → y.ref.ty.Contents Val) (hf : HEq f f') :
    (TRef.unary (τ := T0) x y f : HloOp T0 sg Val) = StableHlo.unary (τ := T0) x.ref y.ref f' x.dev y.dev := by
  obtain ⟨a, ha, da, sa⟩ := x
  obtain ⟨c, hc, dc, sc⟩ := y
  subst ha hc
  cases hf
  rfl

theorem typed_binary_eq' {Ta Tb Ty : BufTy} (x : TRef sg Ta) (z : TRef sg Tb) (y : TRef sg Ty)
    (f : Ta.Contents Val → Tb.Contents Val → Ty.Contents Val)
    (f' : x.ref.ty.Contents Val → z.ref.ty.Contents Val → y.ref.ty.Contents Val) (hf : HEq f f') :
    (TRef.binary (τ := T0) x z y f : HloOp T0 sg Val) = StableHlo.binary (τ := T0) x.ref z.ref y.ref f' x.dev z.dev y.dev := by
  obtain ⟨a, ha, da, sa⟩ := x
  obtain ⟨b, hb, db, sb⟩ := z
  obtain ⟨c, hc, dc, sc⟩ := y
  subst ha hb hc
  cases hf
  rfl

theorem typed_ternary_eq {Tc Ta Tb Ty : BufTy} (w : TRef sg Tc) (x : TRef sg Ta) (z : TRef sg Tb) (y : TRef sg Ty)
    (f : Tc.Contents Val → Ta.Contents Val → Tb.Contents Val → Ty.Contents Val)
    (f' : w.ref.ty.Contents Val → x.ref.ty.Contents Val → z.ref.ty.Contents Val → y.ref.ty.Contents Val) (hf : HEq f f') :
    (TRef.ternary (τ := T0) w x z y f : HloOp T0 sg Val)
      = StableHlo.ternary (τ := T0) w.ref x.ref z.ref y.ref f' w.dev x.dev z.dev y.dev := by
  obtain ⟨e, he, de, se⟩ := w
  obtain ⟨a, ha, da, sa⟩ := x
  obtain ⟨b, hb, db, sb⟩ := z
  obtain ⟨c, hc, dc, sc⟩ := y
  subst he ha hb hc
  cases hf
  rfl

end Typed

/-! ## The program as a list of operations -/

/-- @main's 138 operations in order, the calls unfolded. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.binary main_call0.v1 (.of main_v17 : StableHlo.TRef sig ⟨S50000, .f32⟩) main_call0.v2 maximumf,
    StableHlo.unary main_v18 main_v19 (broadcastInDim S50000x1 ![0] bcast_S50000_S50000x1_0 : (⟨S50000, .f32⟩ : BufTy).Contents (Elt F) → (⟨S50000x1, .f32⟩ : BufTy).Contents (Elt F)),
    StableHlo.unary main_v19 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    StableHlo.unary main_arg2 main_v22 ((transpose S128x128 [1, 0] · transposes_S128x128_S128x128_1_0) : (⟨S128x128, .f32⟩ : BufTy).Contents (Elt F) → (⟨S128x128, .f32⟩ : BufTy).Contents (Elt F)),
    StableHlo.binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg4 main_v27 ((transpose S128x128 [1, 0] · transposes_S128x128_S128x128_1_0) : (⟨S128x128, .f32⟩ : BufTy).Contents (Elt F) → (⟨S128x128, .f32⟩ : BufTy).Contents (Elt F)),
    StableHlo.binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v29 main_cst_4 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call1.cst (constant S_ .f32 0x00000000#32),
    StableHlo.TRef.binary (.of main_v29 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v29 : StableHlo.TRef sig ⟨S50000x128, .f32⟩) main_call1.v4 main_call1.v5 subf,
    StableHlo.TRef.binary main_call1.v5 main_call1.v5 main_call1.v6 mulf,
    StableHlo.TRef.unary (.of main_c_6 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v36 main_v39 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v40 (broadcastInDim S128 ![] bcast_S_S128 : (⟨S_, .f32⟩ : BufTy).Contents (Elt F) → (⟨S128, .f32⟩ : BufTy).Contents (Elt F)),
    StableHlo.binary main_v33 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.sqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (Host.divf : (⟨S50000x128, .f32⟩ : BufTy).Contents (Elt F) → (⟨S50000x128, .f32⟩ : BufTy).Contents (Elt F) → (⟨S50000x128, .f32⟩ : BufTy).Contents (Elt F)),
    StableHlo.unary main_arg9 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.unary main_cst_8 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.unary main_arg10 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v50 : StableHlo.TRef sig ⟨S50000x128, .i1⟩) (.of main_v48 : StableHlo.TRef sig ⟨S50000x128, .f32⟩) (.of main_v52 : StableHlo.TRef sig ⟨S50000x128, .f32⟩) main_call2.v0 select,
    StableHlo.binary main_v53 main_arg0 main_v54 (addf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v65 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v66 (broadcastInDim S50000 ![] bcast_S_S50000 : (⟨S_, .f32⟩ : BufTy).Contents (Elt F) → (⟨S50000, .f32⟩ : BufTy).Contents (Elt F)),
    StableHlo.unary main_v3 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.TRef.unary (.of main_cst_14 : StableHlo.TRef sig ⟨S_, .f32⟩) main_call3.v0 id,
    StableHlo.TRef.unary main_call3.v0 main_call3.v1 (broadcastInDim S50000 ![] bcast_S_S50000),
    StableHlo.TRef.binary main_call3.v1 (.of main_v68 : StableHlo.TRef sig ⟨S50000, .f32⟩) main_call3.v2 maximumf,
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v71 main_v72 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v73 ((transpose S128x16 [1, 0] · transposes_S16x128_S128x16_1_0) : (⟨S16x128, .f32⟩ : BufTy).Contents (Elt F) → (⟨S128x16, .f32⟩ : BufTy).Contents (Elt F)),
    StableHlo.binary main_v72 main_v73 main_v74 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg6 main_v75 (broadcastInDim S1x16 ![1] bcast_S16_S1x16_1 : (⟨S16, .f32⟩ : BufTy).Contents (Elt F) → (⟨S1x16, .f32⟩ : BufTy).Contents (Elt F)),
    StableHlo.unary main_v75 main_v76 (broadcastInDim S50000x16 ![0, 1] bcast_S1x16_S50000x16_0_1 : (⟨S1x16, .f32⟩ : BufTy).Contents (Elt F) → (⟨S50000x16, .f32⟩ : BufTy).Contents (Elt F)),
    StableHlo.binary main_v74 main_v76 main_v77 (addf : (⟨S50000x16, .f32⟩ : BufTy).Contents (Elt F) → (⟨S50000x16, .f32⟩ : BufTy).Contents (Elt F) → (⟨S50000x16, .f32⟩ : BufTy).Contents (Elt F)),
    StableHlo.unary main_arg7 main_v78 ((transpose S128x16 [1, 0] · transposes_S16x128_S128x16_1_0) : (⟨S16x128, .f32⟩ : BufTy).Contents (Elt F) → (⟨S128x16, .f32⟩ : BufTy).Contents (Elt F)),
    StableHlo.binary main_v54 main_v78 main_v79 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.binary main_v77 main_v79 main_v80 (addf : (⟨S50000x16, .f32⟩ : BufTy).Contents (Elt F) → (⟨S50000x16, .f32⟩ : BufTy).Contents (Elt F) → (⟨S50000x16, .f32⟩ : BufTy).Contents (Elt F)),
    StableHlo.TRef.nullary main_call4.cst (constant S_ .f32 0xFF800000#32),
    StableHlo.TRef.binary (.of main_v80 : StableHlo.TRef sig ⟨S50000x16, .f32⟩) main_call4.cst main_call4.v0 (fun x v => Host.reduce FloatOps.maximumf x v reducesTo_S50000x16_S50000_d1 h_S_),
    StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x16 ![0, 1] bcast_S50000x1_S50000x16_0_1),
    StableHlo.TRef.binary (.of main_v80 : StableHlo.TRef sig ⟨S50000x16, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x16_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x16 ![0, 1] bcast_S50000x1_S50000x16_0_1),
    StableHlo.TRef.binary main_call4.v5 main_call4.v10 main_call4.v11 subf ]

-- one hundred and thirty-eight binds re-associated: the rewrite under the chain recurses once per statement
set_option maxRecDepth 8192 in
set_option maxHeartbeats 4000000 in
/-- @main is that straight line: the two windows, the functions' definitions unfolded at their calls and the
    records at their fields, are one chain of steps once sequencing is reassociated. -/
theorem main_eq (c : Dev nD) : main (F := F) c = seq ops := by
  simp only [main, main_part0, main_part1, fn_clip.body, fn_where.body, fn_var.body, fn_where_0.body, fn_log_softmax.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The list in four consecutive pieces

Each piece twice: as the program states it (the called functions' lines through typed references), and with every
line on its buffers directly. -/

/-- The first layer: values %0 … %29. As the program states it. -/
abbrev opsTA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.binary main_call0.v1 (.of main_v17 : StableHlo.TRef sig ⟨S50000, .f32⟩) main_call0.v2 maximumf,
    StableHlo.unary main_v18 main_v19 (broadcastInDim S50000x1 ![0] bcast_S50000_S50000x1_0 : (⟨S50000, .f32⟩ : BufTy).Contents (Elt F) → (⟨S50000x1, .f32⟩ : BufTy).Contents (Elt F)),
    StableHlo.unary main_v19 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    StableHlo.unary main_arg2 main_v22 ((transpose S128x128 [1, 0] · transposes_S128x128_S128x128_1_0) : (⟨S128x128, .f32⟩ : BufTy).Contents (Elt F) → (⟨S128x128, .f32⟩ : BufTy).Contents (Elt F)),
    StableHlo.binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg4 main_v27 ((transpose S128x128 [1, 0] · transposes_S128x128_S128x128_1_0) : (⟨S128x128, .f32⟩ : BufTy).Contents (Elt F) → (⟨S128x128, .f32⟩ : BufTy).Contents (Elt F)),
    StableHlo.binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)) ]

/-- The column statistics, the normalization, the rectifier and the residual: values %30 … %54. As the program states it. -/
abbrev opsTB : List (HloOp τ sig (Elt F)) :=
  [ StableHlo.nullary main_cst_4 (constant S_ .f32 0x00000000#32),
    StableHlo.binary main_v29 main_cst_4 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call1.cst (constant S_ .f32 0x00000000#32),
    StableHlo.TRef.binary (.of main_v29 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v29 : StableHlo.TRef sig ⟨S50000x128, .f32⟩) main_call1.v4 main_call1.v5 subf,
    StableHlo.TRef.binary main_call1.v5 main_call1.v5 main_call1.v6 mulf,
    StableHlo.TRef.unary (.of main_c_6 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v36 main_v39 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v40 (broadcastInDim S128 ![] bcast_S_S128 : (⟨S_, .f32⟩ : BufTy).Contents (Elt F) → (⟨S128, .f32⟩ : BufTy).Contents (Elt F)),
    StableHlo.binary main_v33 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.sqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (Host.divf : (⟨S50000x128, .f32⟩ : BufTy).Contents (Elt F) → (⟨S50000x128, .f32⟩ : BufTy).Contents (Elt F) → (⟨S50000x128, .f32⟩ : BufTy).Contents (Elt F)),
    StableHlo.unary main_arg9 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.unary main_cst_8 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.unary main_arg10 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v50 : StableHlo.TRef sig ⟨S50000x128, .i1⟩) (.of main_v48 : StableHlo.TRef sig ⟨S50000x128, .f32⟩) (.of main_v52 : StableHlo.TRef sig ⟨S50000x128, .f32⟩) main_call2.v0 select,
    StableHlo.binary main_v53 main_arg0 main_v54 (addf : (⟨S50000x128, .f32⟩ : BufTy).Contents (Elt F) → (⟨S50000x128, .f32⟩ : BufTy).Contents (Elt F) → (⟨S50000x128, .f32⟩ : BufTy).Contents (Elt F)) ]

/-- The second layer: values %55 … %80. As the program states it. -/
abbrev opsTC : List (HloOp τ sig (Elt F)) :=
  [ StableHlo.nullary main_c_9 (constantI S_ 32 0#32),
    StableHlo.unary main_c_9 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v65 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v66 (broadcastInDim S50000 ![] bcast_S_S50000 : (⟨S_, .f32⟩ : BufTy).Contents (Elt F) → (⟨S50000, .f32⟩ : BufTy).Contents (Elt F)),
    StableHlo.unary main_v3 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.TRef.unary (.of main_cst_14 : StableHlo.TRef sig ⟨S_, .f32⟩) main_call3.v0 id,
    StableHlo.TRef.unary main_call3.v0 main_call3.v1 (broadcastInDim S50000 ![] bcast_S_S50000),
    StableHlo.TRef.binary main_call3.v1 (.of main_v68 : StableHlo.TRef sig ⟨S50000, .f32⟩) main_call3.v2 maximumf,
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v71 main_v72 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v73 ((transpose S128x16 [1, 0] · transposes_S16x128_S128x16_1_0) : (⟨S16x128, .f32⟩ : BufTy).Contents (Elt F) → (⟨S128x16, .f32⟩ : BufTy).Contents (Elt F)),
    StableHlo.binary main_v72 main_v73 main_v74 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg6 main_v75 (broadcastInDim S1x16 ![1] bcast_S16_S1x16_1 : (⟨S16, .f32⟩ : BufTy).Contents (Elt F) → (⟨S1x16, .f32⟩ : BufTy).Contents (Elt F)),
    StableHlo.unary main_v75 main_v76 (broadcastInDim S50000x16 ![0, 1] bcast_S1x16_S50000x16_0_1 : (⟨S1x16, .f32⟩ : BufTy).Contents (Elt F) → (⟨S50000x16, .f32⟩ : BufTy).Contents (Elt F)),
    StableHlo.binary main_v74 main_v76 main_v77 (addf : (⟨S50000x16, .f32⟩ : BufTy).Contents (Elt F) → (⟨S50000x16, .f32⟩ : BufTy).Contents (Elt F) → (⟨S50000x16, .f32⟩ : BufTy).Contents (Elt F)),
    StableHlo.unary main_arg7 main_v78 ((transpose S128x16 [1, 0] · transposes_S16x128_S128x16_1_0) : (⟨S16x128, .f32⟩ : BufTy).Contents (Elt F) → (⟨S128x16, .f32⟩ : BufTy).Contents (Elt F)),
    StableHlo.binary main_v54 main_v78 main_v79 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.binary main_v77 main_v79 main_v80 (addf : (⟨S50000x16, .f32⟩ : BufTy).Contents (Elt F) → (⟨S50000x16, .f32⟩ : BufTy).Contents (Elt F) → (⟨S50000x16, .f32⟩ : BufTy).Contents (Elt F)) ]

/-- The log-softmax: value %81 and the called function's values before it. As the program states it. -/
abbrev opsTD : List (HloOp τ sig (Elt F)) :=
  [ StableHlo.TRef.nullary main_call4.cst (constant S_ .f32 0xFF800000#32),
    StableHlo.TRef.binary (.of main_v80 : StableHlo.TRef sig ⟨S50000x16, .f32⟩) main_call4.cst main_call4.v0 (fun x v => Host.reduce FloatOps.maximumf x v reducesTo_S50000x16_S50000_d1 h_S_),
    StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x16 ![0, 1] bcast_S50000x1_S50000x16_0_1),
    StableHlo.TRef.binary (.of main_v80 : StableHlo.TRef sig ⟨S50000x16, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x16_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x16 ![0, 1] bcast_S50000x1_S50000x16_0_1),
    StableHlo.TRef.binary main_call4.v5 main_call4.v10 main_call4.v11 subf ]

/-- The first layer: values %0 … %29. Every line on its buffers directly. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.binary main_call0_v1 main_v17 main_v18 (maximumf : (⟨S50000, .f32⟩ : BufTy).Contents (Elt F) → (⟨S50000, .f32⟩ : BufTy).Contents (Elt F) → (⟨S50000, .f32⟩ : BufTy).Contents (Elt F)),
    StableHlo.unary main_v18 main_v19 (broadcastInDim S50000x1 ![0] bcast_S50000_S50000x1_0 : (⟨S50000, .f32⟩ : BufTy).Contents (Elt F) → (⟨S50000x1, .f32⟩ : BufTy).Contents (Elt F)),
    StableHlo.unary main_v19 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    StableHlo.unary main_arg2 main_v22 ((transpose S128x128 [1, 0] · transposes_S128x128_S128x128_1_0) : (⟨S128x128, .f32⟩ : BufTy).Contents (Elt F) → (⟨S128x128, .f32⟩ : BufTy).Contents (Elt F)),
    StableHlo.binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg4 main_v27 ((transpose S128x128 [1, 0] · transposes_S128x128_S128x128_1_0) : (⟨S128x128, .f32⟩ : BufTy).Contents (Elt F) → (⟨S128x128, .f32⟩ : BufTy).Contents (Elt F)),
    StableHlo.binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)) ]

/-- The column statistics, the normalization, the rectifier and the residual: values %30 … %54. Every line on its buffers directly. -/
abbrev opsB : List (HloOp τ sig (Elt F)) :=
  [ StableHlo.nullary main_cst_4 (constant S_ .f32 0x00000000#32),
    StableHlo.binary main_v29 main_cst_4 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.nullary main_call1_cst (constant S_ .f32 0x00000000#32),
    StableHlo.binary main_v29 main_call1_cst main_call1_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v0 main_call1_v1 (broadcastInDim S1x128 ![1] bcast_S128_S1x128_1 : (⟨S128, .f32⟩ : BufTy).Contents (Elt F) → (⟨S1x128, .f32⟩ : BufTy).Contents (Elt F)),
    StableHlo.nullary main_call1_cst_0 (constant S_ .f32 0x47435000#32),
    StableHlo.unary main_call1_cst_0 main_call1_v2 (broadcastInDim S1x128 ![] bcast_S_S1x128 : (⟨S_, .f32⟩ : BufTy).Contents (Elt F) → (⟨S1x128, .f32⟩ : BufTy).Contents (Elt F)),
    StableHlo.binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    StableHlo.unary main_call1_v3 main_call1_v4 (broadcastInDim S50000x128 ![0, 1] bcast_S1x128_S50000x128_0_1 : (⟨S1x128, .f32⟩ : BufTy).Contents (Elt F) → (⟨S50000x128, .f32⟩ : BufTy).Contents (Elt F)),
    StableHlo.binary main_v29 main_call1_v4 main_call1_v5 (subf : (⟨S50000x128, .f32⟩ : BufTy).Contents (Elt F) → (⟨S50000x128, .f32⟩ : BufTy).Contents (Elt F) → (⟨S50000x128, .f32⟩ : BufTy).Contents (Elt F)),
    StableHlo.binary main_call1_v5 main_call1_v5 main_call1_v6 (mulf : (⟨S50000x128, .f32⟩ : BufTy).Contents (Elt F) → (⟨S50000x128, .f32⟩ : BufTy).Contents (Elt F) → (⟨S50000x128, .f32⟩ : BufTy).Contents (Elt F)),
    StableHlo.unary main_c_6 main_call1_v7 (sitofp .f32 : (⟨S_, .i32⟩ : BufTy).Contents (Elt F) → (⟨S_, .f32⟩ : BufTy).Contents (Elt F)),
    StableHlo.nullary main_call1_cst_1 (constant S_ .f32 0x47435000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call1_v8 main_call1_v10 (broadcastInDim S128 ![] bcast_S_S128 : (⟨S_, .f32⟩ : BufTy).Contents (Elt F) → (⟨S128, .f32⟩ : BufTy).Contents (Elt F)),
    StableHlo.binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    StableHlo.nullary main_call1_cst_3 (constant S_ .f32 0x00000000#32),
    StableHlo.binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S128 ![] bcast_S_S128 : (⟨S_, .f32⟩ : BufTy).Contents (Elt F) → (⟨S128, .f32⟩ : BufTy).Contents (Elt F)),
    StableHlo.ternary main_call1_v12 main_call1_v11 main_call1_call0_v1 main_v33 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v36 main_v39 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v40 (broadcastInDim S128 ![] bcast_S_S128 : (⟨S_, .f32⟩ : BufTy).Contents (Elt F) → (⟨S128, .f32⟩ : BufTy).Contents (Elt F)),
    StableHlo.binary main_v33 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.sqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (Host.divf : (⟨S50000x128, .f32⟩ : BufTy).Contents (Elt F) → (⟨S50000x128, .f32⟩ : BufTy).Contents (Elt F) → (⟨S50000x128, .f32⟩ : BufTy).Contents (Elt F)),
    StableHlo.unary main_arg9 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.unary main_cst_8 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.unary main_arg10 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    StableHlo.ternary main_v50 main_v48 main_v52 main_v53 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)),
    StableHlo.binary main_v53 main_arg0 main_v54 (addf : (⟨S50000x128, .f32⟩ : BufTy).Contents (Elt F) → (⟨S50000x128, .f32⟩ : BufTy).Contents (Elt F) → (⟨S50000x128, .f32⟩ : BufTy).Contents (Elt F)) ]

/-- The second layer: values %55 … %80. Every line on its buffers directly. -/
abbrev opsC : List (HloOp τ sig (Elt F)) :=
  [ StableHlo.nullary main_c_9 (constantI S_ 32 0#32),
    StableHlo.unary main_c_9 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v65 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v66 (broadcastInDim S50000 ![] bcast_S_S50000 : (⟨S_, .f32⟩ : BufTy).Contents (Elt F) → (⟨S50000, .f32⟩ : BufTy).Contents (Elt F)),
    StableHlo.unary main_v3 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.unary main_cst_14 main_call3_v0 (id : (⟨S_, .f32⟩ : BufTy).Contents (Elt F) → (⟨S_, .f32⟩ : BufTy).Contents (Elt F)),
    StableHlo.unary main_call3_v0 main_call3_v1 (broadcastInDim S50000 ![] bcast_S_S50000 : (⟨S_, .f32⟩ : BufTy).Contents (Elt F) → (⟨S50000, .f32⟩ : BufTy).Contents (Elt F)),
    StableHlo.binary main_call3_v1 main_v68 main_v69 (maximumf : (⟨S50000, .f32⟩ : BufTy).Contents (Elt F) → (⟨S50000, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v71 main_v72 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v73 ((transpose S128x16 [1, 0] · transposes_S16x128_S128x16_1_0) : (⟨S16x128, .f32⟩ : BufTy).Contents (Elt F) → (⟨S128x16, .f32⟩ : BufTy).Contents (Elt F)),
    StableHlo.binary main_v72 main_v73 main_v74 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg6 main_v75 (broadcastInDim S1x16 ![1] bcast_S16_S1x16_1 : (⟨S16, .f32⟩ : BufTy).Contents (Elt F) → (⟨S1x16, .f32⟩ : BufTy).Contents (Elt F)),
    StableHlo.unary main_v75 main_v76 (broadcastInDim S50000x16 ![0, 1] bcast_S1x16_S50000x16_0_1 : (⟨S1x16, .f32⟩ : BufTy).Contents (Elt F) → (⟨S50000x16, .f32⟩ : BufTy).Contents (Elt F)),
    StableHlo.binary main_v74 main_v76 main_v77 (addf : (⟨S50000x16, .f32⟩ : BufTy).Contents (Elt F) → (⟨S50000x16, .f32⟩ : BufTy).Contents (Elt F) → (⟨S50000x16, .f32⟩ : BufTy).Contents (Elt F)),
    StableHlo.unary main_arg7 main_v78 ((transpose S128x16 [1, 0] · transposes_S16x128_S128x16_1_0) : (⟨S16x128, .f32⟩ : BufTy).Contents (Elt F) → (⟨S128x16, .f32⟩ : BufTy).Contents (Elt F)),
    StableHlo.binary main_v54 main_v78 main_v79 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.binary main_v77 main_v79 main_v80 (addf : (⟨S50000x16, .f32⟩ : BufTy).Contents (Elt F) → (⟨S50000x16, .f32⟩ : BufTy).Contents (Elt F) → (⟨S50000x16, .f32⟩ : BufTy).Contents (Elt F)) ]

/-- The log-softmax: value %81 and the called function's values before it. Every line on its buffers directly. -/
abbrev opsD : List (HloOp τ sig (Elt F)) :=
  [ StableHlo.nullary main_call4_cst (constant S_ .f32 0xFF800000#32),
    StableHlo.binary main_v80 main_call4_cst main_call4_v0 ((fun x v => Host.reduce FloatOps.maximumf x v reducesTo_S50000x16_S50000_d1 h_S_) : (⟨S50000x16, .f32⟩ : BufTy).Contents (Elt F) → (⟨S_, .f32⟩ : BufTy).Contents (Elt F) → (⟨S50000, .f32⟩ : BufTy).Contents (Elt F)),
    StableHlo.nullary main_call4_cst_0 (constant S_ .f32 0xFF800000#32),
    StableHlo.unary main_call4_cst_0 main_call4_v1 (broadcastInDim S50000 ![] bcast_S_S50000 : (⟨S_, .f32⟩ : BufTy).Contents (Elt F) → (⟨S50000, .f32⟩ : BufTy).Contents (Elt F)),
    StableHlo.binary main_call4_v1 main_call4_v0 main_call4_v2 (maximumf : (⟨S50000, .f32⟩ : BufTy).Contents (Elt F) → (⟨S50000, .f32⟩ : BufTy).Contents (Elt F) → (⟨S50000, .f32⟩ : BufTy).Contents (Elt F)),
    StableHlo.unary main_call4_v2 main_call4_v3 (broadcastInDim S50000x1 ![0] bcast_S50000_S50000x1_0 : (⟨S50000, .f32⟩ : BufTy).Contents (Elt F) → (⟨S50000x1, .f32⟩ : BufTy).Contents (Elt F)),
    StableHlo.unary main_call4_v3 main_call4_v4 (broadcastInDim S50000x16 ![0, 1] bcast_S50000x1_S50000x16_0_1 : (⟨S50000x1, .f32⟩ : BufTy).Contents (Elt F) → (⟨S50000x16, .f32⟩ : BufTy).Contents (Elt F)),
    StableHlo.binary main_v80 main_call4_v4 main_call4_v5 (subf : (⟨S50000x16, .f32⟩ : BufTy).Contents (Elt F) → (⟨S50000x16, .f32⟩ : BufTy).Contents (Elt F) → (⟨S50000x16, .f32⟩ : BufTy).Contents (Elt F)),
    StableHlo.unary main_call4_v5 main_call4_v6 (Host.exp : (⟨S50000x16, .f32⟩ : BufTy).Contents (Elt F) → (⟨S50000x16, .f32⟩ : BufTy).Contents (Elt F)),
    StableHlo.nullary main_call4_cst_1 (constant S_ .f32 0x00000000#32),
    StableHlo.binary main_call4_v6 main_call4_cst_1 main_call4_v7 ((fun x v => Host.reduceAdd x v reducesTo_S50000x16_S50000_d1 h_S_) : (⟨S50000x16, .f32⟩ : BufTy).Contents (Elt F) → (⟨S_, .f32⟩ : BufTy).Contents (Elt F) → (⟨S50000, .f32⟩ : BufTy).Contents (Elt F)),
    StableHlo.unary main_call4_v7 main_call4_v8 (broadcastInDim S50000x1 ![0] bcast_S50000_S50000x1_0 : (⟨S50000, .f32⟩ : BufTy).Contents (Elt F) → (⟨S50000x1, .f32⟩ : BufTy).Contents (Elt F)),
    StableHlo.unary main_call4_v8 main_call4_v9 (Host.log : (⟨S50000x1, .f32⟩ : BufTy).Contents (Elt F) → (⟨S50000x1, .f32⟩ : BufTy).Contents (Elt F)),
    StableHlo.unary main_call4_v9 main_call4_v10 (broadcastInDim S50000x16 ![0, 1] bcast_S50000x1_S50000x16_0_1 : (⟨S50000x1, .f32⟩ : BufTy).Contents (Elt F) → (⟨S50000x16, .f32⟩ : BufTy).Contents (Elt F)),
    StableHlo.binary main_call4_v5 main_call4_v10 main_v81 (subf : (⟨S50000x16, .f32⟩ : BufTy).Contents (Elt F) → (⟨S50000x16, .f32⟩ : BufTy).Contents (Elt F) → (⟨S50000x16, .f32⟩ : BufTy).Contents (Elt F)) ]

/-- The program's list is the four pieces in order. -/
theorem ops_split : (ops : List (HloOp τ sig (Elt F))) = opsTA ++ (opsTB ++ (opsTC ++ opsTD)) := rfl

/-- Piece A's operations, each stated on its buffers with no transport. -/
theorem opsA_plain : (opsTA : List (HloOp τ sig (Elt F))) = opsA := by
  delta opsTA opsA
  simp only [
    typed_unary_eq (T0 := τ) (Val := Elt F) (.of main_cst_3 : StableHlo.TRef sig ⟨S_, .f32⟩) main_call0.v0 id _ HEq.rfl,
    typed_unary_eq (T0 := τ) (Val := Elt F) main_call0.v0 main_call0.v1 (broadcastInDim S50000 ![] bcast_S_S50000) _ HEq.rfl,
    typed_binary_eq' (T0 := τ) (Val := Elt F) main_call0.v1 (.of main_v17 : StableHlo.TRef sig ⟨S50000, .f32⟩) main_call0.v2 maximumf _ HEq.rfl]

/-- Piece B's operations, each stated on its buffers with no transport. -/
theorem opsB_plain : (opsTB : List (HloOp τ sig (Elt F))) = opsB := by
  delta opsTB opsB
  simp only [
    typed_nullary_eq (T0 := τ) (Val := Elt F) main_call1.cst (constant S_ .f32 0x00000000#32) _ HEq.rfl,
    typed_binary_eq' (T0 := τ) (Val := Elt F) (.of main_v29 : StableHlo.TRef sig ⟨S50000x128, .f32⟩) main_call1.cst main_call1.v0 (fun x v => Host.reduceAdd x v reducesTo_S50000x128_S128_d0 h_S_) _ HEq.rfl,
    typed_unary_eq (T0 := τ) (Val := Elt F) main_call1.v0 main_call1.v1 (broadcastInDim S1x128 ![1] bcast_S128_S1x128_1) _ HEq.rfl,
    typed_nullary_eq (T0 := τ) (Val := Elt F) main_call1.cst_0 (constant S_ .f32 0x47435000#32) _ HEq.rfl,
    typed_unary_eq (T0 := τ) (Val := Elt F) main_call1.cst_0 main_call1.v2 (broadcastInDim S1x128 ![] bcast_S_S1x128) _ HEq.rfl,
    typed_binary_eq' (T0 := τ) (Val := Elt F) main_call1.v1 main_call1.v2 main_call1.v3 Host.divf _ HEq.rfl,
    typed_unary_eq (T0 := τ) (Val := Elt F) main_call1.v3 main_call1.v4 (broadcastInDim S50000x128 ![0, 1] bcast_S1x128_S50000x128_0_1) _ HEq.rfl,
    typed_binary_eq' (T0 := τ) (Val := Elt F) (.of main_v29 : StableHlo.TRef sig ⟨S50000x128, .f32⟩) main_call1.v4 main_call1.v5 subf _ HEq.rfl,
    typed_binary_eq' (T0 := τ) (Val := Elt F) main_call1.v5 main_call1.v5 main_call1.v6 mulf _ HEq.rfl,
    typed_unary_eq (T0 := τ) (Val := Elt F) (.of main_c_6 : StableHlo.TRef sig ⟨S_, .i32⟩) main_call1.v7 (sitofp .f32) _ HEq.rfl,
    typed_nullary_eq (T0 := τ) (Val := Elt F) main_call1.cst_1 (constant S_ .f32 0x47435000#32) _ HEq.rfl,
    typed_binary_eq' (T0 := τ) (Val := Elt F) main_call1.cst_1 main_call1.v7 main_call1.v8 subf _ HEq.rfl,
    typed_nullary_eq (T0 := τ) (Val := Elt F) main_call1.cst_2 (constant S_ .f32 0x00000000#32) _ HEq.rfl,
    typed_binary_eq' (T0 := τ) (Val := Elt F) main_call1.v6 main_call1.cst_2 main_call1.v9 (fun x v => Host.reduceAdd x v reducesTo_S50000x128_S128_d0 h_S_) _ HEq.rfl,
    typed_unary_eq (T0 := τ) (Val := Elt F) main_call1.v8 main_call1.v10 (broadcastInDim S128 ![] bcast_S_S128) _ HEq.rfl,
    typed_binary_eq' (T0 := τ) (Val := Elt F) main_call1.v9 main_call1.v10 main_call1.v11 Host.divf _ HEq.rfl,
    typed_nullary_eq (T0 := τ) (Val := Elt F) main_call1.cst_3 (constant S_ .f32 0x00000000#32) _ HEq.rfl,
    typed_binary_eq' (T0 := τ) (Val := Elt F) main_call1.v8 main_call1.cst_3 main_call1.v12 (cmpf .ogt) _ HEq.rfl,
    typed_nullary_eq (T0 := τ) (Val := Elt F) main_call1.cst_4 (constant S_ .f32 0x7FC00000#32) _ HEq.rfl,
    typed_unary_eq (T0 := τ) (Val := Elt F) main_call1.cst_4 main_call1.call0.v0 id _ HEq.rfl,
    typed_unary_eq (T0 := τ) (Val := Elt F) main_call1.call0.v0 main_call1.call0.v1 (broadcastInDim S128 ![] bcast_S_S128) _ HEq.rfl,
    typed_ternary_eq (T0 := τ) (Val := Elt F) main_call1.v12 main_call1.v11 main_call1.call0.v1 main_call1.call0.v2 (fun p a b => select (broadcastInDim S128 ![] bcast_S_S128 p) a b) _ HEq.rfl,
    typed_ternary_eq (T0 := τ) (Val := Elt F) (.of main_v50 : StableHlo.TRef sig ⟨S50000x128, .i1⟩) (.of main_v48 : StableHlo.TRef sig ⟨S50000x128, .f32⟩) (.of main_v52 : StableHlo.TRef sig ⟨S50000x128, .f32⟩) main_call2.v0 select _ HEq.rfl]

/-- Piece C's operations, each stated on its buffers with no transport. -/
theorem opsC_plain : (opsTC : List (HloOp τ sig (Elt F))) = opsC := by
  delta opsTC opsC
  simp only [
    typed_unary_eq (T0 := τ) (Val := Elt F) (.of main_cst_14 : StableHlo.TRef sig ⟨S_, .f32⟩) main_call3.v0 id _ HEq.rfl,
    typed_unary_eq (T0 := τ) (Val := Elt F) main_call3.v0 main_call3.v1 (broadcastInDim S50000 ![] bcast_S_S50000) _ HEq.rfl,
    typed_binary_eq' (T0 := τ) (Val := Elt F) main_call3.v1 (.of main_v68 : StableHlo.TRef sig ⟨S50000, .f32⟩) main_call3.v2 maximumf _ HEq.rfl]

/-- Piece D's operations, each stated on its buffers with no transport. -/
theorem opsD_plain : (opsTD : List (HloOp τ sig (Elt F))) = opsD := by
  delta opsTD opsD
  simp only [
    typed_nullary_eq (T0 := τ) (Val := Elt F) main_call4.cst (constant S_ .f32 0xFF800000#32) _ HEq.rfl,
    typed_binary_eq' (T0 := τ) (Val := Elt F) (.of main_v80 : StableHlo.TRef sig ⟨S50000x16, .f32⟩) main_call4.cst main_call4.v0 (fun x v => Host.reduce FloatOps.maximumf x v reducesTo_S50000x16_S50000_d1 h_S_) _ HEq.rfl,
    typed_nullary_eq (T0 := τ) (Val := Elt F) main_call4.cst_0 (constant S_ .f32 0xFF800000#32) _ HEq.rfl,
    typed_unary_eq (T0 := τ) (Val := Elt F) main_call4.cst_0 main_call4.v1 (broadcastInDim S50000 ![] bcast_S_S50000) _ HEq.rfl,
    typed_binary_eq' (T0 := τ) (Val := Elt F) main_call4.v1 main_call4.v0 main_call4.v2 maximumf _ HEq.rfl,
    typed_unary_eq (T0 := τ) (Val := Elt F) main_call4.v2 main_call4.v3 (broadcastInDim S50000x1 ![0] bcast_S50000_S50000x1_0) _ HEq.rfl,
    typed_unary_eq (T0 := τ) (Val := Elt F) main_call4.v3 main_call4.v4 (broadcastInDim S50000x16 ![0, 1] bcast_S50000x1_S50000x16_0_1) _ HEq.rfl,
    typed_binary_eq' (T0 := τ) (Val := Elt F) (.of main_v80 : StableHlo.TRef sig ⟨S50000x16, .f32⟩) main_call4.v4 main_call4.v5 subf _ HEq.rfl,
    typed_unary_eq (T0 := τ) (Val := Elt F) main_call4.v5 main_call4.v6 Host.exp _ HEq.rfl,
    typed_nullary_eq (T0 := τ) (Val := Elt F) main_call4.cst_1 (constant S_ .f32 0x00000000#32) _ HEq.rfl,
    typed_binary_eq' (T0 := τ) (Val := Elt F) main_call4.v6 main_call4.cst_1 main_call4.v7 (fun x v => Host.reduceAdd x v reducesTo_S50000x16_S50000_d1 h_S_) _ HEq.rfl,
    typed_unary_eq (T0 := τ) (Val := Elt F) main_call4.v7 main_call4.v8 (broadcastInDim S50000x1 ![0] bcast_S50000_S50000x1_0) _ HEq.rfl,
    typed_unary_eq (T0 := τ) (Val := Elt F) main_call4.v8 main_call4.v9 Host.log _ HEq.rfl,
    typed_unary_eq (T0 := τ) (Val := Elt F) main_call4.v9 main_call4.v10 (broadcastInDim S50000x16 ![0, 1] bcast_S50000x1_S50000x16_0_1) _ HEq.rfl,
    typed_binary_eq' (T0 := τ) (Val := Elt F) main_call4.v5 main_call4.v10 main_call4.v11 subf _ HEq.rfl]

/-! ## The four pieces, each from any contents `W`

What a piece leaves at the buffer it computes, as the named term of what `W` holds at the buffers it reads; and
that it leaves alone the buffers a later piece reads. The folds and searches over the large index sets are kept
folded: the equations never look inside them. -/

attribute [local irreducible] Host.gather Host.scatterAdd Host.reduce Host.reduceAdd Host.exp Host.log Host.divf Host.sqrt in
theorem A_v29 (W : Valuation τ sig (Elt Ideal)) :
    after opsA W (main_v29 : DevRef τ sig)
      = RefTerm.conv1 (W (main_arg1 : DevRef τ sig)) (W (main_arg0 : DevRef τ sig)) (W (main_arg2 : DevRef τ sig)) (W (main_arg3 : DevRef τ sig)) (W (main_arg4 : DevRef τ sig)) := by
  after_results_simp
  rfl

theorem A_v1 (W : Valuation τ sig (Elt Ideal)) :
    after opsA W (main_v1 : DevRef τ sig) = RefTerm.row0 (W (main_arg1 : DevRef τ sig)) := by
  after_results_simp
  rfl

theorem A_v3 (W : Valuation τ sig (Elt Ideal)) :
    after opsA W (main_v3 : DevRef τ sig) = RefTerm.row1 (W (main_arg1 : DevRef τ sig)) := by
  after_results_simp
  rfl

theorem A_arg0 (W : Valuation τ sig (Elt Ideal)) :
    after opsA W (main_arg0 : DevRef τ sig) = W (main_arg0 : DevRef τ sig) := by
  after_results_simp

theorem A_arg1 (W : Valuation τ sig (Elt Ideal)) :
    after opsA W (main_arg1 : DevRef τ sig) = W (main_arg1 : DevRef τ sig) := by
  after_results_simp

theorem A_arg5 (W : Valuation τ sig (Elt Ideal)) :
    after opsA W (main_arg5 : DevRef τ sig) = W (main_arg5 : DevRef τ sig) := by
  after_results_simp

theorem A_arg6 (W : Valuation τ sig (Elt Ideal)) :
    after opsA W (main_arg6 : DevRef τ sig) = W (main_arg6 : DevRef τ sig) := by
  after_results_simp

theorem A_arg7 (W : Valuation τ sig (Elt Ideal)) :
    after opsA W (main_arg7 : DevRef τ sig) = W (main_arg7 : DevRef τ sig) := by
  after_results_simp

theorem A_arg8 (W : Valuation τ sig (Elt Ideal)) :
    after opsA W (main_arg8 : DevRef τ sig) = W (main_arg8 : DevRef τ sig) := by
  after_results_simp

theorem A_arg9 (W : Valuation τ sig (Elt Ideal)) :
    after opsA W (main_arg9 : DevRef τ sig) = W (main_arg9 : DevRef τ sig) := by
  after_results_simp

theorem A_arg10 (W : Valuation τ sig (Elt Ideal)) :
    after opsA W (main_arg10 : DevRef τ sig) = W (main_arg10 : DevRef τ sig) := by
  after_results_simp

attribute [local irreducible] Host.gather Host.scatterAdd Host.reduce Host.reduceAdd Host.exp Host.log Host.divf Host.sqrt in
theorem B_v54 (W : Valuation τ sig (Elt Ideal)) :
    after opsB W (main_v54 : DevRef τ sig)
      = RefTerm.norm (W (main_v29 : DevRef τ sig)) (W (main_arg0 : DevRef τ sig)) (W (main_arg8 : DevRef τ sig)) (W (main_arg9 : DevRef τ sig)) (W (main_arg10 : DevRef τ sig)) := by
  after_results_simp
  rfl

theorem B_v1 (W : Valuation τ sig (Elt Ideal)) :
    after opsB W (main_v1 : DevRef τ sig) = W (main_v1 : DevRef τ sig) := by
  after_results_simp

theorem B_v3 (W : Valuation τ sig (Elt Ideal)) :
    after opsB W (main_v3 : DevRef τ sig) = W (main_v3 : DevRef τ sig) := by
  after_results_simp

theorem B_arg1 (W : Valuation τ sig (Elt Ideal)) :
    after opsB W (main_arg1 : DevRef τ sig) = W (main_arg1 : DevRef τ sig) := by
  after_results_simp

theorem B_arg5 (W : Valuation τ sig (Elt Ideal)) :
    after opsB W (main_arg5 : DevRef τ sig) = W (main_arg5 : DevRef τ sig) := by
  after_results_simp

theorem B_arg6 (W : Valuation τ sig (Elt Ideal)) :
    after opsB W (main_arg6 : DevRef τ sig) = W (main_arg6 : DevRef τ sig) := by
  after_results_simp

theorem B_arg7 (W : Valuation τ sig (Elt Ideal)) :
    after opsB W (main_arg7 : DevRef τ sig) = W (main_arg7 : DevRef τ sig) := by
  after_results_simp

attribute [local irreducible] Host.gather Host.scatterAdd Host.reduce Host.reduceAdd Host.exp Host.log Host.divf Host.sqrt in
theorem C_v80 (W : Valuation τ sig (Elt Ideal)) (ei : IVec S2x800000 32)
    (h1 : W (main_v1 : DevRef τ sig) = RefTerm.row0 ei) (h3 : W (main_v3 : DevRef τ sig) = RefTerm.row1 ei) :
    after opsC W (main_v80 : DevRef τ sig)
      = RefTerm.conv2 ei (W (main_v54 : DevRef τ sig)) (W (main_arg5 : DevRef τ sig)) (W (main_arg6 : DevRef τ sig)) (W (main_arg7 : DevRef τ sig)) := by
  after_results_simp
  rw [h1, h3]
  rfl

attribute [local irreducible] Host.gather Host.scatterAdd Host.reduce Host.reduceAdd Host.exp Host.log Host.divf Host.sqrt in
theorem D_v81 (W : Valuation τ sig (Elt Ideal)) :
    after opsD W (main_v81 : DevRef τ sig) = RefTerm.lsm (W (main_v80 : DevRef τ sig)) := by
  after_results_simp
  rfl

/-! ## The whole line -/

/-- The fold at the result buffer is the reference term of the arguments' contents. -/
theorem out_eq (V : Valuation τ sig (Elt Ideal)) :
    after ops V (main_v81 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  have h1 : after opsB (after opsA V) (main_v1 : DevRef τ sig) = RefTerm.row0 (V (main_arg1 : DevRef τ sig)) := by
    rw [B_v1, A_v1]
  have h3 : after opsB (after opsA V) (main_v3 : DevRef τ sig) = RefTerm.row1 (V (main_arg1 : DevRef τ sig)) := by
    rw [B_v3, A_v3]
  rw [ops_split, after_app, after_app, after_app, opsA_plain, opsB_plain, opsC_plain, opsD_plain]
  rw [D_v81, C_v80 _ (V (main_arg1 : DevRef τ sig)) h1 h3, B_v54, B_arg5, B_arg6, B_arg7, A_v29, A_arg0, A_arg5, A_arg6, A_arg7,
    A_arg8, A_arg9, A_arg10]
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

/-- At the compiled mesh, at the exact extended reals, from any memory with zero counters: every weakly fair execution
    of @main terminates with the result buffer at the reference term of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v81)
        = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c main_v81).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.Algebra.lean ====
/-
  The arithmetic on the extended reals that joins the two programs.

  * Real entries. An extended real is called real when it is the image of a real number. Sums, differences, products and
    finite sums of real entries are real; the inverse of ANY extended real is real (the inverse of either infinity and of
    zero is zero), so a quotient by a nonzero divisor of a real entry is real.
  * A product with a reciprocal is the quotient: for c ≠ 0, x · (1 / c) = x / c, because off zero the quotient is the
    product with the inverse and 1 · c⁻¹ = c⁻¹.
  * The variance of real numbers h₁ … h_N in two forms: the mean of the squares minus the square of the mean equals the
    mean of the squared deviations from the mean; the latter is not negative, so taking the maximum with zero changes
    nothing.
  * For a positive real y, z · rsqrt y = z / sqrt y: both are z times the inverse of the real square root.
  * A sum over 50000 rows is the sum over 10 blocks of the sums over each block's 5000 rows.
-/
import Idealize.ShloMosaic.PureOps.Ideal
import Mathlib.Data.EReal.Operations
import Mathlib.Data.EReal.Inv
import Mathlib.Algebra.BigOperators.Fin
import Mathlib.Logic.Equiv.Fin.Basic
import Mathlib.Tactic
import proofs.«165145_j85615878078999_2_alg».proof.Proof.LibERealSums

noncomputable section

open scoped BigOperators

namespace Cert.Sage

open Idealize.ShloMosaic

/-! ## Real entries -/

/-- An extended real that is the image of a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The inverse of any extended real is real: the infinities and zero go to zero. -/
theorem isReal_inv (c : EReal) : IsReal c⁻¹ := by
  induction c using EReal.rec with
  | bot => exact ⟨0, by rw [EReal.inv_bot]; rfl⟩
  | coe r => exact ⟨r⁻¹, (EReal.coe_inv r).symm⟩
  | top => exact ⟨0, by rw [EReal.inv_top]; rfl⟩

/-- A real entry divided by a nonzero divisor is real. -/
theorem IsReal.div {x c : EReal} (hx : IsReal x) (hc : c ≠ 0) : IsReal (Ideal.div x c) := by
  unfold Ideal.div; rw [if_neg hc]; exact hx.mul (isReal_inv c)

/-- The larger of one and anything is not zero. -/
theorem max_one_ne_zero (x : EReal) : max (1 : EReal) x ≠ 0 :=
  ne_of_gt (lt_of_lt_of_le zero_lt_one (le_max_left _ _))

/-! ## A product with the reciprocal is the quotient -/

theorem mul_one_div (x c : EReal) (hc : c ≠ 0) : x * Ideal.div 1 c = Ideal.div x c := by
  unfold Ideal.div; rw [if_neg hc, if_neg hc, one_mul]

/-! ## The variance in two forms -/

/-- Over the reals: the mean of the squares minus the square of the mean is the mean of the squared deviations. -/
theorem real_var_forms {ι : Type*} [Fintype ι] (h : ι → ℝ) (N : ℝ) (hN : (Fintype.card ι : ℝ) = N) (hN0 : N ≠ 0) :
    (∑ i, h i * h i) / N - (∑ i, h i) / N * ((∑ i, h i) / N)
      = (∑ i, (h i - (∑ i, h i) / N) * (h i - (∑ i, h i) / N)) / N := by
  have e : ∑ i, (h i - (∑ i, h i) / N) * (h i - (∑ i, h i) / N)
      = (∑ i, h i * h i) - 2 * ((∑ i, h i) / N) * (∑ i, h i) + N * (((∑ i, h i) / N) * ((∑ i, h i) / N)) := by
    have : ∀ i, (h i - (∑ i, h i) / N) * (h i - (∑ i, h i) / N)
        = h i * h i - 2 * ((∑ i, h i) / N) * h i + ((∑ i, h i) / N) * ((∑ i, h i) / N) := fun i => by ring
    simp only [this, Finset.sum_add_distrib, Finset.sum_sub_distrib, ← Finset.mul_sum, Finset.sum_const, Finset.card_univ,
      nsmul_eq_mul, hN]
    ring
  rw [e]; field_simp; ring

theorem real_var_nonneg {ι : Type*} [Fintype ι] (h : ι → ℝ) (μ N : ℝ) (hN : 0 < N) :
    0 ≤ (∑ i, (h i - μ) * (h i - μ)) / N :=
  div_nonneg (Finset.sum_nonneg fun i _ => mul_self_nonneg _) hN.le

/-- On the extended reals, for real entries over a finite index set of N elements (N a positive real count):
    the larger of (mean of squares − square of mean) and zero is the mean of the squared deviations, and that number is a
    nonnegative real. -/
theorem var_forms {ι : Type} [Fintype ι] (H : ι → EReal) (hH : ∀ n, IsReal (H n)) (N : ℝ)
    (hN : (Fintype.card ι : ℝ) = N) (hN0 : 0 < N) :
    max (Ideal.div (∑ n, H n * H n) (N : EReal)
          - Ideal.div (∑ n, H n) (N : EReal) * Ideal.div (∑ n, H n) (N : EReal)) 0
      = Ideal.div (∑ n, (H n - Ideal.div (∑ n, H n) (N : EReal)) * (H n - Ideal.div (∑ n, H n) (N : EReal))) (N : EReal)
    ∧ ∃ v : ℝ, 0 ≤ v ∧
      Ideal.div (∑ n, (H n - Ideal.div (∑ n, H n) (N : EReal)) * (H n - Ideal.div (∑ n, H n) (N : EReal))) (N : EReal) = (v : EReal) := by
  choose h hh using hH
  have hfun : H = fun n => ((h n : ℝ) : EReal) := funext hh
  subst hfun
  have hN' : N ≠ 0 := hN0.ne'
  have hdiv : ∀ x : ℝ, Ideal.div (x : EReal) (N : EReal) = ((x / N : ℝ) : EReal) := fun x => by
    rw [Ideal.div_coe hN', ← EReal.coe_mul]; congr 1; field_simp
  have hS : ∑ n, ((h n : ℝ) : EReal) = ((∑ n, h n : ℝ) : EReal) := (Cert.Attn.coe_sum_univ h).symm
  have hQ : ∑ n, ((h n : ℝ) : EReal) * ((h n : ℝ) : EReal) = ((∑ n, h n * h n : ℝ) : EReal) := Cert.Attn.sum_coe_mul_coe h h
  have hD : ∑ n, (((h n : ℝ) : EReal) - (((∑ n, h n) / N : ℝ) : EReal)) * (((h n : ℝ) : EReal) - (((∑ n, h n) / N : ℝ) : EReal))
      = ((∑ n, (h n - (∑ n, h n) / N) * (h n - (∑ n, h n) / N) : ℝ) : EReal) := by
    rw [Cert.Attn.coe_sum_univ]
    exact Finset.sum_congr rfl fun n _ => by rw [← EReal.coe_sub, ← EReal.coe_mul]
  rw [hS, hQ, hdiv, hdiv, hD, hdiv, ← EReal.coe_mul, ← EReal.coe_sub, real_var_forms h N hN hN']
  have hnn := real_var_nonneg h ((∑ n, h n) / N) N hN0
  refine ⟨?_, _, hnn, rfl⟩
  exact max_eq_left (by exact_mod_cast hnn)

/-! ## The reciprocal square root against the quotient by the square root -/

theorem mul_rsqrt_coe (z : EReal) (r : ℝ) (hr : 0 < r) :
    z * Ideal.rsqrt (r : EReal) = Ideal.div z (Ideal.sqrt (r : EReal)) := by
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-! ## A sum over all rows, block by block -/

/-- A sum over a · b indices is the sum over a blocks of the sums over the b indices of each block. -/
theorem sum_blocks {M : Type*} [AddCommMonoid M] (a b : ℕ) (f : Fin (a * b) → M) :
    ∑ n, f n = ∑ t : Fin a, ∑ p : Fin b, f (finProdFinEquiv (t, p)) := by
  rw [← Fintype.sum_prod_type']
  exact (Fintype.sum_equiv finProdFinEquiv _ _ (fun _ => rfl)).symm

/-- Row 5000 · t + p of 50000 rows. -/
def blockRow (t : Fin 10) (p : Fin 5000) : Fin 50000 := ⟨5000 * t.val + p.val, by omega⟩

theorem sum_rows_blocks {M : Type*} [AddCommMonoid M] (f : Fin 50000 → M) :
    ∑ n, f n = ∑ t : Fin 10, ∑ p : Fin 5000, f (blockRow t p) := by
  have := sum_blocks 10 5000 (fun n : Fin (10 * 5000) => f n)
  refine this.trans (Finset.sum_congr rfl fun t _ => Finset.sum_congr rfl fun p _ => ?_)
  refine congrArg f (Fin.ext ?_)
  show p.val + 5000 * t.val = 5000 * t.val + p.val
  omega

/-! ## The float words both programs spell -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The small positive number both programs add to the variance is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

end Cert.Sage

end
-- ==== Proof.Finite.lean ====
/-
  From the precondition to real entries.

  The precondition is the conjunction, array by array, of "every entry's absolute value is below +∞". Each conjunct is an
  all-reduction by and of entrywise comparisons; when the whole conjunction is 1, every comparison is 1, and an extended
  real whose absolute value is below +∞ is a real number. Needed below: the node features, the first layer's two weight
  matrices and its bias.
-/
import proofs.«165145_j85615878078999_2_alg».proof.Pre_finite_inputs
import proofs.«165145_j85615878078999_2_alg».proof.Proof.Gen.Pre_finite_inputs
import Idealize.ShloMosaic.Lib.ReduceAll
import Idealize.ShloMosaic.Lib.ValueIdx
import proofs.«165145_j85615878078999_2_alg».proof.Proof.LibFiniteEntry
import proofs.«165145_j85615878078999_2_alg».proof.Proof.Algebra

noncomputable section

namespace Cert.Sage

open Idealize.ShloMosaic Idealize.ShloMosaic.ValueIdx Cert.Pre_finite_inputs

attribute [local instance] Cert.Pre_finite_inputs.Gen.facts

instance : Subsingleton S_.Idx := ⟨fun a b => funext fun d => d.elim0⟩

/-- One conjunct read back: if the all-reduction of "|a| < +∞" is 1, every entry of the array is real. -/
theorem real_of_all {S : Shape} {axes : List (Fin S.rank)} (a : FVec Ideal S .f32)
    (hb : S_.BroadcastsInDim S (![] : Fin 0 → Fin S.rank)) (hred : S.ReducesTo axes S_) (hu : 0 < S_.numel)
    (e : Host.reduce IntOp.andi (cmpf .olt (Host.absf a) (broadcastInDim S ![] hb (constant (F := Ideal) S_ .f32 0x7F800000#32)))
          (constantI S_ 1 1#1) hred hu ix0 = 1#1) (i : S.Idx) : IsReal (a i) := by
  have hi := Host.reduce_andi_all _ _ hred hu ix0 e i
  exact Ideal.real_of_abs_lt_inf (a i) hi

/-- Under the precondition the node features, both first-layer weight matrices and the first-layer bias hold real numbers. -/
theorem real_of_pre (a0 : FVec Ideal S50000x128 .f32) (a1 : IVec S2x800000 32) (a2 : FVec Ideal S128x128 .f32)
    (a3 : FVec Ideal S128 .f32) (a4 : FVec Ideal S128x128 .f32) (a5 : FVec Ideal S16x128 .f32) (a6 : FVec Ideal S16 .f32)
    (a7 : FVec Ideal S16x128 .f32) (a8 : FVec Ideal S128 .f32) (a9 : FVec Ideal S128 .f32) (a10 : FVec Ideal S_ .f32)
    (h : Cert.Pre_finite_inputs.fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ e0, real_of_all a2 _ _ _ e2, real_of_all a3 _ _ _ e3, real_of_all a4 _ _ _ e4⟩

end Cert.Sage

end
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«165145_j85615878078999_2_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«165145_j85615878078999_2_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.RefRead.lean ====
/-
  The reference's dense layer and its log-softmax, read as the whole-array forms the kernel's regions compute.

  * The layer. The reference divides each row of the neighbour sums by the clipped in-degree c(r), multiplies by the
    transposed left weights, adds the bias repeated down the rows and adds the rows times the transposed right weights.
    The clipped in-degree is at least one, so it is not zero, and a quotient by it is the product with the reciprocal
    1 / c(r): entry by entry the layer is the dense stage whose row factors are the reciprocals.
  * The log-softmax. The reference takes each row's maximum (folded from minus infinity, then once more the maximum with
    minus infinity, which changes nothing), subtracts it, and subtracts the logarithm of the sum of the exponentials of
    the shifted row.
-/
import proofs.«165145_j85615878078999_2_alg».proof.Proof.RefTerm
import proofs.«165145_j85615878078999_2_alg».proof.Proof.RegionForms
import proofs.«165145_j85615878078999_2_alg».proof.Proof.LibBiasRows
import proofs.«165145_j85615878078999_2_alg».proof.Proof.LibBiasedBlock
import proofs.«165145_j85615878078999_2_alg».proof.Proof.LibLaneSum
import proofs.«165145_j85615878078999_2_alg».proof.Proof.Algebra
import Idealize.ShloMosaic.PureOps.Reduce

noncomputable section

open scoped BigOperators

namespace Cert.Sage

open Idealize.ShloMosaic Idealize.ShloMosaic.ValueIdx Cert.MatrixProduct Cert.KernelIdeal.RegionForms

/-- The one-column array of the reciprocals of a vector's entries. -/
def recipCol (c : (⟨1, ![50000]⟩ : Shape).Idx → EReal) : (⟨2, ![50000, 1]⟩ : Shape).Idx → EReal :=
  fun l => Ideal.div 1 (c (ix1 (l 0)))

/-- The host's layer, for any number n of output columns, is the dense stage with reciprocal row factors. -/
theorem host_layer_eq_lin {n : ℕ}
    (wfd : DotDims.WF ⟨2, ![50000, 128]⟩ ⟨2, ![128, n]⟩ ⟨2, ![50000, n]⟩ [1] [0] [0] [1] [] [])
    (hb1 : (⟨1, ![n]⟩ : Shape).BroadcastsInDim ⟨2, ![1, n]⟩ (![1] : Fin 1 → Fin 2))
    (hb2 : (⟨2, ![1, n]⟩ : Shape).BroadcastsInDim ⟨2, ![50000, n]⟩ (![0, 1] : Fin 2 → Fin 2))
    (hc1 : (⟨1, ![50000]⟩ : Shape).BroadcastsInDim ⟨2, ![50000, 1]⟩ (![0] : Fin 1 → Fin 2))
    (hc2 : (⟨2, ![50000, 1]⟩ : Shape).BroadcastsInDim ⟨2, ![50000, 128]⟩ (![0, 1] : Fin 2 → Fin 2))
    (A X : FVec Ideal ⟨2, ![50000, 128]⟩ .f32) (c : FVec Ideal ⟨1, ![50000]⟩ .f32)
    (WlT WrT : FVec Ideal ⟨2, ![128, n]⟩ .f32) (b : FVec Ideal ⟨1, ![n]⟩ .f32) (hc : ∀ r : Fin 50000, c (ix1 r) ≠ 0) :
    addf (addf (Host.dotGeneral (F := Ideal) (⟨[1], [0], [0], [1], [], [], wfd⟩ : DotDims ⟨2, ![50000, 128]⟩ ⟨2, ![128, n]⟩ ⟨2, ![50000, n]⟩) none
            (Host.divf (F := Ideal) A (broadcastInDim ⟨2, ![50000, 128]⟩ (![0, 1] : Fin 2 → Fin 2) hc2
              (broadcastInDim ⟨2, ![50000, 1]⟩ (![0] : Fin 1 → Fin 2) hc1 c))) WlT)
          (broadcastInDim ⟨2, ![50000, n]⟩ (![0, 1] : Fin 2 → Fin 2) hb2 (broadcastInDim ⟨2, ![1, n]⟩ (![1] : Fin 1 → Fin 2) hb1 b)))
      (Host.dotGeneral (F := Ideal) (⟨[1], [0], [0], [1], [], [], wfd⟩ : DotDims ⟨2, ![50000, 128]⟩ ⟨2, ![128, n]⟩ ⟨2, ![50000, n]⟩) none X WrT)
    = lin A X (recipCol c) WlT (Cert.Gcn.rowOf b) WrT := by
  funext i
  obtain ⟨r, q, rfl⟩ : ∃ (r : Fin 50000) (q : Fin n), i = ix2 r q := ⟨i 0, i 1, eq_ix2 i⟩
  rw [addf_apply, addf_apply, dotGeneral_eq_mm, dotGeneral_eq_mm, bias_rows_apply]
  show (mm _ WlT (ix2 r q) + b (ix1 q)) + mm X WrT (ix2 r q)
    = (mm (rowScaled A (recipCol c)) WlT (ix2 r q) + b (ix1 q)) + mm X WrT (ix2 r q)
  refine congrArg (fun z => (z + b (ix1 q)) + mm X WrT (ix2 r q)) ?_
  rw [mm_apply, mm_apply]
  refine Finset.sum_congr rfl fun k _ => ?_
  refine congrArg (· * WlT (ix2 k q)) ?_
  show Ideal.div (A (ix2 r k)) (broadcastInDim ⟨2, ![50000, 128]⟩ (![0, 1] : Fin 2 → Fin 2) hc2
      (broadcastInDim ⟨2, ![50000, 1]⟩ (![0] : Fin 1 → Fin 2) hc1 c) (ix2 r k)) = A (ix2 r k) * Ideal.div 1 (c (ix1 r))
  rw [row_factors_apply]
  exact (mul_one_div _ _ (hc r)).symm

/-- A one-column array repeated across the columns reads, at (e, l), its entry (e, 0). -/
theorem bcast_col_apply {α : Type} {E C : ℕ} (x : (⟨2, ![E, 1]⟩ : Shape).Idx → α)
    (h2 : (⟨2, ![E, 1]⟩ : Shape).BroadcastsInDim ⟨2, ![E, C]⟩ (![0, 1] : Fin 2 → Fin 2)) (e : Fin E) (l : Fin C) :
    broadcastInDim ⟨2, ![E, C]⟩ (![0, 1] : Fin 2 → Fin 2) h2 x (ix2 e l) = x (ix2 e (0 : Fin 1)) := by
  refine broadcastInDim_apply _ h2 _ (ix2 e l) (ix2 e (0 : Fin 1)) (fun ax => ?_)
  match ax with
  | ⟨0, _⟩ =>
    show e.val = if E = 1 then 0 else e.val
    split
    · have := e.isLt; omega
    · rfl
  | ⟨1, _⟩ => show 0 = if (1 : ℕ) = 1 then 0 else l.val; rw [if_pos rfl]

/-- A vector written as one column reads, at (e, 0), its entry e. -/
theorem bcast_vec_col_apply {α : Type} {E : ℕ} (v : (⟨1, ![E]⟩ : Shape).Idx → α)
    (h1 : (⟨1, ![E]⟩ : Shape).BroadcastsInDim ⟨2, ![E, 1]⟩ (![0] : Fin 1 → Fin 2)) (e : Fin E) :
    broadcastInDim ⟨2, ![E, 1]⟩ (![0] : Fin 1 → Fin 2) h1 v (ix2 e (0 : Fin 1)) = v (ix1 e) := by
  refine broadcastInDim_apply _ h1 v (ix2 e (0 : Fin 1)) (ix1 e) (fun ax => ?_)
  match ax with
  | ⟨0, _⟩ =>
    show e.val = if E = 1 then 0 else e.val
    split
    · have := e.isLt; omega
    · rfl

end Cert.Sage

end
-- ==== Proof.RefConv.lean ====
/-
  The reference's two layers as the dense stage with reciprocal row factors: the clipped in-degree is the larger of
  one and the in-degree, so it is never zero.
-/
import proofs.«165145_j85615878078999_2_alg».proof.Proof.RefRead

noncomputable section

open scoped BigOperators

namespace Cert.Sage

open Idealize.ShloMosaic Idealize.ShloMosaic.ValueIdx Cert.MatrixProduct Cert.KernelIdeal.RegionForms

section
open Cert.ReferenceIdeal Cert.ReferenceIdeal.Gen

/-- The clipped in-degree is not zero. -/
theorem cnt_ne_zero (ei : IVec S2x800000 32) (r : Fin 50000) : Cert.ReferenceIdeal.RefTerm.cnt ei (ix1 r) ≠ 0 := by
  unfold Cert.ReferenceIdeal.RefTerm.cnt
  rw [maximumf_apply]
  refine ne_of_eq_of_ne (congrArg (max · _) ?_) (max_one_ne_zero _)
  exact ofBits_one

theorem conv1_eq_lin (ei : IVec S2x800000 32) (x : FVec Ideal S50000x128 .f32) (Wl1 : FVec Ideal S128x128 .f32)
    (bl1 : FVec Ideal S128 .f32) (Wr1 : FVec Ideal S128x128 .f32) :
    Cert.ReferenceIdeal.RefTerm.conv1 ei x Wl1 bl1 Wr1
      = lin (Cert.ReferenceIdeal.RefTerm.aggSum ei x) x (recipCol (Cert.ReferenceIdeal.RefTerm.cnt ei))
          (transpose S128x128 [1, 0] Wl1 transposes_S128x128_S128x128_1_0) (Cert.Gcn.rowOf bl1)
          (transpose S128x128 [1, 0] Wr1 transposes_S128x128_S128x128_1_0) := by
  unfold Cert.ReferenceIdeal.RefTerm.conv1
  exact host_layer_eq_lin dot_S50000x128_S128x128_S50000x128_1_0_0_1_n_n_wf bcast_S128_S1x128_1 bcast_S1x128_S50000x128_0_1
    bcast_S50000_S50000x1_0 bcast_S50000x1_S50000x128_0_1 (Cert.ReferenceIdeal.RefTerm.aggSum ei x) x
    (Cert.ReferenceIdeal.RefTerm.cnt ei) (transpose S128x128 [1, 0] Wl1 transposes_S128x128_S128x128_1_0)
    (transpose S128x128 [1, 0] Wr1 transposes_S128x128_S128x128_1_0) bl1 (cnt_ne_zero ei)

theorem conv2_eq_lin (ei : IVec S2x800000 32) (h : FVec Ideal S50000x128 .f32) (Wl2 : FVec Ideal S16x128 .f32)
    (bl2 : FVec Ideal S16 .f32) (Wr2 : FVec Ideal S16x128 .f32) :
    Cert.ReferenceIdeal.RefTerm.conv2 ei h Wl2 bl2 Wr2
      = lin (Cert.ReferenceIdeal.RefTerm.aggSum ei h) h (recipCol (Cert.ReferenceIdeal.RefTerm.cnt ei))
          (transpose S128x16 [1, 0] Wl2 transposes_S16x128_S128x16_1_0) (Cert.Gcn.rowOf bl2)
          (transpose S128x16 [1, 0] Wr2 transposes_S16x128_S128x16_1_0) := by
  unfold Cert.ReferenceIdeal.RefTerm.conv2
  exact host_layer_eq_lin dot_S50000x128_S128x16_S50000x16_1_0_0_1_n_n_wf bcast_S16_S1x16_1 bcast_S1x16_S50000x16_0_1
    bcast_S50000_S50000x1_0 bcast_S50000x1_S50000x128_0_1 (Cert.ReferenceIdeal.RefTerm.aggSum ei h) h
    (Cert.ReferenceIdeal.RefTerm.cnt ei) (transpose S128x16 [1, 0] Wl2 transposes_S16x128_S128x16_1_0)
    (transpose S128x16 [1, 0] Wr2 transposes_S16x128_S128x16_1_0) bl2 (cnt_ne_zero ei)

end

end Cert.Sage

end
-- ==== Proof.KerBridge.lean ====
/-
  The kernel program's host-side terms are the reference's: the edge tables, the neighbour sum and the clipped in-degree
  are the same operations; the reciprocal column is the reciprocal of the clipped in-degree row by row; a narrowed,
  transposed weight matrix is the transposed matrix (narrowing is the identity on the extended reals); a vector reshaped
  to one row is that row. And the first layer's output is real when its inputs are: the neighbour sum is zero plus a sum of
  entries of the features, the reciprocal of a nonzero number is real, and sums of products of reals are real.
-/
import proofs.«165145_j85615878078999_2_alg».proof.Proof.RefConv
import proofs.«165145_j85615878078999_2_alg».proof.Proof.KerTerm

noncomputable section

open scoped BigOperators

namespace Cert.Sage

open Idealize.ShloMosaic Idealize.ShloMosaic.ValueIdx Cert.MatrixProduct Cert.KernelIdeal.RegionForms

section
open Cert.KernelIdeal.KerTerm

theorem aggSum_eq (ei : IVec Cert.KernelIdeal.S2x800000 32) (X : FVec Ideal Cert.KernelIdeal.S50000x128 .f32) :
    Cert.KernelIdeal.KerTerm.aggSum ei X = Cert.ReferenceIdeal.RefTerm.aggSum ei X := rfl

theorem cnt_eq (ei : IVec Cert.KernelIdeal.S2x800000 32) :
    Cert.KernelIdeal.KerTerm.cnt ei = Cert.ReferenceIdeal.RefTerm.cnt ei := rfl

theorem host_divf_apply {s : Shape} (x y : FVec Ideal s .f32) (i : s.Idx) :
    Host.divf (F := Ideal) x y i = Ideal.div (x i) (y i) := rfl

/-- A broadcast scalar constant reads, everywhere, the number its word denotes. -/
theorem bcast_const_apply {s t : Shape} (dims : Fin s.rank → Fin t.rank) (h : s.BroadcastsInDim t dims) (b : BitVec 32)
    (i : t.Idx) : broadcastInDim t dims h (constant (F := Ideal) s .f32 b) i = Ideal.ofBits .f32 b := by
  unfold broadcastInDim
  rfl

theorem recipCol_apply (c : (⟨1, ![50000]⟩ : Shape).Idx → EReal) (r : Fin 50000) :
    recipCol c (ix2 r (0 : Fin 1)) = Ideal.div 1 (c (ix1 r)) := rfl

theorem invc_eq (ei : IVec Cert.KernelIdeal.S2x800000 32) :
    Cert.KernelIdeal.KerTerm.invc ei = recipCol (Cert.ReferenceIdeal.RefTerm.cnt ei) := by
  funext l
  obtain ⟨r, u, rfl⟩ : ∃ (r : Fin 50000) (u : Fin 1), l = ix2 r u := ⟨l 0, l 1, eq_ix2 l⟩
  obtain rfl : u = 0 := Subsingleton.elim _ _
  refine (bcast_vec_col_apply _ Cert.KernelIdeal.Gen.bcast_S50000_S50000x1_0 r).trans ?_
  rw [host_divf_apply, bcast_const_apply, ofBits_one, cnt_eq, recipCol_apply]

theorem row_eq (b : FVec Ideal Cert.KernelIdeal.S128 .f32) : Cert.KernelIdeal.KerTerm.row b = Cert.Gcn.rowOf b :=
  Cert.Gcn.cast_row_eq_rowOf b _

theorem row16_eq (b : FVec Ideal Cert.KernelIdeal.S16 .f32) : Cert.KernelIdeal.KerTerm.row16 b = Cert.Gcn.rowOf b :=
  Cert.Gcn.cast_row_eq_rowOf b _

theorem wT_eq (W : FVec Ideal Cert.KernelIdeal.S128x128 .f32) :
    Cert.KernelIdeal.KerTerm.wT W
      = transpose Cert.ReferenceIdeal.S128x128 [1, 0] W Cert.ReferenceIdeal.Gen.transposes_S128x128_S128x128_1_0 := rfl

theorem wT2_eq (W : FVec Ideal Cert.KernelIdeal.S16x128 .f32) :
    Cert.KernelIdeal.KerTerm.wT2 W
      = transpose Cert.ReferenceIdeal.S128x16 [1, 0] W Cert.ReferenceIdeal.Gen.transposes_S16x128_S128x16_1_0 := rfl

end

/-! ## Real entries of the first layer -/

theorem lin_real {n : ℕ} (S X : (⟨2, ![50000, 128]⟩ : Shape).Idx → EReal) (D : (⟨2, ![50000, 1]⟩ : Shape).Idx → EReal)
    (Wl : (⟨2, ![128, n]⟩ : Shape).Idx → EReal) (B : (⟨2, ![1, n]⟩ : Shape).Idx → EReal)
    (Wr : (⟨2, ![128, n]⟩ : Shape).Idx → EReal)
    (hS : ∀ i, IsReal (S i)) (hX : ∀ i, IsReal (X i)) (hD : ∀ i, IsReal (D i)) (hWl : ∀ i, IsReal (Wl i))
    (hB : ∀ i, IsReal (B i)) (hWr : ∀ i, IsReal (Wr i)) (i : (⟨2, ![50000, n]⟩ : Shape).Idx) :
    IsReal (lin S X D Wl B Wr i) := by
  obtain ⟨r, q, rfl⟩ : ∃ (r : Fin 50000) (q : Fin n), i = ix2 r q := ⟨i 0, i 1, eq_ix2 i⟩
  rw [lin_apply]
  exact ((IsReal.sum _ _ fun k _ => ((hS _).mul (hD _)).mul (hWl _)).add (hB _)).add
    (IsReal.sum _ _ fun k _ => (hX _).mul (hWr _))

section
open Cert.ReferenceIdeal Cert.ReferenceIdeal.Gen

/-- An accumulating scatter of real updates into a real array is real: each entry is the old entry plus a finite sum of
    updates. -/
theorem scatterAdd_real {s si su : Shape} (d : ScatterDims s si su) {w : ℕ} (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact (hx i).add (IsReal.sum _ _ fun j _ => hu j)

/-- A gathered entry is an entry of the operand. -/
theorem gather_real {s si t : Shape} {w : ℕ} (d : GatherDims s si t) (X : s.Idx → EReal) (idx : IVec si w)
    (hX : ∀ i, IsReal (X i)) (j : t.Idx) : IsReal (Host.gather d X idx j) := by
  unfold Host.gather
  exact hX _

/-- A broadcast scalar constant whose word denotes a real number is real everywhere. -/
theorem bcast_const_real {s t : Shape} (dims : Fin s.rank → Fin t.rank) (h : s.BroadcastsInDim t dims) (b : BitVec 32)
    (hb : IsReal (Ideal.ofBits .f32 b)) (i : t.Idx) :
    IsReal (broadcastInDim t dims h (constant (F := Ideal) s .f32 b) i) := by
  unfold broadcastInDim
  exact hb

theorem aggSum_real (ei : IVec S2x800000 32) (X : FVec Ideal S50000x128 .f32) (hX : ∀ i, IsReal (X i)) (i : S50000x128.Idx) :
    IsReal (Cert.ReferenceIdeal.RefTerm.aggSum ei X i) := by
  unfold Cert.ReferenceIdeal.RefTerm.aggSum
  exact scatterAdd_real _ _ _ _ (bcast_const_real _ _ _ (by rw [ofBits_zero]; exact isReal_zero))
    (gather_real _ X _ hX) i

theorem conv1_real (ei : IVec S2x800000 32) (x : FVec Ideal S50000x128 .f32) (Wl1 : FVec Ideal S128x128 .f32)
    (bl1 : FVec Ideal S128 .f32) (Wr1 : FVec Ideal S128x128 .f32)
    (hx : ∀ i, IsReal (x i)) (hWl : ∀ i, IsReal (Wl1 i)) (hb : ∀ i, IsReal (bl1 i)) (hWr : ∀ i, IsReal (Wr1 i))
    (i : S50000x128.Idx) : IsReal (Cert.ReferenceIdeal.RefTerm.conv1 ei x Wl1 bl1 Wr1 i) := by
  rw [conv1_eq_lin]
  exact lin_real _ _ _ _ _ _ (aggSum_real ei x hx) hx
    (fun l => IsReal.div isReal_one (cnt_ne_zero ei _)) (fun l => hWl _) (fun l => hb _) (fun l => hWr _) i

end

end Cert.Sage

end
-- ==== Proof.RefLsm.lean ====
/-
  The reference's log-softmax, row by row: each row's maximum (folded from minus infinity, then once more the maximum
  with minus infinity, which changes nothing) is subtracted, then the logarithm of the sum of the exponentials of the
  shifted row.
-/
import proofs.«165145_j85615878078999_2_alg».proof.Proof.RefRead
import Idealize.ShloMosaic.PureOps.Reduce

noncomputable section

open scoped BigOperators

namespace Cert.Sage

open Idealize.ShloMosaic Idealize.ShloMosaic.ValueIdx Cert.MatrixProduct Cert.KernelIdeal.RegionForms

section
open Cert.ReferenceIdeal Cert.ReferenceIdeal.Gen

/-- The host's maximum along a row, started from the word of minus infinity, is the fold of max over the row. -/
theorem host_rowMax (o : FVec Ideal S50000x16 .f32) (hr : S50000x16.Reduces [1] S50000) (r : Fin 50000) :
    Host.reduce (FloatOps.maximumf (F := Ideal)) o (constant (F := Ideal) S_ .f32 0xFF800000#32)
        reducesTo_S50000x16_S50000_d1 h_S_ (ix1 r) = rowMax o r := by
  rw [Host.reduce_eq_fold_single (FloatOps.maximumf (F := Ideal)) o _ reducesTo_S50000x16_S50000_d1 hr h_S_]
  exact congrArg (fun f => (Finset.univ : Finset (Fin 16)).fold max (FloatOps.ofBits (F := Ideal) .f32 0xFF800000#32) f)
    (funext fun c => congrArg o (reduces_rows_lift hr r c))

/-- A row of the reference's shifted array: the entry minus the row's maximum. -/
theorem lsmShift_apply (o : FVec Ideal S50000x16 .f32) (hr : S50000x16.Reduces [1] S50000) (r : Fin 50000) (q : Fin 16) :
    Cert.ReferenceIdeal.RefTerm.lsmShift o (ix2 r q) = o (ix2 r q) - rowMax o r := by
  unfold Cert.ReferenceIdeal.RefTerm.lsmShift
  rw [subf_apply, row_factors_apply, maximumf_apply, host_rowMax o hr r]
  refine congrArg (o (ix2 r q) - ·) ?_
  refine (congrArg (max · (rowMax o r)) ofBits_neg_inf).trans ?_
  exact max_bot_left _

/-- The host's sum along a row, started from the zero word. -/
theorem host_rowSum (e : FVec Ideal S50000x16 .f32) (hr : S50000x16.Reduces [1] S50000) (r : Fin 50000) :
    Host.reduceAdd (F := Ideal) e (constant (F := Ideal) S_ .f32 0x00000000#32) reducesTo_S50000x16_S50000_d1 h_S_ (ix1 r)
      = ∑ c : Fin 16, e (ix2 r c) := by
  refine (Ideal.hostReduceAdd_single reducesTo_S50000x16_S50000_d1 hr e (Ideal.ofBits .f32 0x00000000#32) (ix1 r)).trans ?_
  rw [ofBits_zero, zero_add]
  exact Finset.sum_congr rfl fun c _ => congrArg e (reduces_rows_lift hr r c)

theorem host_log_apply {s : Shape} (x : FVec Ideal s .f32) (i : s.Idx) : Host.log (F := Ideal) x i = Ideal.log (x i) := rfl

theorem host_exp_apply {s : Shape} (x : FVec Ideal s .f32) (i : s.Idx) : Host.exp (F := Ideal) x i = Ideal.exp (x i) := rfl

theorem rowLogSumExp_def (o : (⟨2, ![50000, 16]⟩ : Shape).Idx → EReal) (r : Fin 50000) :
    rowLogSumExp o r = Ideal.log (∑ c : Fin 16, Ideal.exp (o (ix2 r c) - rowMax o r)) := rfl

/-- The reference's log-softmax is the row-wise form. -/
theorem lsm_eq_lsm2 (o : FVec Ideal S50000x16 .f32) : Cert.ReferenceIdeal.RefTerm.lsm o = lsm2 o := by
  have hr : S50000x16.Reduces [1] S50000 := by decide
  funext i
  obtain ⟨r, q, rfl⟩ : ∃ (r : Fin 50000) (q : Fin 16), i = ix2 r q := ⟨i 0, i 1, eq_ix2 i⟩
  rw [lsm2_apply]
  unfold Cert.ReferenceIdeal.RefTerm.lsm
  rw [subf_apply, lsmShift_apply o hr, bcast_col_apply, host_log_apply, bcast_vec_col_apply, host_rowSum _ hr r,
    rowLogSumExp_def]
  refine congrArg (fun z => (o (ix2 r q) - rowMax o r) - Ideal.log z) ?_
  exact Finset.sum_congr rfl fun c _ => by rw [host_exp_apply, lsmShift_apply o hr]

end

end Cert.Sage

end
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.Stats.lean ====
/-
  The column statistics, on both sides, and the normalisation stage.

  For an array H of 50000 rows and 128 columns with real entries, write S(j) for the sum of column j, Q(j) for the sum of
  its squares and μ(j) = S(j) / 50000.
  * The reference takes μ(j) and the mean of the squared deviations, (Σ_n (H(n, j) − μ(j))²) / 50000 (its divisor is
    50000 minus a correction that is zero, and it keeps the quotient because that divisor is positive).
  * The kernel's host side gets the ten block sums of each column, adds them (a sum over all rows, block by block), divides by
    50000, and takes max(Q(j) / 50000 − μ(j)², 0).
  These are equal, and the common value is a nonnegative real v(j); with ε the positive real both sides add,
  z · rsqrt(v(j) + ε) = z / sqrt(v(j) + ε). Hence the two normalised entries agree, and with them the whole stage.
-/
import proofs.«165145_j85615878078999_2_alg».proof.Proof.RefTerm
import proofs.«165145_j85615878078999_2_alg».proof.Proof.KerTerm
import proofs.«165145_j85615878078999_2_alg».proof.Proof.RegionForms
import proofs.«165145_j85615878078999_2_alg».proof.Proof.RefRead
import proofs.«165145_j85615878078999_2_alg».proof.Proof.LibColumnSum
import proofs.«165145_j85615878078999_2_alg».proof.Proof.LibFlattenCasts
import proofs.«165145_j85615878078999_2_alg».proof.Proof.Algebra

noncomputable section

open scoped BigOperators

namespace Cert.Sage

open Idealize.ShloMosaic Idealize.ShloMosaic.ValueIdx Cert.MatrixProduct Cert.KernelIdeal.RegionForms

/-- The sum of column j. -/
def colSum (h : (⟨2, ![50000, 128]⟩ : Shape).Idx → EReal) (j : Fin 128) : EReal := ∑ n : Fin 50000, h (ix2 n j)

/-- The sum of the squares of column j. -/
def colSqSum (h : (⟨2, ![50000, 128]⟩ : Shape).Idx → EReal) (j : Fin 128) : EReal :=
  ∑ n : Fin 50000, h (ix2 n j) * h (ix2 n j)

/-- The mean of column j. -/
def colMean (h : (⟨2, ![50000, 128]⟩ : Shape).Idx → EReal) (j : Fin 128) : EReal :=
  Ideal.div (colSum h j) ((50000 : ℝ) : EReal)

/-- A row repeated down the rows reads, at (p, q), its entry (0, q). -/
theorem bcast_rows_apply {α : Type} {M n : ℕ} (B : (⟨2, ![1, n]⟩ : Shape).Idx → α)
    (h2 : (⟨2, ![1, n]⟩ : Shape).BroadcastsInDim ⟨2, ![M, n]⟩ (![0, 1] : Fin 2 → Fin 2)) (p : Fin M) (q : Fin n) :
    broadcastInDim ⟨2, ![M, n]⟩ (![0, 1] : Fin 2 → Fin 2) h2 B (ix2 p q) = B (ix2 (0 : Fin 1) q) := by
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if n = 1 then 0 else q.val
    split
    · have := q.isLt; omega
    · rfl

/-! ## The reference's statistics -/

section Ref
open Cert.ReferenceIdeal Cert.ReferenceIdeal.Gen Cert.ReferenceIdeal.RefTerm

theorem ref_colsum (h : FVec Ideal S50000x128 .f32) (j : Fin 128) :
    Host.reduceAdd (F := Ideal) h (constant (F := Ideal) S_ .f32 0x00000000#32) reducesTo_S50000x128_S128_d0 h_S_ (ix1 j)
      = colSum h j := by
  show Ideal.hostReduceAdd reducesTo_S50000x128_S128_d0 h (Ideal.ofBits .f32 0x00000000#32) (ix1 j) = _
  rw [Ideal.hostReduceAdd_single reducesTo_S50000x128_S128_d0 (by decide), ofBits_zero, zero_add]
  exact Finset.sum_congr rfl fun n _ => congrArg h (reduces_cols_lift _ j n)

theorem ref_mean (h : FVec Ideal S50000x128 .f32) (j : Fin 128) : mean h (ix1 j) = colMean h j := by
  unfold mean colMean
  show Ideal.div (Host.reduceAdd (F := Ideal) h (constant (F := Ideal) S_ .f32 0x00000000#32) reducesTo_S50000x128_S128_d0 h_S_ (ix1 j))
      (Ideal.ofBits .f32 0x47435000#32) = _
  rw [ref_colsum, ofBits_50000]

theorem varDen_apply (i : S_.Idx) : varDen i = ((50000 : ℝ) : EReal) := by
  unfold varDen
  show Ideal.ofBits .f32 0x47435000#32 - (((0#32 : BitVec 32).toInt : ℝ) : EReal) = _
  rw [ofBits_50000]
  simp

theorem varDev_apply (h : FVec Ideal S50000x128 .f32) (n : Fin 50000) (j : Fin 128) :
    varDev h (ix2 n j) = h (ix2 n j) - colMean h j := by
  unfold varDev
  rw [subf_apply, bcast_rows_apply]
  refine congrArg (h (ix2 n j) - ·) ?_
  show Ideal.div (broadcastInDim S1x128 ![1] bcast_S128_S1x128_1
      (Host.reduceAdd (F := Ideal) h (constant (F := Ideal) S_ .f32 0x00000000#32) reducesTo_S50000x128_S128_d0 h_S_) (ix2 (0 : Fin 1) j))
      (Ideal.ofBits .f32 0x47435000#32) = _
  rw [Cert.Gcn.bcast_row_eq_rowOf, ofBits_50000]
  show Ideal.div (Host.reduceAdd (F := Ideal) h (constant (F := Ideal) S_ .f32 0x00000000#32) reducesTo_S50000x128_S128_d0 h_S_ (ix1 j)) _ = _
  rw [ref_colsum]; rfl

theorem ref_var (h : FVec Ideal S50000x128 .f32) (j : Fin 128) :
    var h (ix1 j) = Ideal.div (∑ n : Fin 50000, (h (ix2 n j) - colMean h j) * (h (ix2 n j) - colMean h j)) ((50000 : ℝ) : EReal) := by
  unfold var
  show Scalar.select (Ideal.cmp .ogt (varDen _) (Ideal.ofBits .f32 0x00000000#32))
      (Ideal.div (Host.reduceAdd (F := Ideal) (mulf (varDev h) (varDev h)) (constant (F := Ideal) S_ .f32 0x00000000#32)
        reducesTo_S50000x128_S128_d0 h_S_ (ix1 j)) (varDen _)) _ = _
  rw [varDen_apply, ofBits_zero, ref_colsum]
  have hc : Ideal.cmp .ogt ((50000 : ℝ) : EReal) 0 = 1#1 := by
    simp [Ideal.cmp]
  rw [hc, select_one]
  refine congrArg (fun z => Ideal.div z ((50000 : ℝ) : EReal)) ?_
  show (∑ n : Fin 50000, mulf (varDev h) (varDev h) (ix2 n j)) = _
  refine Finset.sum_congr rfl fun n _ => ?_
  show varDev h (ix2 n j) * varDev h (ix2 n j) = _
  rw [varDev_apply]

end Ref

end Cert.Sage

end
-- ==== Proof.Norm.lean ====
/-
  The normalisation stage is one function on both sides.

  For an array H of 50000 rows and 128 columns with real entries, the reference normalises column j with the mean
  μ(j) = S(j) / 50000 and the mean of the squared deviations; the kernel's host side adds the ten block sums of the column
  and of its squares, divides by 50000 and takes max(Q(j) / 50000 − μ(j)², 0). The two variances are the same nonnegative
  real v(j), and with the positive real ε both sides add, z · rsqrt(v(j) + ε) = z / sqrt(v(j) + ε). So the normalised,
  scaled and shifted entries agree; the rectifier and the residual are then the same operations on equal entries.
-/
import proofs.«165145_j85615878078999_2_alg».proof.Proof.Stats

noncomputable section

open scoped BigOperators

namespace Cert.Sage

open Idealize.ShloMosaic Idealize.ShloMosaic.ValueIdx Cert.MatrixProduct Cert.KernelIdeal.RegionForms

/-! ## Operations read at an index -/

theorem host_divf_apply {s : Shape} (a b : FVec Ideal s .f32) (i : s.Idx) :
    Host.divf (F := Ideal) a b i = Ideal.div (a i) (b i) := rfl

theorem host_sqrt_apply {s : Shape} (a : FVec Ideal s .f32) (i : s.Idx) :
    Host.sqrt (F := Ideal) a i = Ideal.sqrt (a i) := rfl

/-- A scalar repeated to any shape reads the scalar. -/
theorem bcast_scalar_apply {α : Type} (t : Shape) (hb : (⟨0, ![]⟩ : Shape).BroadcastsInDim t (![] : Fin 0 → Fin t.rank))
    (x : (⟨0, ![]⟩ : Shape).Idx → α) (i : t.Idx) :
    broadcastInDim t (![] : Fin 0 → Fin t.rank) hb x i = x ix0 :=
  congrArg x (funext fun k => k.elim0)

/-- A float word repeated to any shape reads the number the word spells. -/
theorem bcast_word_apply (t : Shape) (hb : (⟨0, ![]⟩ : Shape).BroadcastsInDim t (![] : Fin 0 → Fin t.rank))
    (w : BitVec 32) (i : t.Idx) :
    broadcastInDim t (![] : Fin 0 → Fin t.rank) hb (constant (F := Ideal) ⟨0, ![]⟩ .f32 w) i = Ideal.ofBits .f32 w := rfl

/-! ## The kernel's statistics -/

section Ker
open Cert.KernelIdeal Cert.KernelIdeal.Gen Cert.KernelIdeal.KerTerm

/-- The sum down the ten rows, column by column. -/
theorem ker_colsum (X : FVec Ideal S10x128 .f32) (j : Fin 128) :
    Host.reduceAdd (F := Ideal) X (constant (F := Ideal) S_ .f32 0x00000000#32) reducesTo_S10x128_S128_d0 h_S_ (ix1 j)
      = ∑ t : Fin 10, X (ix2 t j) := by
  show Ideal.hostReduceAdd reducesTo_S10x128_S128_d0 X (Ideal.ofBits .f32 0x00000000#32) (ix1 j) = _
  rw [Ideal.hostReduceAdd_single reducesTo_S10x128_S128_d0 (by decide), ofBits_zero, zero_add]
  exact Finset.sum_congr rfl fun n _ => congrArg X (reduces_cols_lift _ j n)

/-- The ten partial sums of a column added and divided by the row count. -/
theorem ker_mean (P : FVec Ideal S10x1x128 .f32) (j : Fin 128) :
    meanOf P (ix2 (0 : Fin 1) j) = Ideal.div (∑ t : Fin 10, P (ix3 t (0 : Fin 1) j)) ((50000 : ℝ) : EReal) := by
  unfold meanOf
  rw [host_divf_apply, Cert.Gcn.bcast_row_eq_rowOf, bcast_word_apply, ofBits_50000]
  show Ideal.div (Host.reduceAdd (F := Ideal) (shapeCast S10x128 P shapeCasts_S10x1x128_S10x128)
      (constant (F := Ideal) S_ .f32 0x00000000#32) reducesTo_S10x128_S128_d0 h_S_ (ix1 j)) _ = _
  rw [ker_colsum]
  exact congrArg (fun z => Ideal.div z ((50000 : ℝ) : EReal))
    (Finset.sum_congr rfl fun t _ => shapeCast_a1b_ab_apply P _ t j)

/-- The kernel's column mean is the column mean. -/
theorem ker_mean_h (h : FVec Ideal S50000x128 .f32) (j : Fin 128) :
    meanOf (blockSums h) (ix2 (0 : Fin 1) j) = colMean h j :=
  (ker_mean (blockSums h) j).trans
    (congrArg (fun z => Ideal.div z ((50000 : ℝ) : EReal)) (sum_rows_blocks (fun n : Fin 50000 => h (ix2 n j))).symm)

/-- The kernel's mean of a column's squares. -/
theorem ker_sqmean_h (h : FVec Ideal S50000x128 .f32) (j : Fin 128) :
    meanOf (blockSqSums h) (ix2 (0 : Fin 1) j)
      = Ideal.div (∑ n : Fin 50000, h (ix2 n j) * h (ix2 n j)) ((50000 : ℝ) : EReal) :=
  (ker_mean (blockSqSums h) j).trans
    (congrArg (fun z => Ideal.div z ((50000 : ℝ) : EReal))
      (sum_rows_blocks (fun n : Fin 50000 => h (ix2 n j) * h (ix2 n j))).symm)

/-- The kernel's variance: the mean of the squares less the squared mean, not below zero. -/
theorem ker_var_h (h : FVec Ideal S50000x128 .f32) (j : Fin 128) :
    varOf (blockSums h) (blockSqSums h) (ix2 (0 : Fin 1) j)
      = max (Ideal.div (∑ n : Fin 50000, h (ix2 n j) * h (ix2 n j)) ((50000 : ℝ) : EReal)
          - colMean h j * colMean h j) 0 := by
  unfold varOf
  rw [maximumf_apply, subf_apply, mulf_apply, bcast_word_apply, ker_sqmean_h, ker_mean_h, ofBits_zero]

/-- A vector laid out as one row reads its entries. -/
theorem row_apply (b : FVec Ideal S128 .f32) (j : Fin 128) : row b (ix2 (0 : Fin 1) j) = b (ix1 j) :=
  shapeCast_a_1a_apply b _ 0 j

/-- A scalar repeated along one row reads the scalar. -/
theorem aRow_apply (a : FVec Ideal S_ .f32) (j : Fin 128) : aRow a (ix2 (0 : Fin 1) j) = a ix0 :=
  bcast_scalar_apply _ _ a _

end Ker

/-! ## The two variances are one nonnegative real -/

section Both
open Cert.KernelIdeal.KerTerm

theorem stats (h : FVec Ideal Cert.ReferenceIdeal.S50000x128 .f32) (hreal : ∀ i, IsReal (h i)) (j : Fin 128) :
    ∃ v : ℝ, 0 ≤ v ∧ varOf (blockSums h) (blockSqSums h) (ix2 (0 : Fin 1) j) = (v : EReal)
      ∧ Cert.ReferenceIdeal.RefTerm.var h (ix1 j) = (v : EReal) := by
  obtain ⟨e, v, hv, ev⟩ := var_forms (fun n : Fin 50000 => h (ix2 n j)) (fun n => hreal _) 50000
    (by rw [Fintype.card_fin]; norm_num) (by norm_num)
  refine ⟨v, hv, ?_, ?_⟩
  · rw [ker_var_h]; exact e.trans ev
  · rw [ref_var]; exact ev

end Both

/-! ## The reference's stage at an entry -/

section Ref
open Cert.ReferenceIdeal Cert.ReferenceIdeal.Gen Cert.ReferenceIdeal.RefTerm

/-- The normalised, scaled and shifted entry on the reference's side. -/
theorem affine_apply (h : FVec Ideal S50000x128 .f32) (gamma beta : FVec Ideal S128 .f32) (r : Fin 50000) (j : Fin 128) :
    affine h gamma beta (ix2 r j)
      = Ideal.div (gamma (ix1 j) * (h (ix2 r j) - mean h (ix1 j)))
          (Ideal.sqrt (var h (ix1 j) + Ideal.ofBits .f32 0x3727C5AC#32))
        + beta (ix1 j) := by
  unfold affine
  rw [addf_apply, host_divf_apply, mulf_apply, subf_apply, bias_rows_apply, bias_rows_apply, bias_rows_apply,
    bias_rows_apply, host_sqrt_apply, addf_apply, bcast_word_apply]

/-- The reference's stage at an entry: the rectifier on the normalised entry, plus the input. -/
theorem norm_apply (h x : FVec Ideal S50000x128 .f32) (gamma beta : FVec Ideal S128 .f32) (a : FVec Ideal S_ .f32)
    (r : Fin 50000) (j : Fin 128) :
    RefTerm.norm h x gamma beta a (ix2 r j)
      = Scalar.select (Ideal.cmp .oge (affine h gamma beta (ix2 r j)) (Ideal.ofBits .f32 0x00000000#32))
          (affine h gamma beta (ix2 r j)) (a ix0 * affine h gamma beta (ix2 r j))
        + x (ix2 r j) := by
  unfold RefTerm.norm
  rw [addf_apply, select_apply, cmpf_apply, mulf_apply, bcast_word_apply, bcast_scalar_apply]
  rfl

end Ref

/-! ## The stage is one function -/

theorem norm_eq (h x : FVec Ideal Cert.ReferenceIdeal.S50000x128 .f32)
    (gamma beta : FVec Ideal Cert.ReferenceIdeal.S128 .f32) (a : FVec Ideal Cert.ReferenceIdeal.S_ .f32)
    (hreal : ∀ i, IsReal (h i)) :
    Cert.ReferenceIdeal.RefTerm.norm h x gamma beta a
      = Cert.KernelIdeal.RegionForms.norm1 h x
          (Cert.KernelIdeal.KerTerm.meanOf (Cert.KernelIdeal.RegionForms.blockSums h))
          (Cert.KernelIdeal.KerTerm.varOf (Cert.KernelIdeal.RegionForms.blockSums h)
            (Cert.KernelIdeal.RegionForms.blockSqSums h))
          (Cert.KernelIdeal.KerTerm.row gamma) (Cert.KernelIdeal.KerTerm.row beta) (Cert.KernelIdeal.KerTerm.aRow a) := by
  funext i
  obtain ⟨r, j, rfl⟩ : ∃ (r : Fin 50000) (j : Fin 128), i = ix2 r j := ⟨i 0, i 1, eq_ix2 i⟩
  obtain ⟨v, hv, ekv, erv⟩ := stats h hreal j
  obtain ⟨ε, hε, eε⟩ := ofBits_eps
  have hpos : 0 < v + ε := by linarith
  have hn : Cert.ReferenceIdeal.RefTerm.affine h gamma beta (ix2 r j)
      = normed h (Cert.KernelIdeal.KerTerm.meanOf (blockSums h))
          (Cert.KernelIdeal.KerTerm.varOf (blockSums h) (blockSqSums h))
          (Cert.KernelIdeal.KerTerm.row gamma) (Cert.KernelIdeal.KerTerm.row beta) (ix2 r j) := by
    rw [affine_apply, normed_apply, row_apply, row_apply, ker_mean_h, ekv, ref_mean, erv, eε, ← EReal.coe_add,
      mul_rsqrt_coe _ _ hpos]
  rw [norm_apply, norm1_apply, aRow_apply, hn]

end Cert.Sage

end
-- ==== Proof.Bridge.lean ====
/-
  The two programs compute one function. With real features, first-layer weights and bias:
  the kernel's first dense stage is the reference's first layer (a product with the reciprocal of the clipped in-degree
  is the quotient by it); its entries are real, so the two normalisation stages agree (the two forms of the variance,
  and the reciprocal square root against the quotient by the square root); the second dense stage is the reference's
  second layer for the same reason as the first; and the two log-softmax forms agree row by row.
-/
import proofs.«165145_j85615878078999_2_alg».proof.Proof.KerBridge
import proofs.«165145_j85615878078999_2_alg».proof.Proof.RefLsm
import proofs.«165145_j85615878078999_2_alg».proof.Proof.Norm
import proofs.«165145_j85615878078999_2_alg».proof.Proof.KerOut

noncomputable section

open scoped BigOperators

namespace Cert.Sage

open Idealize.ShloMosaic Idealize.ShloMosaic.ValueIdx Cert.MatrixProduct Cert.KernelIdeal.RegionForms

section
open Cert.KernelIdeal.KerValue Cert.ReferenceIdeal.RefTerm

theorem layer1_eq (x : FVec Ideal Cert.KernelIdeal.S50000x128 .f32) (ei : IVec Cert.KernelIdeal.S2x800000 32)
    (Wl1 : FVec Ideal Cert.KernelIdeal.S128x128 .f32) (bl1 : FVec Ideal Cert.KernelIdeal.S128 .f32)
    (Wr1 : FVec Ideal Cert.KernelIdeal.S128x128 .f32) :
    layer1 x ei Wl1 bl1 Wr1 = conv1 ei x Wl1 bl1 Wr1 := by
  unfold Cert.KernelIdeal.KerValue.layer1
  rw [conv1_eq_lin, aggSum_eq, invc_eq, wT_eq, wT_eq, row_eq]

theorem hidden_eq (x : FVec Ideal Cert.KernelIdeal.S50000x128 .f32) (ei : IVec Cert.KernelIdeal.S2x800000 32)
    (Wl1 : FVec Ideal Cert.KernelIdeal.S128x128 .f32) (bl1 : FVec Ideal Cert.KernelIdeal.S128 .f32)
    (Wr1 : FVec Ideal Cert.KernelIdeal.S128x128 .f32) (gamma beta : FVec Ideal Cert.KernelIdeal.S128 .f32)
    (a : FVec Ideal Cert.KernelIdeal.S_ .f32)
    (hx : ∀ i, IsReal (x i)) (hWl : ∀ i, IsReal (Wl1 i)) (hb : ∀ i, IsReal (bl1 i)) (hWr : ∀ i, IsReal (Wr1 i)) :
    hidden x ei Wl1 bl1 Wr1 gamma beta a = norm (conv1 ei x Wl1 bl1 Wr1) x gamma beta a := by
  unfold Cert.KernelIdeal.KerValue.hidden
  rw [layer1_eq]
  exact (norm_eq (conv1 ei x Wl1 bl1 Wr1) x gamma beta a (conv1_real ei x Wl1 bl1 Wr1 hx hWl hb hWr)).symm

/-- The kernel program's result term is the reference's. -/
theorem kerOut_eq_refOut (x : FVec Ideal Cert.KernelIdeal.S50000x128 .f32) (ei : IVec Cert.KernelIdeal.S2x800000 32)
    (Wl1 : FVec Ideal Cert.KernelIdeal.S128x128 .f32) (bl1 : FVec Ideal Cert.KernelIdeal.S128 .f32)
    (Wr1 : FVec Ideal Cert.KernelIdeal.S128x128 .f32) (Wl2 : FVec Ideal Cert.KernelIdeal.S16x128 .f32)
    (bl2 : FVec Ideal Cert.KernelIdeal.S16 .f32) (Wr2 : FVec Ideal Cert.KernelIdeal.S16x128 .f32)
    (gamma beta : FVec Ideal Cert.KernelIdeal.S128 .f32) (a : FVec Ideal Cert.KernelIdeal.S_ .f32)
    (hx : ∀ i, IsReal (x i)) (hWl : ∀ i, IsReal (Wl1 i)) (hb : ∀ i, IsReal (bl1 i)) (hWr : ∀ i, IsReal (Wr1 i)) :
    kerOut x ei Wl1 bl1 Wr1 Wl2 bl2 Wr2 gamma beta a = refOut x ei Wl1 bl1 Wr1 Wl2 bl2 Wr2 gamma beta a := by
  unfold Cert.KernelIdeal.KerValue.kerOut Cert.ReferenceIdeal.RefTerm.refOut
  rw [hidden_eq x ei Wl1 bl1 Wr1 gamma beta a hx hWl hb hWr, lsm_eq_lsm2, conv2_eq_lin, aggSum_eq, invc_eq, wT2_eq, wT2_eq,
    row16_eq]

end

end Cert.Sage

end
-- ==== Proof.lean ====
/-
  A two-layer neighbourhood-averaging network on a graph of 50000 nodes and 800000 edges — per layer, for every node, the
  mean of its in-neighbours' rows (a gather along the edges' sources summed into the edges' destinations, over the
  in-degree clipped below at one) through one linear map with bias, plus the node's own row through another; between the
  layers a column normalisation with scale, shift, leaky rectifier and residual; a row-wise log-softmax at the end — computed
  two ways, and the claim that the two results are equal over the extended reals when the inputs are finite.

  The kernel program forms the neighbour sums on the host and runs three gridded regions of ten blocks of 5000 rows:
  the first dense stage (with each block's column sums and sums of squares), the normalisation, and the second dense stage
  with the log-softmax. What differs from the reference, and why it does not matter at the exact extended reals:
    * it multiplies by the reciprocal 1 / c of the clipped in-degree where the reference divides by c: c ≥ 1 is not zero,
      and off zero x · (1 / c) = x / c;
    * it narrows matrix operands to a shorter float format: the identity here;
    * it takes the variance as mean of squares minus squared mean, clipped below at zero, from block sums, where the reference
      takes the mean of the squared deviations: for real entries these are one number, not negative — and the entries of the
      first layer are real because the inputs are finite;
    * it multiplies by the reciprocal square root where the reference divides by the square root: equal at a positive real.
  The frames of the two kernel programs are the generated ones; the reference's is its run with the result dropped.
-/
import proofs.«165145_j85615878078999_2_alg».proof.Defs
import proofs.«165145_j85615878078999_2_alg».proof.Proof.Gen.Kernel
import proofs.«165145_j85615878078999_2_alg».proof.Proof.Gen.Kernel.Skeleton
import proofs.«165145_j85615878078999_2_alg».proof.Proof.Gen.Kernel.Launch
import proofs.«165145_j85615878078999_2_alg».proof.Proof.Gen.Kernel.Points
import proofs.«165145_j85615878078999_2_alg».proof.Proof.Gen.Kernel.Frame
import proofs.«165145_j85615878078999_2_alg».proof.Proof.Gen.KernelIdeal
import proofs.«165145_j85615878078999_2_alg».proof.Proof.Gen.KernelIdeal.Skeleton
import proofs.«165145_j85615878078999_2_alg».proof.Proof.Gen.KernelIdeal.Launch
import proofs.«165145_j85615878078999_2_alg».proof.Proof.Gen.KernelIdeal.Points
import proofs.«165145_j85615878078999_2_alg».proof.Proof.Gen.KernelIdeal.Frame
import proofs.«165145_j85615878078999_2_alg».proof.Proof.Gen.ReferenceIdeal
import proofs.«165145_j85615878078999_2_alg».proof.Proof.Gen.Pre_finite_inputs
import proofs.«165145_j85615878078999_2_alg».proof.Proof.KerRun
import proofs.«165145_j85615878078999_2_alg».proof.Proof.KerValue
import proofs.«165145_j85615878078999_2_alg».proof.Proof.RefRun
import proofs.«165145_j85615878078999_2_alg».proof.Proof.Finite
import proofs.«165145_j85615878078999_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From memories that agree on the arguments both programs end with one result: the kernel program's result term,
    which under the precondition is the reference's. -/
theorem algebraic : Cert.algebraic_KernelIdeal_ReferenceIdeal := by
  intro m ρ m' ρ' hpre hagree
  refine ⟨fun c => Cert.KernelIdeal.KerValue.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KerValue.value m ρ c), (h c).2⟩)
      (Cert.KernelIdeal.KerRun.run_valued m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10⟩ := hagree c
    rw [h0, h1, h2, h3, h4, h5, h6, h7, h8, h9, h10]
    obtain ⟨hx, hWl, hb, hWr⟩ := Cert.Sage.real_of_pre _ _ _ _ _ _ _ _ _ _ _ (hpre c)
    exact (Cert.Sage.kerOut_eq_refOut _ _ _ _ _ _ _ _ _ _ _ hx hWl hb hWr).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
